-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3200000 : Shape := ⟨1, ![3200000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3200000 : S_.BroadcastsInDim S3200000 (![] : Fin 0 → Fin S3200000.rank)
  reducesTo_S3200000_S_d0 : S3200000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg5 : IVec S4096 32) (main_arg6 : IVec S4096 32) (main_arg7 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg5 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg6 main_v21
  let main_c_8 : IVec S_ 32 := constantI S_ 32 50000#32
  let main_v23 : IVec S4096 32 := broadcastInDim S4096 ![] bcast_S_S4096 main_c_8
  let main_v24 : IVec S4096 1 := cmpi .slt main_arg6 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg7 main_v28
  let main_c_11 : IVec S_ 32 := constantI S_ 32 50000#32
  let main_v30 : IVec S4096 32 := broadcastInDim S4096 ![] bcast_S_S4096 main_c_11
  let main_v31 : IVec S4096 1 := cmpi .slt main_arg7 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : FVec F S100000x64 .f32) (main_arg1 : FVec F S50000x64 .f32) (main_arg2 : IVec S3200000 32) (main_arg3 : IVec S3200000 32) (main_arg4 : FVec F S3200000 .f32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_c_5 : IVec S_ 32 := constantI S_ 32 100000#32
  fn_part1 (F := F) main_arg5 main_arg6 main_arg7 main_v13 main_v15 main_c_5
-- ==== Kernel.lean ====
abbrev S100000x64 : Shape := ⟨2, ![100000, 64]⟩
abbrev S50000x64 : Shape := ⟨2, ![50000, 64]⟩
abbrev S3200000 : Shape := ⟨1, ![3200000]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S10000x64 : Shape := ⟨2, ![10000, 64]⟩
abbrev S150000x1x64 : Shape := ⟨3, ![150000, 1, 64]⟩
abbrev S4096x1x64 : Shape := ⟨3, ![4096, 1, 64]⟩
abbrev S1x1x64 : Shape := ⟨3, ![1, 1, 64]⟩
abbrev S1 : Shape := ⟨1, ![1]⟩
abbrev S4096x64 : Shape := ⟨2, ![4096, 64]⟩

abbrev nBuf : Space → Nat
  | .hbm => 68
  | .vmem => 22
  | .smem => 3
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S150000x64, .f32⟩
  | .hbm, ⟨22, _⟩ => ⟨S3200000x1, .i32⟩
  | .hbm, ⟨23, _⟩ => ⟨S150000x64, .f32⟩
  | .hbm, ⟨24, _⟩ => ⟨S3200000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S150000x64, .f32⟩
  | .hbm, ⟨38, _⟩ => ⟨S3200000x1, .i32⟩
  | .hbm, ⟨39, _⟩ => ⟨S150000x64, .f32⟩
  | .hbm, ⟨40, _⟩ => ⟨S3200000x1, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x64, .f32⟩
  | .hbm, ⟨50, _⟩ => ⟨S3200000x64, .f32⟩
  | .hbm, ⟨51, _⟩ => ⟨S3200000x64, .f32⟩
  | .hbm, ⟨52, _⟩ => ⟨S_, .f32⟩
  | .hbm, ⟨53, _⟩ => ⟨S150000x64, .f32⟩
  | .hbm, ⟨54, _⟩ => ⟨S3200000x1, .i32⟩
  | .hbm, ⟨55, _⟩ => ⟨S150000x64, .f32⟩
  | .hbm, ⟨56, _⟩ => ⟨S150000x64, .f32⟩
  | .hbm, ⟨57, _⟩ => ⟨S_, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S150000x1x64, .f32⟩
  | .hbm, ⟨62, _⟩ => ⟨S4096x1x64, .f32⟩
  | .hbm, ⟨63, _⟩ => ⟨S4096x1x64, .f32⟩
  | .hbm, ⟨64, _⟩ => ⟨S4096x1x64, .f32⟩
  | .hbm, ⟨65, _⟩ => ⟨S4096x64, .f32⟩
  | .hbm, ⟨66, _⟩ => ⟨S4096x64, .f32⟩
  | .hbm, ⟨67, _⟩ => ⟨S4096x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_c_8 : Ref sig .tc := ⟨.hbm, 59, rfl⟩
abbrev main_v43 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_arg5 : Ref sig .tc := ⟨.smem, 0, rfl⟩
abbrev main_v42 : Ref sig .tc := ⟨.smem, 1, rfl⟩
abbrev main_v44 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4096], ![false]⟩

abbrev pre1 : Pipeline.Prefetch sig := ⟨3, ![main_arg5.idx, main_v42.idx, main_v44.idx], fun | 0 => main_arg5.names | 1 => main_v42.names | 2 => main_v44.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S4096.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S4096.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S4096.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 2 (Rect.unit (s := S4096) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S4096 : S_.BroadcastsInDim S4096 (![] : Fin 0 → Fin S4096.rank)
  shapeCasts_S150000x64_S150000x1x64 : S150000x64.ShapeCasts S150000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S4096x1x64_S4096x64 : S4096x1x64.ShapeCasts S4096x64
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S150000x64.size a
  hwx0_1 : ∀ i : grid0.Coords, EltTy.bits .f32 = 32 ∨ (Rect.block (s := S150000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S150000x64.size a
  hwx0_3 : ∀ i : grid0.Coords, EltTy.bits .f32 = 32 ∨ (Rect.block (s := S150000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S150000x64.size a
  hwx0_4 : ∀ i : grid0.Coords, EltTy.bits .f32 = 32 ∨ (Rect.block (s := S150000x64) S10000x64.size (cc0_transform_4 i) (hinb0_4 i)).WholeWords (EltTy.packing .f32)
  hrank1 : 0 < grid1.rank
  k1_off1_inb : ∀ i : grid1.Coords, ∀ a, (k1_off1 i) a + S1.size a ≤ S4096.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S4096x1x64.size a
  hwx1_3 : ∀ i : grid1.Coords, EltTy.bits .f32 = 32 ∨ (Rect.block (s := S4096x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S4096x1x64.size a
  hwx1_4 : ∀ i : grid1.Coords, EltTy.bits .f32 = 32 ∨ (Rect.block (s := S4096x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S4096x1x64.size a
  hwx1_5 : ∀ i : grid1.Coords, EltTy.bits .f32 = 32 ∨ (Rect.block (s := S4096x1x64) S1x1x64.size (cc1_transform_5 i) (hinb1_5 i)).WholeWords (EltTy.packing .f32)

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf

abbrev win0_0 : Pipeline.Window sig grid0 :=
  Pipeline.Window.ofSpec (Memref.whole main_v0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v45) S1x1x64.size reads1_0 false false 2 stage1_0 sem1_0 nbuf1_0 hstage1_0

abbrev spec1_1 : Pipeline.WinSpec sig grid1.rank :=
  Pipeline.WinSpec.ofSpec (Memref.whole main_v45) S1x1x64.size reads1_1 false false 2 stage1_1 sem1_1 nbuf1_1 hstage1_1

abbrev spec1_2 : Pipeline.WinSpec sig grid1.rank :=
  Pipeline.WinSpec.ofSpec (Memref.whole main_v45) S1x1x64.size reads1_2 false false 2 stage1_2 sem1_2 nbuf1_2 hstage1_2

abbrev spec1_3 : Pipeline.WinSpec sig grid1.rank :=
  Pipeline.WinSpec.ofSpec (Memref.whole main_v46_0) S1x1x64.size reads1_3 true false 2 stage1_3 sem1_3 nbuf1_3 hstage1_3

abbrev spec1_4 : Pipeline.WinSpec sig grid1.rank :=
  Pipeline.WinSpec.ofSpec (Memref.whole main_v46_1) S1x1x64.size reads1_4 true false 2 stage1_4 sem1_4 nbuf1_4 hstage1_4

abbrev spec1_5 : Pipeline.WinSpec sig grid1.rank :=
  Pipeline.WinSpec.ofSpec (Memref.whole main_v46_2) S1x1x64.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 | 4 => hreads1_4 | 5 => hreads1_5 | ⟨_ + 6, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S150000x1x64.size a), EltTy.bits .f32 = 32 ∨ (Rect.block (s := S150000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S150000x1x64.size a), EltTy.bits .f32 = 32 ∨ (Rect.block (s := S150000x1x64) S1x1x64.size (cc1_transform_1 k1_off1_inb numel1_S1 pf i) h).WholeWords (EltTy.packing .f32)) ∧
  (∀ i : grid1.Coords, ∃ h : (∀ a, (cc1_transform_2 k1_off1_inb numel1_S1 pf i a + 1) * S1x1x64.size a ≤ S150000x1x64.size a), EltTy.bits .f32 = 32 ∨ (Rect.block (s := S150000x1x64) S1x1x64.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2 i).elim fun h _ => h a | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2 i).elim fun _ h => h | 3 => hwx1_3 | 4 => hwx1_4 | 5 => hwx1_5 | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S100000x64 : Shape := ⟨2, ![100000, 64]⟩
abbrev S50000x64 : Shape := ⟨2, ![50000, 64]⟩
abbrev S3200000 : Shape := ⟨1, ![3200000]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S4096x1 : Shape := ⟨2, ![4096, 1]⟩
abbrev S4096x64 : Shape := ⟨2, ![4096, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S150000x64, .f32⟩
  | .hbm, ⟨23, _⟩ => ⟨S3200000x1, .i32⟩
  | .hbm, ⟨24, _⟩ => ⟨S150000x64, .f32⟩
  | .hbm, ⟨25, _⟩ => ⟨S150000x64, .f32⟩
  | .hbm, ⟨26, _⟩ => ⟨S3200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S150000x64, .f32⟩
  | .hbm, ⟨40, _⟩ => ⟨S3200000x1, .i32⟩
  | .hbm, ⟨41, _⟩ => ⟨S150000x64, .f32⟩
  | .hbm, ⟨42, _⟩ => ⟨S150000x64, .f32⟩
  | .hbm, ⟨43, _⟩ => ⟨S3200000x1, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S150000x64, .f32⟩
  | .hbm, ⟨57, _⟩ => ⟨S3200000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.PoolBody.lean ====
/- Pipeline 0 (the four-way average): the contents its body leaves, the proof data of the
   pipeline at given entry contents of the buffers, and the obligation of its body at every grid point. -/
import proofs.«116102_j28415503630676_2_alg».proof.Proof.Gen.KernelIdeal.Launch
import proofs.«116102_j28415503630676_2_alg».proof.Proof.Gen.KernelIdeal.Skeleton
import proofs.«116102_j28415503630676_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the pipeline starts
variable (V : (c : Dev nD) → (b : Ref sig .tc) → Buf (Elt F) ((c : Thread nD τ).loc b))

/-! ## Blocks -/

/-- The block of window `w` at grid point `t`, read from the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-block rectangle and the stored value -/

/-- The rectangle of every access of the body: the whole 10000 × 64 block, from the origin. -/
abbrev full : Rect S10000x64 := Rect.unit (s := S10000x64) ![0, 0] S10000x64.size inb_S10000x64_S10000x64_0_0

theorem origin : (![0, 0] : Fin 2 → Nat) = fun _ => 0 := funext fun a => by fin_cases a <;> rfl

/-- The output block after the body, as a function of the four input blocks: the one store's value,
    ((x0 + x1) + x2 + x3) / 4 elementwise, laid over the whole block. -/
def out0_4 (x0 x1 x2 x3 : Vec F S10000x64 .f32) : Vec F S10000x64 .f32 :=
  View.canon [⟨full, k0_pay1 (View.ld x0 full) (View.ld x1 full) (View.ld x2 full) (View.ld x3 full)⟩]

/-- One store over the whole block leaves exactly the stored value. -/
theorem out0_4_eq (x0 x1 x2 x3 : Vec F S10000x64 .f32) : out0_4 x0 x1 x2 x3 = k0_pay1 x0 x1 x2 x3 := by
  unfold out0_4
  rw [View.canon_unit_zero (S := S10000x64) origin inb_S10000x64_S10000x64_0_0,
    View.ld_unit_zero (S := S10000x64) origin inb_S10000x64_S10000x64_0_0 x0,
    View.ld_unit_zero (S := S10000x64) origin inb_S10000x64_S10000x64_0_0 x1,
    View.ld_unit_zero (S := S10000x64) origin inb_S10000x64_S10000x64_0_0 x2,
    View.ld_unit_zero (S := S10000x64) origin inb_S10000x64_S10000x64_0_0 x3]

/-- The one store reaches every index of the block. -/
theorem full_covers (p : Vec F S10000x64 .f32) (y : S10000x64.Idx) :
    ∃ pc ∈ ([⟨full, p⟩] : List (View.Piece (Elt F) S10000x64 .f32)), y ∈ pc.1.set :=
  ⟨_, List.mem_singleton_self _, View.mem_set_unit_zero (S := S10000x64) origin inb_S10000x64_S10000x64_0_0 y⟩

/-! ## The body on whole buffers -/

/-- Run on five whole buffers, the first four holding `x0 … x3` and the fifth anything, the body ends with the
    first four unchanged and the fifth holding `out0_4 x0 x1 x2 x3`. (It reads the fifth once before
    writing it; nothing depends on that read.) -/
theorem accum_triple (c : Dev nD) (E : Set ℕ) (i : grid0.Coords)
    (a0 : Memref sig .tc .vmem S10000x64 .f32) (h0 : a0.IsWhole) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole)
    (x0 x1 x2 x3 : Vec F S10000x64 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out0_4 x0 x1 x2 x3)) -∗ K ⟨⟩))
      ⊢ wp frame (wpE (defs₀ (F := F)) Variants.none c none) E (cc0__accum_kernel i a0 h0 a1 h1 a2 h2 a3 h3 a4 h4) K := by
  simp only [cc0__accum_kernel_eq_skeleton]; unfold cc0__accum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (full_covers _)

/-! ## The proof data of the pipeline -/

/-- Arrays at their entry contents; after the body at point `t`, each input's buffer still at its block and the
    output's buffer at `out0_4` of the four input blocks; the invariant is the rest of the core's state, which
    the pipeline never touches; whole shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## What an input's buffer holds when the body starts

An input window is never idle and is not cut, and the body leaves its block in place; so at every point, whether
or not the window was fetched there, its current buffer holds the block of that point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The obligation of the body, at every grid point -/

/-- What the body is handed at point `t`: the invariant, the (empty) debt, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debt, and each buffer at what the data say it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The four inputs' buffers hold their blocks, so the body's triple applies; the invariant and the debt are
    carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (accum_triple c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Pool

end
-- ==== Proof.Rows.lean ====
/-
  The second kernel copies rows. At grid point t it is handed three blocks [1,1,64] of ONE array
  [150000,1,64] — block number table_k(t) of it, for the three tables k = 0, 1, 2 — and stores each
  unchanged into block t of the k-th output [4096,1,64]. This module states what each output's
  buffer holds after the body (the block that was read), the proof data of the pipeline at any
  admissible contents `a` of the tables, and the body obligation. The three input windows read
  one array, so each holds it at a third of the full share: the left half, and the two halves of
  the right half.
-/
import proofs.«116102_j28415503630676_2_alg».proof.Proof.Gen.KernelIdeal.Launch
import proofs.«116102_j28415503630676_2_alg».proof.Proof.Gen.KernelIdeal.Skeleton
import proofs.«116102_j28415503630676_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))
-- admissible contents of the three tables
variable (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The whole block as a rectangle. -/
abbrev r1 : Rect S1x1x64 := Rect.unit (s := S1x1x64) ![0, 0, 0] S1x1x64.size inb_S1x1x64_S1x1x64_0_0_0

/-- What the body leaves in the three outputs' buffers: its one whole-block store each. -/
def out1_3 (x0 : Vec F S1x1x64 .f32) : Vec F S1x1x64 .f32 := View.canon [⟨r1, k1_pay1 (View.ld x0 r1)⟩]
def out1_4 (x1 : Vec F S1x1x64 .f32) : Vec F S1x1x64 .f32 := View.canon [⟨r1, k1_pay2 (View.ld x1 r1)⟩]
def out1_5 (x2 : Vec F S1x1x64 .f32) : Vec F S1x1x64 .f32 := View.canon [⟨r1, k1_pay3 (View.ld x2 r1)⟩]

/-- One whole-block store covers the buffer. -/
theorem cover1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs: the three inputs' buffers are read and kept, each output's buffer ends
    holding the input block it copies. The tables' memrefs are not touched. -/
theorem sound_kernel1 (c : Dev nD) (E : Set ℕ) (i : grid1.Coords)
    (t1 : Memref sig .tc .smem S4096 .i32) (ht1 : t1.IsWhole) (t2 : Memref sig .tc .smem S4096 .i32) (ht2 : t2.IsWhole)
    (t3 : Memref sig .tc .smem S4096 .i32) (ht3 : t3.IsWhole)
    (arg4 : Memref sig .tc .vmem S1x1x64 .f32) (harg4 : arg4.IsWhole) (arg5 : Memref sig .tc .vmem S1x1x64 .f32) (harg5 : arg5.IsWhole)
    (arg6 : Memref sig .tc .vmem S1x1x64 .f32) (harg6 : arg6.IsWhole) (arg7 : Memref sig .tc .vmem S1x1x64 .f32) (harg7 : arg7.IsWhole)
    (arg8 : Memref sig .tc .vmem S1x1x64 .f32) (harg8 : arg8.IsWhole) (arg9 : Memref sig .tc .vmem S1x1x64 .f32) (harg9 : arg9.IsWhole)
    (x0 x1 x2 : Vec F S1x1x64 .f32) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2
            ∗ owns (c : Thread nD τ) arg7 fullShare (out1_3 x0) ∗ owns (c : Thread nD τ) arg8 fullShare (out1_4 x1)
            ∗ owns (c : Thread nD τ) arg9 fullShare (out1_5 x2)) -∗ K ⟨⟩))
      ⊢ wp frame (wpE (defs₀ (F := F)) Variants.none c none) E
          (cc1__gather_kernel i t1 ht1 t2 ht2 t3 ht3 arg4 harg4 arg5 harg5 arg6 harg6 arg7 harg7 arg8 harg8 arg9 harg9) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-! ## The proof data -/

/-- The share each window holds its array at. The three input windows read ONE array: the left half of the full
    share, and the two halves of its right half; an output's array is held whole. -/
def shr : Fin 6 → PosShare TreeShare
  | ⟨0, _⟩ => fullShare.left
  | ⟨1, _⟩ => fullShare.right.left
  | ⟨2, _⟩ => fullShare.right.right
  | _ => fullShare

/-- The proof data of the pipeline at the tables' contents `a` on core `c`: the arrays as the region finds them;
    after the body each input's buffer at its block and each output's at the block it copies; the invariant is the
    scoped rest, the generator register and the three tables, untouched; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out1_3 (iblk1 V a c 0 t)
    | ⟨4, _⟩ => out1_4 (iblk1 V a c 1 t)
    | ⟨5, _⟩ => out1_5 (iblk1 V a c 2 t)
  Φ _ := iprop(Pipeline.ΦA spec1 c ∗ Pipeline.prefHeld pre1 c (fun _ => fullShare) a.1)
  q := shr
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = out1_3 (iblk1 V a c 0 t) := by dsimp only [dat1]; try rfl
theorem after1_4 (c : Dev nD) (t : Fin (cfg1 a).N) : (dat1 V a c).after 4 t = out1_4 (iblk1 V a c 1 t) := by dsimp only [dat1]; try rfl
theorem after1_5 (c : Dev nD) (t : Fin (cfg1 a).N) : (dat1 V a c).after 5 t = out1_5 (iblk1 V a c 2 t) := by dsimp only [dat1]; try rfl

/-- An input window's current buffer holds its block at every point, whether the point fetched it or the block
    number did not move since the last fetch. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- The staging buffer the pipeline hands the body for window `w` at point `t`. -/
abbrev st1 (t : Fin (cfg1 a).N) (w : Fin (cfg1 a).W) := (spec1 w).stage ((cfg1 a).slots t w)

/-- The body at point `t`, on what the pipeline calls it with. -/
abbrev bodyAt1 (t : Fin (cfg1 a).N) : Prog (TpuEff nD τ sig (Elt F) Λ₀ .tc) PUnit :=
  cc1__gather_kernel (grid1.coords t) (Memref.whole main_arg5) (Memref.isWhole_whole _) (Memref.whole main_v42) (Memref.isWhole_whole _)
    (Memref.whole main_v44) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))

def bodyPre1 (c : Dev nD) (t : Fin (cfg1 a).N) : sProp 𝕄 :=
  iprop((dat1 V a c).Φ t.castSucc ∗ (dat1 V a c).owesAt () t.castSucc
    ∗ (∃ d, owns (c : Thread nD τ) (st1 a t 0) fullShare ((dat1 V a c).before 0 t d))
    ∗ (∃ d, owns (c : Thread nD τ) (st1 a t 1) fullShare ((dat1 V a c).before 1 t d))
    ∗ (∃ d, owns (c : Thread nD τ) (st1 a t 2) fullShare ((dat1 V a c).before 2 t d))
    ∗ (∃ d, owns (c : Thread nD τ) (st1 a t 3) fullShare ((dat1 V a c).before 3 t d))
    ∗ (∃ d, owns (c : Thread nD τ) (st1 a t 4) fullShare ((dat1 V a c).before 4 t d))
    ∗ (∃ d, owns (c : Thread nD τ) (st1 a t 5) fullShare ((dat1 V a c).before 5 t d)))

def bodyPost1 (c : Dev nD) (t : Fin (cfg1 a).N) : sProp 𝕄 :=
  iprop((dat1 V a c).Φ t.succ ∗ (dat1 V a c).owesAt () t.succ
    ∗ owns (c : Thread nD τ) (st1 a t 0) fullShare ((dat1 V a c).after 0 t)
    ∗ owns (c : Thread nD τ) (st1 a t 1) fullShare ((dat1 V a c).after 1 t)
    ∗ owns (c : Thread nD τ) (st1 a t 2) fullShare ((dat1 V a c).after 2 t)
    ∗ owns (c : Thread nD τ) (st1 a t 3) fullShare ((dat1 V a c).after 3 t)
    ∗ owns (c : Thread nD τ) (st1 a t 4) fullShare ((dat1 V a c).after 4 t)
    ∗ owns (c : Thread nD τ) (st1 a t 5) fullShare ((dat1 V a c).after 5 t))

/-- The body at any point: the inputs' buffers hold their blocks, so the body's triple applies; the invariant and
    what the core owes pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _ (iblk1 V a c 0 t) (iblk1 V a c 1 t) (iblk1 V a c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V a c) (defs₀ (F := F)) Variants.none () Set.univ := fun t => by
  rw [bigSep_W1, bigSep_W1]
  exact sound_body1 V a c t

end Cert.KernelIdeal.Rows

end
-- ==== Proof.Segments.lean ====
/-
  @main as five items — host operations, the first kernel, host operations, the second kernel, host
  operations — and the contents of every unscoped buffer between them.

  W0 is the launch memory; W1 after the first stretch; W2 is W1 with the first kernel's output array at what
  its write-backs leave; W3 after the second stretch (it computes two of the three tables and re-lays the
  pooled array as [150000,1,64]); W4 is W3 with the second kernel's three output arrays at what its write-backs
  leave; W5 after the last stretch. The tables' contents are read off W3; the second kernel runs only when every
  table-indexed block lies inside its array (`Ok`).
-/
import proofs.«116102_j28415503630676_2_alg».proof.Proof.PoolBody
import proofs.«116102_j28415503630676_2_alg».proof.Proof.Rows
import proofs.«116102_j28415503630676_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the first kernel: its arrays at what the pipeline leaves, every other buffer as entered. -/
def W2 (c : Dev nD) : Valuation τ sig (Elt F) :=
  Pipeline.withArrays spec0 c (W1 m c) fun w => (Pool.dat0 (V1 m) c).arrAt w cfg0.N
theorem W2_arr (c : Dev nD) (w : Fin cfg0.W) :
    W2 m c (Proc.devRef .tc (Pipeline.arrRef spec0 w)) = (Pool.dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pool.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-! ## The tables -/

/-- The three tables' contents when the second kernel is entered (there is one device). -/
def tbl : pre1.Contents (Elt F) := fun k => V3 m (0 : Dev nD) (pre1.ref k)
theorem V3_pre (c : Dev nD) (k : Fin 3) : V3 m c (pre1.ref k) = tbl m k := by
  obtain rfl : c = 0 := Subsingleton.elim _ _; rfl
/-- Every table-indexed block lies inside the array [150000,1,64]. -/
abbrev Ok : Prop := ok1 (F := F) (tbl m)
abbrev adm1 (hO : Ok m) : (pcfg1 (F := F)).Adm := ⟨tbl m, hO⟩

/-- What the second kernel's write-backs leave in its three output arrays. -/
def fin3 (hO : Ok m) (c : Dev nD) : Buf (Elt F) ((c : Thread nD τ).loc main_v46_0) := (Rows.dat1 (V3 m) (adm1 m hO) c).arrAt 3 (cfg1 (adm1 m hO)).N
def fin4 (hO : Ok m) (c : Dev nD) : Buf (Elt F) ((c : Thread nD τ).loc main_v46_1) := (Rows.dat1 (V3 m) (adm1 m hO) c).arrAt 4 (cfg1 (adm1 m hO)).N
def fin5 (hO : Ok m) (c : Dev nD) : Buf (Elt F) ((c : Thread nD τ).loc main_v46_2) := (Rows.dat1 (V3 m) (adm1 m hO) c).arrAt 5 (cfg1 (adm1 m hO)).N

/-- After the second kernel: its three output arrays at what the pipeline leaves, every other buffer as entered. -/
def W4 (hO : Ok m) (c : Dev nD) : Valuation τ sig (Elt F) :=
  Function.update (Function.update (Function.update (W3 m c) main_v46_0 (fin3 m hO c)) main_v46_1 (fin4 m hO c)) main_v46_2 (fin5 m hO c)
abbrev V4 (hO : Ok m) : (c : Dev nD) → (b : Ref sig .tc) → Buf (Elt F) ((c : Thread nD τ).loc b) := fun c b => W4 m hO c b
abbrev W5 (hO : Ok m) : Dev nD → Valuation τ sig (Elt F) := fun c => StableHlo.after hostOps2 (W4 m hO c)

theorem W4_v46_0 (hO : Ok m) (c : Dev nD) : W4 m hO c main_v46_0 = fin3 m hO c := by
  simp only [W4, Function.update_of_ne (StableHlo.devRef_ne_of_ne (by decide) : (Proc.devRef .tc main_v46_0 : DevRef τ sig) ≠ Proc.devRef .tc main_v46_2),
    Function.update_of_ne (StableHlo.devRef_ne_of_ne (by decide) : (Proc.devRef .tc main_v46_0 : DevRef τ sig) ≠ Proc.devRef .tc main_v46_1), Function.update_self]
theorem W4_v46_1 (hO : Ok m) (c : Dev nD) : W4 m hO c main_v46_1 = fin4 m hO c := by
  simp only [W4, Function.update_of_ne (StableHlo.devRef_ne_of_ne (by decide) : (Proc.devRef .tc main_v46_1 : DevRef τ sig) ≠ Proc.devRef .tc main_v46_2), Function.update_self]
theorem W4_v46_2 (hO : Ok m) (c : Dev nD) : W4 m hO c main_v46_2 = fin5 m hO c := by
  simp only [W4, Function.update_self]
theorem W4_of_ne (hO : Ok m) (c : Dev nD) (b : Ref sig .tc) (h0 : b ≠ main_v46_0) (h1 : b ≠ main_v46_1) (h2 : b ≠ main_v46_2) :
    W4 m hO c b = W3 m c b := by
  simp only [W4, Function.update_of_ne (StableHlo.devRef_ne_of_ne h2 : (Proc.devRef .tc b : DevRef τ sig) ≠ Proc.devRef .tc main_v46_2),
    Function.update_of_ne (StableHlo.devRef_ne_of_ne h1 : (Proc.devRef .tc b : DevRef τ sig) ≠ Proc.devRef .tc main_v46_1),
    Function.update_of_ne (StableHlo.devRef_ne_of_ne h0 : (Proc.devRef .tc b : DevRef τ sig) ≠ Proc.devRef .tc main_v46_0)]

/-! ## The proof data family and what rides along -/

def adm (hO : Ok m) : (p : Fin 2) → (pcfgs (F := F) p).Adm
  | ⟨0, _⟩ => cfg0.toPCfg_adm
  | ⟨1, _⟩ => adm1 m hO

def pdats (hO : Ok m) : (p : Fin 2) → (c : Dev nD) → Dat τ (Elt F) Unit ℕ (UR sig nD τ) ℕ (Pipeline.pin (pcfgs (F := F)) (adm m hO) p) c
  | ⟨0, _⟩ => fun c => Pool.dat0 (V1 m) c
  | ⟨1, _⟩ => fun c => Rows.dat1 (V3 m) (adm1 m hO) c

abbrev 𝒱₀ : Variants := Variants.none
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) (defs₀ (F := F)) 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first kernel as an item -/

set_option backward.isDefEq.respectTransparency.types false in
/-- Entered from every unscoped buffer at W1, left at W2: its five arrays are taken out of the unscoped buffers and
    put back at their final contents; the generator register goes into the invariant and comes back. -/
def reg0 (hO : Ok m) : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Pool.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (V1 m c) (V2 m c) ((pdats m hO 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Segs

end
-- ==== Proof.RowsArrays.lean ====
/- The second pipeline's arrays at the boundary of its region: the four distinct buffers behind its six windows,
   each whole, make the six windows' arrays when the pipeline starts, and are made by them when it ends. The three
   input windows read one buffer, which is cut into three shares on the way in and put together again on the way out. -/
import proofs.«116102_j28415503630676_2_alg».proof.Proof.Rows
import Idealize.ShloMosaic.Lib.Pipeline.Launch
import Idealize.ShloMosaic.Lib.Pipeline.Cells
import Idealize.ShloMosaic.Lib.Pipeline.Kit

noncomputable section

namespace Cert.KernelIdeal.RowsArrays

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The six windows' arrays, written out -/

/-- The buffers behind the six windows' arrays are these four. -/
theorem arrRefs_eq : Finset.univ.image (Pipeline.arrRef spec1) = [main_v45, main_v46_0, main_v46_1, main_v46_2].toFinset := by decide

/-! Each window's hold on its array, at any contents: the whole of the array's buffer, at the window's share. -/

theorem held0 (c : Dev nD) (g : Buf (Elt F) (View.loc (c : Thread nD τ) ((cfg1 a).win (0 : Fin 6)).arr.view)) :
    (View.loc (c : Thread nD τ) ((cfg1 a).win (0 : Fin 6)).arr.view ↦[((cfg1 a).win (0 : Fin 6)).arr.view.set]{(Rows.dat1 V a c).share (0 : Fin 6)} g : sProp 𝕄)
      = ((c : Thread nD τ).loc main_v45 ↦{fullShare.left} g) := by
  rw [show ((cfg1 a).win (0 : Fin 6)).arr.view.set = Finset.univ from (harr1 0).set_eq_univ]; exact rfl
theorem held1 (c : Dev nD) (g : Buf (Elt F) (View.loc (c : Thread nD τ) ((cfg1 a).win (1 : Fin 6)).arr.view)) :
    (View.loc (c : Thread nD τ) ((cfg1 a).win (1 : Fin 6)).arr.view ↦[((cfg1 a).win (1 : Fin 6)).arr.view.set]{(Rows.dat1 V a c).share (1 : Fin 6)} g : sProp 𝕄)
      = ((c : Thread nD τ).loc main_v45 ↦{fullShare.right.left} g) := by
  rw [show ((cfg1 a).win (1 : Fin 6)).arr.view.set = Finset.univ from (harr1 1).set_eq_univ]; exact rfl
theorem held2 (c : Dev nD) (g : Buf (Elt F) (View.loc (c : Thread nD τ) ((cfg1 a).win (2 : Fin 6)).arr.view)) :
    (View.loc (c : Thread nD τ) ((cfg1 a).win (2 : Fin 6)).arr.view ↦[((cfg1 a).win (2 : Fin 6)).arr.view.set]{(Rows.dat1 V a c).share (2 : Fin 6)} g : sProp 𝕄)
      = ((c : Thread nD τ).loc main_v45 ↦{fullShare.right.right} g) := by
  rw [show ((cfg1 a).win (2 : Fin 6)).arr.view.set = Finset.univ from (harr1 2).set_eq_univ]; exact rfl
theorem held3 (c : Dev nD) (g : Buf (Elt F) (View.loc (c : Thread nD τ) ((cfg1 a).win (3 : Fin 6)).arr.view)) :
    (View.loc (c : Thread nD τ) ((cfg1 a).win (3 : Fin 6)).arr.view ↦[((cfg1 a).win (3 : Fin 6)).arr.view.set]{(Rows.dat1 V a c).share (3 : Fin 6)} g : sProp 𝕄)
      = ((c : Thread nD τ).loc main_v46_0 ↦{fullShare} g) := by
  rw [show ((cfg1 a).win (3 : Fin 6)).arr.view.set = Finset.univ from (harr1 3).set_eq_univ]; exact rfl
theorem held4 (c : Dev nD) (g : Buf (Elt F) (View.loc (c : Thread nD τ) ((cfg1 a).win (4 : Fin 6)).arr.view)) :
    (View.loc (c : Thread nD τ) ((cfg1 a).win (4 : Fin 6)).arr.view ↦[((cfg1 a).win (4 : Fin 6)).arr.view.set]{(Rows.dat1 V a c).share (4 : Fin 6)} g : sProp 𝕄)
      = ((c : Thread nD τ).loc main_v46_1 ↦{fullShare} g) := by
  rw [show ((cfg1 a).win (4 : Fin 6)).arr.view.set = Finset.univ from (harr1 4).set_eq_univ]; exact rfl
theorem held5 (c : Dev nD) (g : Buf (Elt F) (View.loc (c : Thread nD τ) ((cfg1 a).win (5 : Fin 6)).arr.view)) :
    (View.loc (c : Thread nD τ) ((cfg1 a).win (5 : Fin 6)).arr.view ↦[((cfg1 a).win (5 : Fin 6)).arr.view.set]{(Rows.dat1 V a c).share (5 : Fin 6)} g : sProp 𝕄)
      = ((c : Thread nD τ).loc main_v46_2 ↦{fullShare} g) := by
  rw [show ((cfg1 a).win (5 : Fin 6)).arr.view.set = Finset.univ from (harr1 5).set_eq_univ]; exact rfl

/-- Six conjuncts, equal one by one. -/
theorem sep6 {P0 P1 P2 P3 P4 P5 Q0 Q1 Q2 Q3 Q4 Q5 : sProp 𝕄} (e0 : P0 = Q0) (e1 : P1 = Q1) (e2 : P2 = Q2) (e3 : P3 = Q3)
    (e4 : P4 = Q4) (e5 : P5 = Q5) : iprop(P0 ∗ P1 ∗ P2 ∗ P3 ∗ P4 ∗ P5) = iprop(Q0 ∗ Q1 ∗ Q2 ∗ Q3 ∗ Q4 ∗ Q5) := by
  subst e0 e1 e2 e3 e4 e5; rfl

/-- The pipeline's hold on its arrays at contents `G`, window by window: the one input buffer at the left half of
    the full share and the two halves of its right half, each output buffer whole. -/
theorem arrays_eq1 (c : Dev nD) (G : (w : Fin (cfg1 a).W) → Buf (Elt F) (((cfg1 a).win w).arr.view.loc (c : Thread nD τ))) :
    (Rows.dat1 V a c).arrays G
      = (iprop((((c : Thread nD τ).loc main_v45) ↦{fullShare.left} G (0 : Fin 6))
          ∗ (((c : Thread nD τ).loc main_v45) ↦{fullShare.right.left} G (1 : Fin 6))
          ∗ (((c : Thread nD τ).loc main_v45) ↦{fullShare.right.right} G (2 : Fin 6))
          ∗ (((c : Thread nD τ).loc main_v46_0) ↦{fullShare} G (3 : Fin 6))
          ∗ (((c : Thread nD τ).loc main_v46_1) ↦{fullShare} G (4 : Fin 6))
          ∗ (((c : Thread nD τ).loc main_v46_2) ↦{fullShare} G (5 : Fin 6))) : sProp 𝕄) := by
  unfold Dat.arrays
  rw [bigSep_W1]
  exact sep6 (held0 V a c _) (held1 V a c _) (held2 V a c _) (held3 V a c _) (held4 V a c _) (held5 V a c _)

/-! ## Into the pipeline -/

theorem arrays_entry (c : Dev nD) : (Pipeline.arrBufs spec1 c (V c) : sProp 𝕄) ⊢ (Rows.dat1 V a c).arrays ((Rows.dat1 V a c).arrAt · 0) := by
  rw [arrays_eq1 V a c]
  unfold Pipeline.arrBufs
  rw [bigSep_eq_bigSepL_of_eq _ arrRefs_eq (by decide)]
  show iprop((((c : Thread nD τ).loc main_v45) ↦{fullShare} V c main_v45)
      ∗ (((c : Thread nD τ).loc main_v46_0) ↦{fullShare} V c main_v46_0)
      ∗ (((c : Thread nD τ).loc main_v46_1) ↦{fullShare} V c main_v46_1)
      ∗ (((c : Thread nD τ).loc main_v46_2) ↦{fullShare} V c main_v46_2))
    ⊢ iprop((((c : Thread nD τ).loc main_v45) ↦{fullShare.left} V c main_v45)
      ∗ (((c : Thread nD τ).loc main_v45) ↦{fullShare.right.left} V c main_v45)
      ∗ (((c : Thread nD τ).loc main_v45) ↦{fullShare.right.right} V c main_v45)
      ∗ (((c : Thread nD τ).loc main_v46_0) ↦{fullShare} V c main_v46_0)
      ∗ (((c : Thread nD τ).loc main_v46_1) ↦{fullShare} V c main_v46_1)
      ∗ (((c : Thread nD τ).loc main_v46_2) ↦{fullShare} V c main_v46_2))
  iintro ⟨H, R⟩
  -- the input buffer in halves, then its right half in halves
  ihave H := (pointsTo_share (PosShare.mem_left_op_right fullShare)).1 $$ H
  icases H with ⟨Ha, Hr⟩
  ihave Hr := (pointsTo_share (PosShare.mem_left_op_right fullShare.right)).1 $$ Hr
  icases Hr with ⟨Hb, Hc⟩
  isplitl [Ha]; · iexact Ha
  isplitl [Hb]; · iexact Hb
  isplitl [Hc]; · iexact Hc
  iexact R

/-! ## Out of the pipeline -/

/-- An input window's array is never written: at the end it holds what it held at the start. -/
theorem in_end (c : Dev nD) (w : Fin 6) (hw : ((cfg1 a).win w).isOut = false) :
    (Rows.dat1 V a c).arrAt w (cfg1 a).N = V c (Pipeline.arrRef spec1 w) :=
  ((Rows.dat1 V a c).arrAt_in w hw (cfg1 a).N).trans (Rows.A_eq1 V a c w)

/-- Three shares of one buffer at equal contents, and three whole buffers, are four whole buffers. -/
theorem rejoin {ℓ ℓ0 ℓ1 ℓ2 : Loc nD τ sig} (f fa fb fc : Buf (Elt F) ℓ) (g0 g0' : Buf (Elt F) ℓ0) (g1 g1' : Buf (Elt F) ℓ1)
    (g2 g2' : Buf (Elt F) ℓ2) (ea : fa = f) (eb : fb = f) (ec : fc = f) (e0 : g0 = g0') (e1 : g1 = g1') (e2 : g2 = g2') :
    iprop((ℓ ↦{fullShare.left} fa) ∗ (ℓ ↦{fullShare.right.left} fb) ∗ (ℓ ↦{fullShare.right.right} fc)
        ∗ (ℓ0 ↦{fullShare} g0) ∗ (ℓ1 ↦{fullShare} g1) ∗ (ℓ2 ↦{fullShare} g2))
      ⊢ (iprop((ℓ ↦{fullShare} f) ∗ (ℓ0 ↦{fullShare} g0') ∗ (ℓ1 ↦{fullShare} g1') ∗ (ℓ2 ↦{fullShare} g2')) : sProp 𝕄) := by
  subst ea eb ec e0 e1 e2
  iintro ⟨Ha, Hb, Hc, R⟩
  -- the right half's halves together, then the two halves
  ihave Hr := (pointsTo_share (PosShare.mem_left_op_right fullShare.right)).2 $$ [Hb Hc]
  · isplitl [Hb] <;> iassumption
  ihave H := (pointsTo_share (PosShare.mem_left_op_right fullShare)).2 $$ [Ha Hr]
  · isplitl [Ha] <;> iassumption
  isplitl [H]; · iexact H
  iexact R

theorem arrays_exit (c : Dev nD) (V' : (b : Ref sig .tc) → Buf (Elt F) ((c : Thread nD τ).loc b))
    (h45 : V' main_v45 = V c main_v45)
    (h0 : V' main_v46_0 = (Rows.dat1 V a c).arrAt 3 (cfg1 a).N) (h1 : V' main_v46_1 = (Rows.dat1 V a c).arrAt 4 (cfg1 a).N)
    (h2 : V' main_v46_2 = (Rows.dat1 V a c).arrAt 5 (cfg1 a).N) :
    (Rows.dat1 V a c).arrays ((Rows.dat1 V a c).arrAt · (cfg1 a).N) ⊢ (Pipeline.arrBufs spec1 c V' : sProp 𝕄) := by
  rw [arrays_eq1 V a c]
  unfold Pipeline.arrBufs
  rw [bigSep_eq_bigSepL_of_eq _ arrRefs_eq (by decide)]
  exact rejoin (V' main_v45) _ _ _ _ _ _ _ _ _
    ((in_end V a c 0 rfl).trans h45.symm) ((in_end V a c 1 rfl).trans h45.symm) ((in_end V a c 2 rfl).trans h45.symm)
    h0.symm h1.symm h2.symm

end Cert.KernelIdeal.RowsArrays

end
-- ==== Proof.Chain.lean ====
/-
  The second kernel as an item of @main, and the run of the five items.

  Entering the second kernel, the unscoped buffers at W3 are dealt out: the four buffers behind its windows'
  arrays to the pipeline (the array the three input windows share in thirds), the three tables to the pipeline
  whole (they come back through the invariant), every other buffer past the kernel. Leaving it they are put back,
  the three output arrays at what the write-backs left. The run: from any memory whose tables are admissible, every
  weakly fair execution of @main ends, and every unscoped buffer holds W5.
-/
import proofs.«116102_j28415503630676_2_alg».proof.Proof.Segments
import proofs.«116102_j28415503630676_2_alg».proof.Proof.RowsArrays
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Segs

variable (m : (ℓ : Loc nD τ sig) → Buf (Elt F) ℓ) (ρ : Dev nD → PrngReg)

/-- A core's unscoped buffers are the buffers behind the second kernel's arrays and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The same with the tables taken out of the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.prefHeld pre1 c (fun _ => fullShare) (fun k => W (pre1.ref k))
          ∗ Pipeline.unscopedRestP pre1 spec1 c (fun b => W b)) := by
  rw [← Pipeline.unscopedBufs_held, unscopedBufs_split1, Pipeline.unscopedRest_split preFacts1]

/-- No table is one of the three output arrays. -/
theorem pre_ne : ∀ k : Fin 3, pre1.ref k ≠ main_v46_0 ∧ pre1.ref k ≠ main_v46_1 ∧ pre1.ref k ≠ main_v46_2 := by decide

theorem W4_pre (hO : Ok m) (c : Dev nD) : (fun k => W4 m hO c (pre1.ref k)) = tbl m := by
  funext k
  rw [W4_of_ne m hO c _ (pre_ne k).1 (pre_ne k).2.1 (pre_ne k).2.2]
  exact V3_pre m c k

/-- Outside the kernel's arrays and tables nothing changes. -/
theorem restP_kept (hO : Ok m) (c : Dev nD) :
    (Pipeline.unscopedRestP pre1 spec1 c (fun b => W4 m hO c b) : sProp 𝕄) = Pipeline.unscopedRestP pre1 spec1 c (fun b => W3 m c b) := by
  unfold Pipeline.unscopedRestP
  refine bigSep_congr fun b hb => ?_
  have hb' : b ∉ Finset.univ.image (Pipeline.arrRef spec1) := (Finset.mem_sdiff.mp (Finset.mem_sdiff.mp hb).1).2
  have h0 : b ≠ main_v46_0 := fun e => hb' (Finset.mem_image.mpr ⟨3, Finset.mem_univ _, e.symm⟩)
  have h1 : b ≠ main_v46_1 := fun e => hb' (Finset.mem_image.mpr ⟨4, Finset.mem_univ _, e.symm⟩)
  have h2 : b ≠ main_v46_2 := fun e => hb' (Finset.mem_image.mpr ⟨5, Finset.mem_univ _, e.symm⟩)
  dsimp only
  rw [W4_of_ne m hO c b h0 h1 h2]

set_option backward.isDefEq.respectTransparency.types false in
/-- The second kernel: entered from every unscoped buffer at W3, left at W4. -/
def reg1 (hO : Ok m) : Pipeline.RegionSeg (pcfgs (F := F)) (adm m hO) (pdats m hO) () defs₀ 𝒱₀ L lv 1 where
  win := winFacts₀1
  block_pos := block_pos1
  stage_whole := stage_whole1
  K := PEmpty
  osem k := k.elim
  ho := Pipeline.OwnSemFacts.none _
  hbody c := (Rows.body_obligation1 (V3 m) (adm1 m hO) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m hO c) ∗ R c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (V3 m c)
  hentry c := by
    rw [Pipeline.ownSems0_none, held_split1, show (fun k => W3 m c (pre1.ref k)) = tbl m from funext (V3_pre m c)]
    iintro ⟨⟨⟨Hab, Hpf, Hrest⟩, Hp, HO⟩, -, -⟩
    imodintro
    isplitl [Hab]; · iapply (RowsArrays.arrays_entry (V3 m) (adm1 m hO) c); iexact Hab
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld pre1 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m hO 1 c).Φ (Fin.last _) = iprop(Pipeline.ΦA spec1 c ∗ Pipeline.prefHeld pre1 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    rw [held_split1, W4_pre, restP_kept]
    iintro ⟨Ha, HO, ⟨Hp, Hpf⟩, Hrest⟩
    imodintro
    isplitl [Ha Hpf Hrest]
    · isplitl [Ha]
      · iapply (RowsArrays.arrays_exit (V3 m) (adm1 m hO) c (fun b => W4 m hO c b)
          (W4_of_ne m hO c main_v45 (by decide) (by decide) (by decide)) (W4_v46_0 m hO c) (W4_v46_1 m hO c) (W4_v46_2 m hO c))
        iexact Ha
      isplitl [Hpf]; · iexact Hpf
      iexact Hrest
    isplitl [Hp]; · iexact Hp
    unfold Pipeline.Dat.owesAt Pipeline.owesWithin
    icases HO with ⟨%W, -, HO⟩; iexists W; iexact HO

/-! ## The run -/

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh
theorem hostOps2_fresh' : (hostOps2 : List (HloOp τ sig (Elt F))).Forall fun op => op.fresh = ∅ := hostOps2_fresh

/-- @main's five items in order. -/
abbrev segs (hO : Ok m) : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m)),
    .region (reg1 m hO),
    .host (hseg hostOps2 hostOps2_sub hostOps2_fresh (W4 m hO)) ]

/-- The last thread state without what the core owes. -/
abbrev Tₙ (hO : Ok m) (c : Dev nD) : sProp 𝕄 := iprop(StableHlo.held (c : Thread nD τ) (Pipeline.ucRefs τ sig) (W5 m hO c) ∗ ∃ r, prngReg c r)

set_option backward.isDefEq.respectTransparency.types false in
/-- THE RUN. From any memory with zero counters whose tables are admissible, every weakly fair execution of @main on
    the TensorCores terminates, nothing faulting, and in every final state every unscoped buffer holds W5. -/
theorem main_run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by
      rewrite [main_chain c, Pipeline.Seg.run_eq_chain,
        show (segs m hO).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m hO c)) ∗ R c) : sProp 𝕄) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h => h)

end Cert.KernelIdeal.Chain

end
-- ==== Proof.PoolBodyK.lean ====
/- Pipeline 0 (the four-way average): the contents its body leaves, the proof data of the
   pipeline at given entry contents of the buffers, and the obligation of its body at every grid point. -/
import proofs.«116102_j28415503630676_2_alg».proof.Proof.Gen.Kernel.Launch
import proofs.«116102_j28415503630676_2_alg».proof.Proof.Gen.Kernel.Skeleton
import proofs.«116102_j28415503630676_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of the core when the pipeline starts
variable (V : (c : Dev nD) → (b : Ref sig .tc) → Buf (Elt F) ((c : Thread nD τ).loc b))

/-! ## Blocks -/

/-- The block of window `w` at grid point `t`, read from the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-block rectangle and the stored value -/

/-- The rectangle of every access of the body: the whole 10000 × 64 block, from the origin. -/
abbrev full : Rect S10000x64 := Rect.unit (s := S10000x64) ![0, 0] S10000x64.size inb_S10000x64_S10000x64_0_0

theorem origin : (![0, 0] : Fin 2 → Nat) = fun _ => 0 := funext fun a => by fin_cases a <;> rfl

/-- The output block after the body, as a function of the four input blocks: the one store's value,
    ((x0 + x1) + x2 + x3) / 4 elementwise, laid over the whole block. -/
def out0_4 (x0 x1 x2 x3 : Vec F S10000x64 .f32) : Vec F S10000x64 .f32 :=
  View.canon [⟨full, k0_pay1 (View.ld x0 full) (View.ld x1 full) (View.ld x2 full) (View.ld x3 full)⟩]

/-- One store over the whole block leaves exactly the stored value. -/
theorem out0_4_eq (x0 x1 x2 x3 : Vec F S10000x64 .f32) : out0_4 x0 x1 x2 x3 = k0_pay1 x0 x1 x2 x3 := by
  unfold out0_4
  rw [View.canon_unit_zero (S := S10000x64) origin inb_S10000x64_S10000x64_0_0,
    View.ld_unit_zero (S := S10000x64) origin inb_S10000x64_S10000x64_0_0 x0,
    View.ld_unit_zero (S := S10000x64) origin inb_S10000x64_S10000x64_0_0 x1,
    View.ld_unit_zero (S := S10000x64) origin inb_S10000x64_S10000x64_0_0 x2,
    View.ld_unit_zero (S := S10000x64) origin inb_S10000x64_S10000x64_0_0 x3]

/-- The one store reaches every index of the block. -/
theorem full_covers (p : Vec F S10000x64 .f32) (y : S10000x64.Idx) :
    ∃ pc ∈ ([⟨full, p⟩] : List (View.Piece (Elt F) S10000x64 .f32)), y ∈ pc.1.set :=
  ⟨_, List.mem_singleton_self _, View.mem_set_unit_zero (S := S10000x64) origin inb_S10000x64_S10000x64_0_0 y⟩

/-! ## The body on whole buffers -/

/-- Run on five whole buffers, the first four holding `x0 … x3` and the fifth anything, the body ends with the
    first four unchanged and the fifth holding `out0_4 x0 x1 x2 x3`. (It reads the fifth once before
    writing it; nothing depends on that read.) -/
theorem accum_triple (c : Dev nD) (E : Set ℕ) (i : grid0.Coords)
    (a0 : Memref sig .tc .vmem S10000x64 .f32) (h0 : a0.IsWhole) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole)
    (x0 x1 x2 x3 : Vec F S10000x64 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out0_4 x0 x1 x2 x3)) -∗ K ⟨⟩))
      ⊢ wp frame (wpE (defs₀ (F := F)) Variants.none c none) E (cc0__accum_kernel i a0 h0 a1 h1 a2 h2 a3 h3 a4 h4) K := by
  simp only [cc0__accum_kernel_eq_skeleton]; unfold cc0__accum_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (full_covers _)

/-! ## The proof data of the pipeline -/

/-- Arrays at their entry contents; after the body at point `t`, each input's buffer still at its block and the
    output's buffer at `out0_4` of the four input blocks; the invariant is the rest of the core's state, which
    the pipeline never touches; whole shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-! ## What an input's buffer holds when the body starts

An input window is never idle and is not cut, and the body leaves its block in place; so at every point, whether
or not the window was fetched there, its current buffer holds the block of that point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The obligation of the body, at every grid point -/

/-- What the body is handed at point `t`: the invariant, the (empty) debt, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debt, and each buffer at what the data say it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The four inputs' buffers hold their blocks, so the body's triple applies; the invariant and the debt are
    carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (accum_triple c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Pool

end
-- ==== Proof.RowsK.lean ====
/-
  The second kernel copies rows. At grid point t it is handed three blocks [1,1,64] of ONE array
  [150000,1,64] — block number table_k(t) of it, for the three tables k = 0, 1, 2 — and stores each
  unchanged into block t of the k-th output [4096,1,64]. This module states what each output's
  buffer holds after the body (the block that was read), the proof data of the pipeline at any
  admissible contents `a` of the tables, and the body obligation. The three input windows read
  one array, so each holds it at a third of the full share: the left half, and the two halves of
  the right half.
-/
import proofs.«116102_j28415503630676_2_alg».proof.Proof.Gen.Kernel.Launch
import proofs.«116102_j28415503630676_2_alg».proof.Proof.Gen.Kernel.Skeleton
import proofs.«116102_j28415503630676_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))
-- admissible contents of the three tables
variable (a : (pcfg1 (F := F)).Adm)

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The whole block as a rectangle. -/
abbrev r1 : Rect S1x1x64 := Rect.unit (s := S1x1x64) ![0, 0, 0] S1x1x64.size inb_S1x1x64_S1x1x64_0_0_0

/-- What the body leaves in the three outputs' buffers: its one whole-block store each. -/
def out1_3 (x0 : Vec F S1x1x64 .f32) : Vec F S1x1x64 .f32 := View.canon [⟨r1, k1_pay1 (View.ld x0 r1)⟩]
def out1_4 (x1 : Vec F S1x1x64 .f32) : Vec F S1x1x64 .f32 := View.canon [⟨r1, k1_pay2 (View.ld x1 r1)⟩]
def out1_5 (x2 : Vec F S1x1x64 .f32) : Vec F S1x1x64 .f32 := View.canon [⟨r1, k1_pay3 (View.ld x2 r1)⟩]

/-- One whole-block store covers the buffer. -/
theorem cover1 (p0 : Vec F S1x1x64 .f32) (y : S1x1x64.Idx) :
    ∃ pc ∈ ([⟨r1, p0⟩] : List (View.Piece (Elt F) S1x1x64 .f32)), y ∈ pc.1.set :=
  View.cover_of_tiled [⟨r1, p0⟩] S1x1x64.size (by rfl) y

set_option maxHeartbeats 1000000 in
/-- The body on whole staging memrefs: the three inputs' buffers are read and kept, each output's buffer ends
    holding the input block it copies. The tables' memrefs are not touched. -/
theorem sound_kernel1 (c : Dev nD) (E : Set ℕ) (i : grid1.Coords)
    (t1 : Memref sig .tc .smem S4096 .i32) (ht1 : t1.IsWhole) (t2 : Memref sig .tc .smem S4096 .i32) (ht2 : t2.IsWhole)
    (t3 : Memref sig .tc .smem S4096 .i32) (ht3 : t3.IsWhole)
    (arg4 : Memref sig .tc .vmem S1x1x64 .f32) (harg4 : arg4.IsWhole) (arg5 : Memref sig .tc .vmem S1x1x64 .f32) (harg5 : arg5.IsWhole)
    (arg6 : Memref sig .tc .vmem S1x1x64 .f32) (harg6 : arg6.IsWhole) (arg7 : Memref sig .tc .vmem S1x1x64 .f32) (harg7 : arg7.IsWhole)
    (arg8 : Memref sig .tc .vmem S1x1x64 .f32) (harg8 : arg8.IsWhole) (arg9 : Memref sig .tc .vmem S1x1x64 .f32) (harg9 : arg9.IsWhole)
    (x0 x1 x2 : Vec F S1x1x64 .f32) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg4 fullShare x0 ∗ owns (c : Thread nD τ) arg5 fullShare x1 ∗ owns (c : Thread nD τ) arg6 fullShare x2
            ∗ owns (c : Thread nD τ) arg7 fullShare (out1_3 x0) ∗ owns (c : Thread nD τ) arg8 fullShare (out1_4 x1)
            ∗ owns (c : Thread nD τ) arg9 fullShare (out1_5 x2)) -∗ K ⟨⟩))
      ⊢ wp frame (wpE (defs₀ (F := F)) Variants.none c none) E
          (cc1__gather_kernel i t1 ht1 t2 ht2 t3 ht3 arg4 harg4 arg5 harg5 arg6 harg6 arg7 harg7 arg8 harg8 arg9 harg9) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1 _)
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-! ## The proof data -/

/-- The share each window holds its array at. The three input windows read ONE array: the left half of the full
    share, and the two halves of its right half; an output's array is held whole. -/
def shr : Fin 6 → PosShare TreeShare
  | ⟨0, _⟩ => fullShare.left
  | ⟨1, _⟩ => fullShare.right.left
  | ⟨2, _⟩ => fullShare.right.right
  | _ => fullShare

/-- The proof data of the pipeline at the tables' contents `a` on core `c`: the arrays as the region finds them;
    after the body each input's buffer at its block and each output's at the block it copies; the invariant is the
    scoped rest, the generator register and the three tables, untouched; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out1_3 (iblk1 V a c 0 t)
    | ⟨4, _⟩ => out1_4 (iblk1 V a c 1 t)
    | ⟨5, _⟩ => out1_5 (iblk1 V a c 2 t)
  Φ _ := iprop(Pipeline.ΦA spec1 c ∗ Pipeline.prefHeld pre1 c (fun _ => fullShare) a.1)
  q := shr
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = out1_3 (iblk1 V a c 0 t) := by dsimp only [dat1]; try rfl
theorem after1_4 (c : Dev nD) (t : Fin (cfg1 a).N) : (dat1 V a c).after 4 t = out1_4 (iblk1 V a c 1 t) := by dsimp only [dat1]; try rfl
theorem after1_5 (c : Dev nD) (t : Fin (cfg1 a).N) : (dat1 V a c).after 5 t = out1_5 (iblk1 V a c 2 t) := by dsimp only [dat1]; try rfl

/-- An input window's current buffer holds its block at every point, whether the point fetched it or the block
    number did not move since the last fetch. -/
theorem before1_0 (c : Dev nD) (t : Fin (cfg1 a).N) (d) : (dat1 V a c).before 0 t d = iblk1 V a c 0 t :=
  ((dat1 V a c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- The staging buffer the pipeline hands the body for window `w` at point `t`. -/
abbrev st1 (t : Fin (cfg1 a).N) (w : Fin (cfg1 a).W) := (spec1 w).stage ((cfg1 a).slots t w)

/-- The body at point `t`, on what the pipeline calls it with. -/
abbrev bodyAt1 (t : Fin (cfg1 a).N) : Prog (TpuEff nD τ sig (Elt F) Λ₀ .tc) PUnit :=
  cc1__gather_kernel (grid1.coords t) (Memref.whole main_arg5) (Memref.isWhole_whole _) (Memref.whole main_v42) (Memref.isWhole_whole _)
    (Memref.whole main_v44) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))

def bodyPre1 (c : Dev nD) (t : Fin (cfg1 a).N) : sProp 𝕄 :=
  iprop((dat1 V a c).Φ t.castSucc ∗ (dat1 V a c).owesAt () t.castSucc
    ∗ (∃ d, owns (c : Thread nD τ) (st1 a t 0) fullShare ((dat1 V a c).before 0 t d))
    ∗ (∃ d, owns (c : Thread nD τ) (st1 a t 1) fullShare ((dat1 V a c).before 1 t d))
    ∗ (∃ d, owns (c : Thread nD τ) (st1 a t 2) fullShare ((dat1 V a c).before 2 t d))
    ∗ (∃ d, owns (c : Thread nD τ) (st1 a t 3) fullShare ((dat1 V a c).before 3 t d))
    ∗ (∃ d, owns (c : Thread nD τ) (st1 a t 4) fullShare ((dat1 V a c).before 4 t d))
    ∗ (∃ d, owns (c : Thread nD τ) (st1 a t 5) fullShare ((dat1 V a c).before 5 t d)))

def bodyPost1 (c : Dev nD) (t : Fin (cfg1 a).N) : sProp 𝕄 :=
  iprop((dat1 V a c).Φ t.succ ∗ (dat1 V a c).owesAt () t.succ
    ∗ owns (c : Thread nD τ) (st1 a t 0) fullShare ((dat1 V a c).after 0 t)
    ∗ owns (c : Thread nD τ) (st1 a t 1) fullShare ((dat1 V a c).after 1 t)
    ∗ owns (c : Thread nD τ) (st1 a t 2) fullShare ((dat1 V a c).after 2 t)
    ∗ owns (c : Thread nD τ) (st1 a t 3) fullShare ((dat1 V a c).after 3 t)
    ∗ owns (c : Thread nD τ) (st1 a t 4) fullShare ((dat1 V a c).after 4 t)
    ∗ owns (c : Thread nD τ) (st1 a t 5) fullShare ((dat1 V a c).after 5 t))

/-- The body at any point: the inputs' buffers hold their blocks, so the body's triple applies; the invariant and
    what the core owes pass through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _ (iblk1 V a c 0 t) (iblk1 V a c 1 t) (iblk1 V a c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V a c) (defs₀ (F := F)) Variants.none () Set.univ := fun t => by
  rw [bigSep_W1, bigSep_W1]
  exact sound_body1 V a c t

end Cert.Kernel.Rows

end
-- ==== Proof.SegmentsK.lean ====
/-
  @main as five items — host operations, the first kernel, host operations, the second kernel, host
  operations — and the contents of every unscoped buffer between them.

  W0 is the launch memory; W1 after the first stretch; W2 is W1 with the first kernel's output array at what
  its write-backs leave; W3 after the second stretch (it computes two of the three tables and re-lays the
  pooled array as [150000,1,64]); W4 is W3 with the second kernel's three output arrays at what its write-backs
  leave; W5 after the last stretch. The tables' contents are read off W3; the second kernel runs only when every
  table-indexed block lies inside its array (`Ok`).
-/
import proofs.«116102_j28415503630676_2_alg».proof.Proof.PoolBodyK
import proofs.«116102_j28415503630676_2_alg».proof.Proof.RowsK
import proofs.«116102_j28415503630676_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the first kernel: its arrays at what the pipeline leaves, every other buffer as entered. -/
def W2 (c : Dev nD) : Valuation τ sig (Elt F) :=
  Pipeline.withArrays spec0 c (W1 m c) fun w => (Pool.dat0 (V1 m) c).arrAt w cfg0.N
theorem W2_arr (c : Dev nD) (w : Fin cfg0.W) :
    W2 m c (Proc.devRef .tc (Pipeline.arrRef spec0 w)) = (Pool.dat0 (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pool.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-! ## The tables -/

/-- The three tables' contents when the second kernel is entered (there is one device). -/
def tbl : pre1.Contents (Elt F) := fun k => V3 m (0 : Dev nD) (pre1.ref k)
theorem V3_pre (c : Dev nD) (k : Fin 3) : V3 m c (pre1.ref k) = tbl m k := by
  obtain rfl : c = 0 := Subsingleton.elim _ _; rfl
/-- Every table-indexed block lies inside the array [150000,1,64]. -/
abbrev Ok : Prop := ok1 (F := F) (tbl m)
abbrev adm1 (hO : Ok m) : (pcfg1 (F := F)).Adm := ⟨tbl m, hO⟩

/-- What the second kernel's write-backs leave in its three output arrays. -/
def fin3 (hO : Ok m) (c : Dev nD) : Buf (Elt F) ((c : Thread nD τ).loc main_v46_0) := (Rows.dat1 (V3 m) (adm1 m hO) c).arrAt 3 (cfg1 (adm1 m hO)).N
def fin4 (hO : Ok m) (c : Dev nD) : Buf (Elt F) ((c : Thread nD τ).loc main_v46_1) := (Rows.dat1 (V3 m) (adm1 m hO) c).arrAt 4 (cfg1 (adm1 m hO)).N
def fin5 (hO : Ok m) (c : Dev nD) : Buf (Elt F) ((c : Thread nD τ).loc main_v46_2) := (Rows.dat1 (V3 m) (adm1 m hO) c).arrAt 5 (cfg1 (adm1 m hO)).N

/-- After the second kernel: its three output arrays at what the pipeline leaves, every other buffer as entered. -/
def W4 (hO : Ok m) (c : Dev nD) : Valuation τ sig (Elt F) :=
  Function.update (Function.update (Function.update (W3 m c) main_v46_0 (fin3 m hO c)) main_v46_1 (fin4 m hO c)) main_v46_2 (fin5 m hO c)
abbrev V4 (hO : Ok m) : (c : Dev nD) → (b : Ref sig .tc) → Buf (Elt F) ((c : Thread nD τ).loc b) := fun c b => W4 m hO c b
abbrev W5 (hO : Ok m) : Dev nD → Valuation τ sig (Elt F) := fun c => StableHlo.after hostOps2 (W4 m hO c)

theorem W4_v46_0 (hO : Ok m) (c : Dev nD) : W4 m hO c main_v46_0 = fin3 m hO c := by
  simp only [W4, Function.update_of_ne (StableHlo.devRef_ne_of_ne (by decide) : (Proc.devRef .tc main_v46_0 : DevRef τ sig) ≠ Proc.devRef .tc main_v46_2),
    Function.update_of_ne (StableHlo.devRef_ne_of_ne (by decide) : (Proc.devRef .tc main_v46_0 : DevRef τ sig) ≠ Proc.devRef .tc main_v46_1), Function.update_self]
theorem W4_v46_1 (hO : Ok m) (c : Dev nD) : W4 m hO c main_v46_1 = fin4 m hO c := by
  simp only [W4, Function.update_of_ne (StableHlo.devRef_ne_of_ne (by decide) : (Proc.devRef .tc main_v46_1 : DevRef τ sig) ≠ Proc.devRef .tc main_v46_2), Function.update_self]
theorem W4_v46_2 (hO : Ok m) (c : Dev nD) : W4 m hO c main_v46_2 = fin5 m hO c := by
  simp only [W4, Function.update_self]
theorem W4_of_ne (hO : Ok m) (c : Dev nD) (b : Ref sig .tc) (h0 : b ≠ main_v46_0) (h1 : b ≠ main_v46_1) (h2 : b ≠ main_v46_2) :
    W4 m hO c b = W3 m c b := by
  simp only [W4, Function.update_of_ne (StableHlo.devRef_ne_of_ne h2 : (Proc.devRef .tc b : DevRef τ sig) ≠ Proc.devRef .tc main_v46_2),
    Function.update_of_ne (StableHlo.devRef_ne_of_ne h1 : (Proc.devRef .tc b : DevRef τ sig) ≠ Proc.devRef .tc main_v46_1),
    Function.update_of_ne (StableHlo.devRef_ne_of_ne h0 : (Proc.devRef .tc b : DevRef τ sig) ≠ Proc.devRef .tc main_v46_0)]

/-! ## The proof data family and what rides along -/

def adm (hO : Ok m) : (p : Fin 2) → (pcfgs (F := F) p).Adm
  | ⟨0, _⟩ => cfg0.toPCfg_adm
  | ⟨1, _⟩ => adm1 m hO

def pdats (hO : Ok m) : (p : Fin 2) → (c : Dev nD) → Dat τ (Elt F) Unit ℕ (UR sig nD τ) ℕ (Pipeline.pin (pcfgs (F := F)) (adm m hO) p) c
  | ⟨0, _⟩ => fun c => Pool.dat0 (V1 m) c
  | ⟨1, _⟩ => fun c => Rows.dat1 (V3 m) (adm1 m hO) c

abbrev 𝒱₀ : Variants := Variants.none
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) (defs₀ (F := F)) 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first kernel as an item -/

set_option backward.isDefEq.respectTransparency.types false in
/-- Entered from every unscoped buffer at W1, left at W2: its five arrays are taken out of the unscoped buffers and
    put back at their final contents; the generator register goes into the invariant and comes back. -/
def reg0 (hO : Ok m) : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Pool.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (V1 m c) (V2 m c) ((pdats m hO 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Segs

end
-- ==== Proof.RowsArraysK.lean ====
/- The second pipeline's arrays at the boundary of its region: the four distinct buffers behind its six windows,
   each whole, make the six windows' arrays when the pipeline starts, and are made by them when it ends. The three
   input windows read one buffer, which is cut into three shares on the way in and put together again on the way out. -/
import proofs.«116102_j28415503630676_2_alg».proof.Proof.RowsK
import Idealize.ShloMosaic.Lib.Pipeline.Launch
import Idealize.ShloMosaic.Lib.Pipeline.Cells
import Idealize.ShloMosaic.Lib.Pipeline.Kit

noncomputable section

namespace Cert.Kernel.RowsArrays

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The six windows' arrays, written out -/

/-- The buffers behind the six windows' arrays are these four. -/
theorem arrRefs_eq : Finset.univ.image (Pipeline.arrRef spec1) = [main_v45, main_v46_0, main_v46_1, main_v46_2].toFinset := by decide

/-! Each window's hold on its array, at any contents: the whole of the array's buffer, at the window's share. -/

theorem held0 (c : Dev nD) (g : Buf (Elt F) (View.loc (c : Thread nD τ) ((cfg1 a).win (0 : Fin 6)).arr.view)) :
    (View.loc (c : Thread nD τ) ((cfg1 a).win (0 : Fin 6)).arr.view ↦[((cfg1 a).win (0 : Fin 6)).arr.view.set]{(Rows.dat1 V a c).share (0 : Fin 6)} g : sProp 𝕄)
      = ((c : Thread nD τ).loc main_v45 ↦{fullShare.left} g) := by
  rw [show ((cfg1 a).win (0 : Fin 6)).arr.view.set = Finset.univ from (harr1 0).set_eq_univ]; exact rfl
theorem held1 (c : Dev nD) (g : Buf (Elt F) (View.loc (c : Thread nD τ) ((cfg1 a).win (1 : Fin 6)).arr.view)) :
    (View.loc (c : Thread nD τ) ((cfg1 a).win (1 : Fin 6)).arr.view ↦[((cfg1 a).win (1 : Fin 6)).arr.view.set]{(Rows.dat1 V a c).share (1 : Fin 6)} g : sProp 𝕄)
      = ((c : Thread nD τ).loc main_v45 ↦{fullShare.right.left} g) := by
  rw [show ((cfg1 a).win (1 : Fin 6)).arr.view.set = Finset.univ from (harr1 1).set_eq_univ]; exact rfl
theorem held2 (c : Dev nD) (g : Buf (Elt F) (View.loc (c : Thread nD τ) ((cfg1 a).win (2 : Fin 6)).arr.view)) :
    (View.loc (c : Thread nD τ) ((cfg1 a).win (2 : Fin 6)).arr.view ↦[((cfg1 a).win (2 : Fin 6)).arr.view.set]{(Rows.dat1 V a c).share (2 : Fin 6)} g : sProp 𝕄)
      = ((c : Thread nD τ).loc main_v45 ↦{fullShare.right.right} g) := by
  rw [show ((cfg1 a).win (2 : Fin 6)).arr.view.set = Finset.univ from (harr1 2).set_eq_univ]; exact rfl
theorem held3 (c : Dev nD) (g : Buf (Elt F) (View.loc (c : Thread nD τ) ((cfg1 a).win (3 : Fin 6)).arr.view)) :
    (View.loc (c : Thread nD τ) ((cfg1 a).win (3 : Fin 6)).arr.view ↦[((cfg1 a).win (3 : Fin 6)).arr.view.set]{(Rows.dat1 V a c).share (3 : Fin 6)} g : sProp 𝕄)
      = ((c : Thread nD τ).loc main_v46_0 ↦{fullShare} g) := by
  rw [show ((cfg1 a).win (3 : Fin 6)).arr.view.set = Finset.univ from (harr1 3).set_eq_univ]; exact rfl
theorem held4 (c : Dev nD) (g : Buf (Elt F) (View.loc (c : Thread nD τ) ((cfg1 a).win (4 : Fin 6)).arr.view)) :
    (View.loc (c : Thread nD τ) ((cfg1 a).win (4 : Fin 6)).arr.view ↦[((cfg1 a).win (4 : Fin 6)).arr.view.set]{(Rows.dat1 V a c).share (4 : Fin 6)} g : sProp 𝕄)
      = ((c : Thread nD τ).loc main_v46_1 ↦{fullShare} g) := by
  rw [show ((cfg1 a).win (4 : Fin 6)).arr.view.set = Finset.univ from (harr1 4).set_eq_univ]; exact rfl
theorem held5 (c : Dev nD) (g : Buf (Elt F) (View.loc (c : Thread nD τ) ((cfg1 a).win (5 : Fin 6)).arr.view)) :
    (View.loc (c : Thread nD τ) ((cfg1 a).win (5 : Fin 6)).arr.view ↦[((cfg1 a).win (5 : Fin 6)).arr.view.set]{(Rows.dat1 V a c).share (5 : Fin 6)} g : sProp 𝕄)
      = ((c : Thread nD τ).loc main_v46_2 ↦{fullShare} g) := by
  rw [show ((cfg1 a).win (5 : Fin 6)).arr.view.set = Finset.univ from (harr1 5).set_eq_univ]; exact rfl

/-- Six conjuncts, equal one by one. -/
theorem sep6 {P0 P1 P2 P3 P4 P5 Q0 Q1 Q2 Q3 Q4 Q5 : sProp 𝕄} (e0 : P0 = Q0) (e1 : P1 = Q1) (e2 : P2 = Q2) (e3 : P3 = Q3)
    (e4 : P4 = Q4) (e5 : P5 = Q5) : iprop(P0 ∗ P1 ∗ P2 ∗ P3 ∗ P4 ∗ P5) = iprop(Q0 ∗ Q1 ∗ Q2 ∗ Q3 ∗ Q4 ∗ Q5) := by
  subst e0 e1 e2 e3 e4 e5; rfl

/-- The pipeline's hold on its arrays at contents `G`, window by window: the one input buffer at the left half of
    the full share and the two halves of its right half, each output buffer whole. -/
theorem arrays_eq1 (c : Dev nD) (G : (w : Fin (cfg1 a).W) → Buf (Elt F) (((cfg1 a).win w).arr.view.loc (c : Thread nD τ))) :
    (Rows.dat1 V a c).arrays G
      = (iprop((((c : Thread nD τ).loc main_v45) ↦{fullShare.left} G (0 : Fin 6))
          ∗ (((c : Thread nD τ).loc main_v45) ↦{fullShare.right.left} G (1 : Fin 6))
          ∗ (((c : Thread nD τ).loc main_v45) ↦{fullShare.right.right} G (2 : Fin 6))
          ∗ (((c : Thread nD τ).loc main_v46_0) ↦{fullShare} G (3 : Fin 6))
          ∗ (((c : Thread nD τ).loc main_v46_1) ↦{fullShare} G (4 : Fin 6))
          ∗ (((c : Thread nD τ).loc main_v46_2) ↦{fullShare} G (5 : Fin 6))) : sProp 𝕄) := by
  unfold Dat.arrays
  rw [bigSep_W1]
  exact sep6 (held0 V a c _) (held1 V a c _) (held2 V a c _) (held3 V a c _) (held4 V a c _) (held5 V a c _)

/-! ## Into the pipeline -/

theorem arrays_entry (c : Dev nD) : (Pipeline.arrBufs spec1 c (V c) : sProp 𝕄) ⊢ (Rows.dat1 V a c).arrays ((Rows.dat1 V a c).arrAt · 0) := by
  rw [arrays_eq1 V a c]
  unfold Pipeline.arrBufs
  rw [bigSep_eq_bigSepL_of_eq _ arrRefs_eq (by decide)]
  show iprop((((c : Thread nD τ).loc main_v45) ↦{fullShare} V c main_v45)
      ∗ (((c : Thread nD τ).loc main_v46_0) ↦{fullShare} V c main_v46_0)
      ∗ (((c : Thread nD τ).loc main_v46_1) ↦{fullShare} V c main_v46_1)
      ∗ (((c : Thread nD τ).loc main_v46_2) ↦{fullShare} V c main_v46_2))
    ⊢ iprop((((c : Thread nD τ).loc main_v45) ↦{fullShare.left} V c main_v45)
      ∗ (((c : Thread nD τ).loc main_v45) ↦{fullShare.right.left} V c main_v45)
      ∗ (((c : Thread nD τ).loc main_v45) ↦{fullShare.right.right} V c main_v45)
      ∗ (((c : Thread nD τ).loc main_v46_0) ↦{fullShare} V c main_v46_0)
      ∗ (((c : Thread nD τ).loc main_v46_1) ↦{fullShare} V c main_v46_1)
      ∗ (((c : Thread nD τ).loc main_v46_2) ↦{fullShare} V c main_v46_2))
  iintro ⟨H, R⟩
  -- the input buffer in halves, then its right half in halves
  ihave H := (pointsTo_share (PosShare.mem_left_op_right fullShare)).1 $$ H
  icases H with ⟨Ha, Hr⟩
  ihave Hr := (pointsTo_share (PosShare.mem_left_op_right fullShare.right)).1 $$ Hr
  icases Hr with ⟨Hb, Hc⟩
  isplitl [Ha]; · iexact Ha
  isplitl [Hb]; · iexact Hb
  isplitl [Hc]; · iexact Hc
  iexact R

/-! ## Out of the pipeline -/

/-- An input window's array is never written: at the end it holds what it held at the start. -/
theorem in_end (c : Dev nD) (w : Fin 6) (hw : ((cfg1 a).win w).isOut = false) :
    (Rows.dat1 V a c).arrAt w (cfg1 a).N = V c (Pipeline.arrRef spec1 w) :=
  ((Rows.dat1 V a c).arrAt_in w hw (cfg1 a).N).trans (Rows.A_eq1 V a c w)

/-- Three shares of one buffer at equal contents, and three whole buffers, are four whole buffers. -/
theorem rejoin {ℓ ℓ0 ℓ1 ℓ2 : Loc nD τ sig} (f fa fb fc : Buf (Elt F) ℓ) (g0 g0' : Buf (Elt F) ℓ0) (g1 g1' : Buf (Elt F) ℓ1)
    (g2 g2' : Buf (Elt F) ℓ2) (ea : fa = f) (eb : fb = f) (ec : fc = f) (e0 : g0 = g0') (e1 : g1 = g1') (e2 : g2 = g2') :
    iprop((ℓ ↦{fullShare.left} fa) ∗ (ℓ ↦{fullShare.right.left} fb) ∗ (ℓ ↦{fullShare.right.right} fc)
        ∗ (ℓ0 ↦{fullShare} g0) ∗ (ℓ1 ↦{fullShare} g1) ∗ (ℓ2 ↦{fullShare} g2))
      ⊢ (iprop((ℓ ↦{fullShare} f) ∗ (ℓ0 ↦{fullShare} g0') ∗ (ℓ1 ↦{fullShare} g1') ∗ (ℓ2 ↦{fullShare} g2')) : sProp 𝕄) := by
  subst ea eb ec e0 e1 e2
  iintro ⟨Ha, Hb, Hc, R⟩
  -- the right half's halves together, then the two halves
  ihave Hr := (pointsTo_share (PosShare.mem_left_op_right fullShare.right)).2 $$ [Hb Hc]
  · isplitl [Hb] <;> iassumption
  ihave H := (pointsTo_share (PosShare.mem_left_op_right fullShare)).2 $$ [Ha Hr]
  · isplitl [Ha] <;> iassumption
  isplitl [H]; · iexact H
  iexact R

theorem arrays_exit (c : Dev nD) (V' : (b : Ref sig .tc) → Buf (Elt F) ((c : Thread nD τ).loc b))
    (h45 : V' main_v45 = V c main_v45)
    (h0 : V' main_v46_0 = (Rows.dat1 V a c).arrAt 3 (cfg1 a).N) (h1 : V' main_v46_1 = (Rows.dat1 V a c).arrAt 4 (cfg1 a).N)
    (h2 : V' main_v46_2 = (Rows.dat1 V a c).arrAt 5 (cfg1 a).N) :
    (Rows.dat1 V a c).arrays ((Rows.dat1 V a c).arrAt · (cfg1 a).N) ⊢ (Pipeline.arrBufs spec1 c V' : sProp 𝕄) := by
  rw [arrays_eq1 V a c]
  unfold Pipeline.arrBufs
  rw [bigSep_eq_bigSepL_of_eq _ arrRefs_eq (by decide)]
  exact rejoin (V' main_v45) _ _ _ _ _ _ _ _ _
    ((in_end V a c 0 rfl).trans h45.symm) ((in_end V a c 1 rfl).trans h45.symm) ((in_end V a c 2 rfl).trans h45.symm)
    h0.symm h1.symm h2.symm

end Cert.Kernel.RowsArrays

end
-- ==== Proof.ChainK.lean ====
/-
  The second kernel as an item of @main, and the run of the five items.

  Entering the second kernel, the unscoped buffers at W3 are dealt out: the four buffers behind its windows'
  arrays to the pipeline (the array the three input windows share in thirds), the three tables to the pipeline
  whole (they come back through the invariant), every other buffer past the kernel. Leaving it they are put back,
  the three output arrays at what the write-backs left. The run: from any memory whose tables are admissible, every
  weakly fair execution of @main ends, and every unscoped buffer holds W5.
-/
import proofs.«116102_j28415503630676_2_alg».proof.Proof.SegmentsK
import proofs.«116102_j28415503630676_2_alg».proof.Proof.RowsArraysK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Chain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Segs

variable (m : (ℓ : Loc nD τ sig) → Buf (Elt F) ℓ) (ρ : Dev nD → PrngReg)

/-- A core's unscoped buffers are the buffers behind the second kernel's arrays and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The same with the tables taken out of the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.prefHeld pre1 c (fun _ => fullShare) (fun k => W (pre1.ref k))
          ∗ Pipeline.unscopedRestP pre1 spec1 c (fun b => W b)) := by
  rw [← Pipeline.unscopedBufs_held, unscopedBufs_split1, Pipeline.unscopedRest_split preFacts1]

/-- No table is one of the three output arrays. -/
theorem pre_ne : ∀ k : Fin 3, pre1.ref k ≠ main_v46_0 ∧ pre1.ref k ≠ main_v46_1 ∧ pre1.ref k ≠ main_v46_2 := by decide

theorem W4_pre (hO : Ok m) (c : Dev nD) : (fun k => W4 m hO c (pre1.ref k)) = tbl m := by
  funext k
  rw [W4_of_ne m hO c _ (pre_ne k).1 (pre_ne k).2.1 (pre_ne k).2.2]
  exact V3_pre m c k

/-- Outside the kernel's arrays and tables nothing changes. -/
theorem restP_kept (hO : Ok m) (c : Dev nD) :
    (Pipeline.unscopedRestP pre1 spec1 c (fun b => W4 m hO c b) : sProp 𝕄) = Pipeline.unscopedRestP pre1 spec1 c (fun b => W3 m c b) := by
  unfold Pipeline.unscopedRestP
  refine bigSep_congr fun b hb => ?_
  have hb' : b ∉ Finset.univ.image (Pipeline.arrRef spec1) := (Finset.mem_sdiff.mp (Finset.mem_sdiff.mp hb).1).2
  have h0 : b ≠ main_v46_0 := fun e => hb' (Finset.mem_image.mpr ⟨3, Finset.mem_univ _, e.symm⟩)
  have h1 : b ≠ main_v46_1 := fun e => hb' (Finset.mem_image.mpr ⟨4, Finset.mem_univ _, e.symm⟩)
  have h2 : b ≠ main_v46_2 := fun e => hb' (Finset.mem_image.mpr ⟨5, Finset.mem_univ _, e.symm⟩)
  dsimp only
  rw [W4_of_ne m hO c b h0 h1 h2]

set_option backward.isDefEq.respectTransparency.types false in
/-- The second kernel: entered from every unscoped buffer at W3, left at W4. -/
def reg1 (hO : Ok m) : Pipeline.RegionSeg (pcfgs (F := F)) (adm m hO) (pdats m hO) () defs₀ 𝒱₀ L lv 1 where
  win := winFacts₀1
  block_pos := block_pos1
  stage_whole := stage_whole1
  K := PEmpty
  osem k := k.elim
  ho := Pipeline.OwnSemFacts.none _
  hbody c := (Rows.body_obligation1 (V3 m) (adm1 m hO) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m hO c) ∗ R c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (V3 m c)
  hentry c := by
    rw [Pipeline.ownSems0_none, held_split1, show (fun k => W3 m c (pre1.ref k)) = tbl m from funext (V3_pre m c)]
    iintro ⟨⟨⟨Hab, Hpf, Hrest⟩, Hp, HO⟩, -, -⟩
    imodintro
    isplitl [Hab]; · iapply (RowsArrays.arrays_entry (V3 m) (adm1 m hO) c); iexact Hab
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld pre1 c (fun _ => fullShare) (tbl m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m hO 1 c).Φ (Fin.last _) = iprop(Pipeline.ΦA spec1 c ∗ Pipeline.prefHeld pre1 c (fun _ => fullShare) (tbl m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    rw [held_split1, W4_pre, restP_kept]
    iintro ⟨Ha, HO, ⟨Hp, Hpf⟩, Hrest⟩
    imodintro
    isplitl [Ha Hpf Hrest]
    · isplitl [Ha]
      · iapply (RowsArrays.arrays_exit (V3 m) (adm1 m hO) c (fun b => W4 m hO c b)
          (W4_of_ne m hO c main_v45 (by decide) (by decide) (by decide)) (W4_v46_0 m hO c) (W4_v46_1 m hO c) (W4_v46_2 m hO c))
        iexact Ha
      isplitl [Hpf]; · iexact Hpf
      iexact Hrest
    isplitl [Hp]; · iexact Hp
    unfold Pipeline.Dat.owesAt Pipeline.owesWithin
    icases HO with ⟨%W, -, HO⟩; iexists W; iexact HO

/-! ## The run -/

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh
theorem hostOps2_fresh' : (hostOps2 : List (HloOp τ sig (Elt F))).Forall fun op => op.fresh = ∅ := hostOps2_fresh

/-- @main's five items in order. -/
abbrev segs (hO : Ok m) : List (Pipeline.Seg (pcfgs (F := F)) (adm m hO) (pdats m hO) () defs₀ 𝒱₀ L lv) :=
  [ .host (hseg hostOps0 hostOps0_sub hostOps0_fresh (W0 m)),
    .region (reg0 m hO),
    .host (hseg hostOps1 hostOps1_sub hostOps1_fresh (W2 m)),
    .region (reg1 m hO),
    .host (hseg hostOps2 hostOps2_sub hostOps2_fresh (W4 m hO)) ]

/-- The last thread state without what the core owes. -/
abbrev Tₙ (hO : Ok m) (c : Dev nD) : sProp 𝕄 := iprop(StableHlo.held (c : Thread nD τ) (Pipeline.ucRefs τ sig) (W5 m hO c) ∗ ∃ r, prngReg c r)

set_option backward.isDefEq.respectTransparency.types false in
/-- THE RUN. From any memory with zero counters whose tables are admissible, every weakly fair execution of @main on
    the TensorCores terminates, nothing faulting, and in every final state every unscoped buffer holds W5. -/
theorem main_run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by
      rewrite [main_chain c, Pipeline.Seg.run_eq_chain,
        show (segs m hO).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m hO c)) ∗ R c) : sProp 𝕄) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h => h)

end Cert.Kernel.Chain

end
-- ==== Proof.TableFacts.lean ====
/-
  Three facts about the tables and the host stretches around the second kernel call:
  (1) table entries below 150000 put every block the index maps name inside the [150000, 1, 64] array;
  (2) what the stretch between the two kernel calls leaves in the buffers it writes (the two shifted tables, the
      reshaped accumulator) and that it keeps the first table;
  (3) what the last stretch leaves: the three [4096, 1, 64] results reshaped to [4096, 64].
-/
import proofs.«116102_j28415503630676_2_alg».proof.Proof.Gen.KernelIdeal.Launch
import Idealize.ShloMosaic.Lib.StableHlo.Run

noncomputable section

namespace Cert.KernelIdeal.TableFacts

open Idealize.ShloMosaic Idealize.ShloMosaic.TcCoe Idealize.SL.Sem
open Cert.KernelIdeal Cert.KernelIdeal.Gen

variable {F : FTy → Type} [FloatOps F]

/-! ## (1) The side condition on the tables -/

/-- A block index (v, 0, 0) of unit-row blocks [1, 1, 64] with v < 150000 lies inside [150000, 1, 64]. -/
theorem block_inside (v : BitVec 32) (hv : v.toNat < 150000) :
    ∀ a : Fin 3, ((![v.toNat, (0#32 : BitVec 32).toNat, (0#32 : BitVec 32).toNat] : Fin 3 → Nat) a + 1) * S1x1x64.size a ≤ S150000x1x64.size a := by
  intro a
  match a with
  | ⟨0, _⟩ => show (v.toNat + 1) * 1 ≤ 150000; omega
  | ⟨1, _⟩ => show (0 + 1) * 1 ≤ 1; decide
  | ⟨2, _⟩ => show (0 + 1) * 64 ≤ 64; decide

theorem ok1_of_lt (pf : pre1.Contents (Elt F))
    (h0 : ∀ x : S4096.Idx, (pf 0 x : BitVec 32).toNat < 150000)
    (h1 : ∀ x : S4096.Idx, (pf 1 x : BitVec 32).toNat < 150000)
    (h2 : ∀ x : S4096.Idx, (pf 2 x : BitVec 32).toNat < 150000) : ok1 (F := F) pf :=
  ⟨fun i => ⟨block_inside _ (h0 _), Or.inl rfl⟩,
   fun i => ⟨block_inside _ (h1 _), Or.inl rfl⟩,
   fun i => ⟨block_inside _ (h2 _), Or.inl rfl⟩⟩

/-! ## (2) The stretch between the two kernel calls -/

variable (W : Valuation τ sig (Elt F))

theorem v42_eq : StableHlo.after hostOps1 W (Proc.devRef .tc main_v42)
    = addi (W (Proc.devRef .tc main_arg6)) (broadcastInDim S4096 ![] bcast_S_S4096 (constantI S_ 32 100000#32)) := by
  after_results

theorem v44_eq : StableHlo.after hostOps1 W (Proc.devRef .tc main_v44)
    = addi (W (Proc.devRef .tc main_arg7)) (broadcastInDim S4096 ![] bcast_S_S4096 (constantI S_ 32 100000#32)) := by
  after_results

theorem v45_eq : StableHlo.after hostOps1 W (Proc.devRef .tc main_v45)
    = shapeCast S150000x1x64 (W (Proc.devRef .tc main_v40)) shapeCasts_S150000x64_S150000x1x64 := by
  after_results; rfl

theorem arg5_kept : StableHlo.after hostOps1 W (Proc.devRef .tc main_arg5) = W (Proc.devRef .tc main_arg5) := by
  after_results

/-! ## (3) The last stretch -/

theorem v47_eq : StableHlo.after hostOps2 W (Proc.devRef .tc main_v47)
    = shapeCast S4096x64 (W (Proc.devRef .tc main_v46_0)) shapeCasts_S4096x1x64_S4096x64 := by
  after_results; rfl

theorem v48_eq : StableHlo.after hostOps2 W (Proc.devRef .tc main_v48)
    = shapeCast S4096x64 (W (Proc.devRef .tc main_v46_1)) shapeCasts_S4096x1x64_S4096x64 := by
  after_results; rfl

theorem v49_eq : StableHlo.after hostOps2 W (Proc.devRef .tc main_v49)
    = shapeCast S4096x64 (W (Proc.devRef .tc main_v46_2)) shapeCasts_S4096x1x64_S4096x64 := by
  after_results; rfl

end Cert.KernelIdeal.TableFacts

end
-- ==== Proof.PreRanges.lean ====
/-
  The precondition read back: from the conjunction being true, every entry of the three index tables lies in its
  range, as signed integers; and the unsigned readings of such entries, with and without the offset 100000.
-/
import proofs.«116102_j28415503630676_2_alg».proof.Pre_finite_inputs
import Idealize.ShloMosaic.Lib.ReduceAll
import Idealize.ShloMosaic.Lib.ValueIdx

noncomputable section

namespace Cert.PreRanges

open Idealize.ShloMosaic Cert.Pre_finite_inputs

variable [Cert.Pre_finite_inputs.Facts]

/-- The rank-0 shape has one index. -/
instance subsingleton_scalar_idx : Subsingleton S_.Idx := ⟨fun a b => funext fun d => d.elim0⟩

/-- One table's conjunct: if "all (0 ≤ a) and (a < c)" reduced to true, every entry of a is in [0, c) signed. -/
theorem table_range (a : IVec S4096 32) (c : BitVec 32)
    (e : Host.reduce IntOp.andi
          (andi (cmpi .sge a (broadcastInDim S4096 ![] Facts.bcast_S_S4096 (constantI S_ 32 0#32)))
            (cmpi .slt a (broadcastInDim S4096 ![] Facts.bcast_S_S4096 (constantI S_ 32 c))))
          (constantI S_ 1 1#1) Facts.reducesTo_S4096_S_d0 Facts.h_S_ ValueIdx.ix0 = 1#1)
    (i : S4096.Idx) : 0 ≤ (a i).toInt ∧ (a i).toInt < c.toInt := by
  have hi := Host.reduce_andi_all _ _ _ _ _ e i
  have hi' : IntOp.andi (IntOp.cmpi .sge (a i) 0#32) (IntOp.cmpi .slt (a i) c) = 1#1 := hi
  obtain ⟨hge, hlt⟩ := IntOp.andi_eq_one.1 hi'
  have h0 : (0#32 : BitVec 32).toInt = 0 := by decide
  exact ⟨h0 ▸ IntOp.cmpi_sge.1 hge, IntOp.cmpi_slt.1 hlt⟩

theorem ranges {F : FTy → Type} [FloatOps F]
    (a0 : FVec F S100000x64 .f32) (a1 : FVec F S50000x64 .f32) (a2 a3 : IVec S3200000 32)
    (a4 : FVec F S3200000 .f32) (a5 a6 a7 : IVec S4096 32)
    (h : Cert.Pre_finite_inputs.fn (F := F) a0 a1 a2 a3 a4 a5 a6 a7 = fun _ => 1#1) :
    (∀ i : S4096.Idx, 0 ≤ (a5 i).toInt ∧ (a5 i).toInt < 100000) ∧
    (∀ i : S4096.Idx, 0 ≤ (a6 i).toInt ∧ (a6 i).toInt < 50000) ∧
    (∀ i : S4096.Idx, 0 ≤ (a7 i).toInt ∧ (a7 i).toInt < 50000) := by
  have e := congrFun h ValueIdx.ix0
  dsimp only [Cert.Pre_finite_inputs.fn, Cert.Pre_finite_inputs.fn_part1, Cert.Pre_finite_inputs.fn_part2, andi] at e
  -- the conjunction, outermost first: (((((f0 ∧ f1) ∧ f4) ∧ users) ∧ pos) ∧ neg)
  obtain ⟨e1, h7⟩ := IntOp.andi_eq_one.1 e
  obtain ⟨e2, h6⟩ := IntOp.andi_eq_one.1 e1
  obtain ⟨-, h5⟩ := IntOp.andi_eq_one.1 e2
  have c1 : (100000#32 : BitVec 32).toInt = 100000 := by decide
  have c2 : (50000#32 : BitVec 32).toInt = 50000 := by decide
  exact ⟨fun i => c1 ▸ table_range a5 _ h5 i, fun i => c2 ▸ table_range a6 _ h6 i, fun i => c2 ▸ table_range a7 _ h7 i⟩

/-- An item index in [0, 50000) signed, moved past the 100000 user rows: no wrap, and below 150000. -/
theorem item_offset (t : BitVec 32) (h0 : 0 ≤ t.toInt) (h1 : t.toInt < 50000) :
    (t + 100000#32).toNat = t.toNat + 100000 ∧ (t + 100000#32).toNat < 150000 ∧ t.toNat = t.toInt.toNat := by
  have e := BitVec.toInt_eq_toNat_cond t
  have hlt := t.isLt
  have hn : t.toNat < 50000 := by split at e <;> omega
  have hadd : (t + 100000#32).toNat = t.toNat + 100000 := by
    rw [BitVec.toNat_add]
    have : (100000#32 : BitVec 32).toNat = 100000 := by decide
    rw [this]; omega
  refine ⟨hadd, by omega, ?_⟩
  split at e <;> omega

/-- A user index in [0, 100000) signed is below 100000 unsigned. -/
theorem user_lt (t : BitVec 32) (h0 : 0 ≤ t.toInt) (h1 : t.toInt < 100000) : t.toNat < 100000 := by
  have e := BitVec.toInt_eq_toNat_cond t
  have hlt := t.isLt
  split at e <;> omega

end Cert.PreRanges

end
-- ==== Proof.Ends.lean ====
/-
  The two ends of @main: what reaches the last boundary unchanged, what the three index tables hold when the second
  kernel is entered, and why the precondition admits those tables.

  No host stretch and no kernel writes an argument, so each argument's buffer holds its launch contents at the last
  boundary. The first table is the user table itself; the other two are the item tables moved past the 100000 user
  rows, `t + 100000` entry by entry. Under the precondition the user entries lie in [0, 100000) and the item entries
  in [0, 50000) as signed integers, so every table entry is below 150000 unsigned (the offset does not wrap) and
  every block the index maps name lies inside the [150000, 1, 64] array.
-/
import proofs.«116102_j28415503630676_2_alg».proof.Proof.Segments
import proofs.«116102_j28415503630676_2_alg».proof.Proof.TableFacts
import proofs.«116102_j28415503630676_2_alg».proof.Proof.PreRanges
import proofs.«116102_j28415503630676_2_alg».proof.Proof.Gen.KernelIdeal.Regions
import proofs.«116102_j28415503630676_2_alg».proof.Proof.Gen.Pre_finite_inputs

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segs

variable {F : FTy → Type} [FloatOps F]

variable (m : (ℓ : Loc nD τ sig) → Buf (Elt F) ℓ)

/-! ## Nothing writes an argument -/

/-- A buffer that the first host stretch does not write and that is no array of the first kernel holds its launch
    contents when the first kernel is left. -/
theorem W2_launch (c : Dev nD) (b : Ref sig .tc) (ha : ∀ w, Pipeline.arrRef spec0 w ≠ b) (h0 : b ∉ hostOps0_W) :
    W2 m c b = m ((c : Thread nD τ).loc b) :=
  (W2_of_ne m c b ha).trans <| (StableHlo.after_of_writes_sub hostOps0 _ hostOps0_writes h0).trans rfl

/-- A buffer that no host stretch writes and that is no array either kernel writes back holds its launch contents
    at the last boundary. -/
theorem W5_launch (hO : Ok m) (c : Dev nD) (b : Ref sig .tc) (h2 : b ∉ hostOps2_W)
    (h46 : b ≠ main_v46_0 ∧ b ≠ main_v46_1 ∧ b ≠ main_v46_2) (h1 : b ∉ hostOps1_W)
    (ha : ∀ w, Pipeline.arrRef spec0 w ≠ b) (h0 : b ∉ hostOps0_W) :
    W5 m hO c b = m ((c : Thread nD τ).loc b) :=
  (StableHlo.after_of_writes_sub hostOps2 _ hostOps2_writes h2).trans <|
    (W4_of_ne m hO c b h46.1 h46.2.1 h46.2.2).trans <|
      (StableHlo.after_of_writes_sub hostOps1 _ hostOps1_writes h1).trans <| W2_launch m c b ha h0

theorem W5_main_arg0 (hO : Ok m) (c : Dev nD) : W5 m hO c main_arg0 = m ((c : Thread nD τ).loc main_arg0) :=
  W5_launch m hO c main_arg0 (by decide) ⟨by decide, by decide, by decide⟩ (by decide) (by decide) (by decide)
theorem W5_main_arg1 (hO : Ok m) (c : Dev nD) : W5 m hO c main_arg1 = m ((c : Thread nD τ).loc main_arg1) :=
  W5_launch m hO c main_arg1 (by decide) ⟨by decide, by decide, by decide⟩ (by decide) (by decide) (by decide)
theorem W5_main_arg2 (hO : Ok m) (c : Dev nD) : W5 m hO c main_arg2 = m ((c : Thread nD τ).loc main_arg2) :=
  W5_launch m hO c main_arg2 (by decide) ⟨by decide, by decide, by decide⟩ (by decide) (by decide) (by decide)
theorem W5_main_arg3 (hO : Ok m) (c : Dev nD) : W5 m hO c main_arg3 = m ((c : Thread nD τ).loc main_arg3) :=
  W5_launch m hO c main_arg3 (by decide) ⟨by decide, by decide, by decide⟩ (by decide) (by decide) (by decide)
theorem W5_main_arg4 (hO : Ok m) (c : Dev nD) : W5 m hO c main_arg4 = m ((c : Thread nD τ).loc main_arg4) :=
  W5_launch m hO c main_arg4 (by decide) ⟨by decide, by decide, by decide⟩ (by decide) (by decide) (by decide)
theorem W5_main_arg5 (hO : Ok m) (c : Dev nD) : W5 m hO c main_arg5 = m ((c : Thread nD τ).loc main_arg5) :=
  W5_launch m hO c main_arg5 (by decide) ⟨by decide, by decide, by decide⟩ (by decide) (by decide) (by decide)
theorem W5_main_arg6 (hO : Ok m) (c : Dev nD) : W5 m hO c main_arg6 = m ((c : Thread nD τ).loc main_arg6) :=
  W5_launch m hO c main_arg6 (by decide) ⟨by decide, by decide, by decide⟩ (by decide) (by decide) (by decide)
theorem W5_main_arg7 (hO : Ok m) (c : Dev nD) : W5 m hO c main_arg7 = m ((c : Thread nD τ).loc main_arg7) :=
  W5_launch m hO c main_arg7 (by decide) ⟨by decide, by decide, by decide⟩ (by decide) (by decide) (by decide)

/-! ## The tables' contents -/

/-- The first table is the user table as launched: the stretch between the kernels keeps it. -/
theorem tbl0 : tbl m 0 = m (((0 : Dev nD) : Thread nD τ).loc main_arg5) := by
  show StableHlo.after hostOps1 (W2 m 0) (Proc.devRef .tc main_arg5) = _
  rw [TableFacts.arg5_kept]
  exact W2_launch m 0 main_arg5 (by decide) (by decide)

/-- The second table is the first item table as launched, every entry moved past the 100000 user rows. -/
theorem tbl1 : tbl m 1 = addi (m (((0 : Dev nD) : Thread nD τ).loc main_arg6))
    (broadcastInDim S4096 ![] bcast_S_S4096 (constantI S_ 32 100000#32)) := by
  show StableHlo.after hostOps1 (W2 m 0) (Proc.devRef .tc main_v42) = _
  rw [TableFacts.v42_eq, W2_launch m 0 main_arg6 (by decide) (by decide)]

/-- The third table is the second item table as launched, every entry moved past the 100000 user rows. -/
theorem tbl2 : tbl m 2 = addi (m (((0 : Dev nD) : Thread nD τ).loc main_arg7))
    (broadcastInDim S4096 ![] bcast_S_S4096 (constantI S_ 32 100000#32)) := by
  show StableHlo.after hostOps1 (W2 m 0) (Proc.devRef .tc main_v44) = _
  rw [TableFacts.v44_eq, W2_launch m 0 main_arg7 (by decide) (by decide)]

/-! ## The precondition admits the tables -/

section Pre

variable (h : ∀ c : Dev nD, Cert.Pre_finite_inputs.fn (F := F)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) = fun _ => 1#1)

include h

/-- The precondition read back on the launch memory: user entries in [0, 100000), item entries in [0, 50000), as
    signed integers. -/
theorem pre_ranges :
    (∀ x : S4096.Idx, 0 ≤ (m (((0 : Dev nD) : Thread nD τ).loc main_arg5) x : BitVec 32).toInt
        ∧ (m (((0 : Dev nD) : Thread nD τ).loc main_arg5) x : BitVec 32).toInt < 100000) ∧
    (∀ x : S4096.Idx, 0 ≤ (m (((0 : Dev nD) : Thread nD τ).loc main_arg6) x : BitVec 32).toInt
        ∧ (m (((0 : Dev nD) : Thread nD τ).loc main_arg6) x : BitVec 32).toInt < 50000) ∧
    (∀ x : S4096.Idx, 0 ≤ (m (((0 : Dev nD) : Thread nD τ).loc main_arg7) x : BitVec 32).toInt
        ∧ (m (((0 : Dev nD) : Thread nD τ).loc main_arg7) x : BitVec 32).toInt < 50000) :=
  Cert.PreRanges.ranges _ _ _ _ _ _ _ _ (h 0)

/-- An entry of the first table is the user entry, below 100000 unsigned and in [0, 100000) signed. -/
theorem tbl0_lt (x : S4096.Idx) :
    (tbl m 0 x : BitVec 32).toNat = (m (((0 : Dev nD) : Thread nD τ).loc main_arg5) x : BitVec 32).toNat
      ∧ (m (((0 : Dev nD) : Thread nD τ).loc main_arg5) x : BitVec 32).toNat < 100000
      ∧ 0 ≤ (m (((0 : Dev nD) : Thread nD τ).loc main_arg5) x : BitVec 32).toInt
      ∧ (m (((0 : Dev nD) : Thread nD τ).loc main_arg5) x : BitVec 32).toInt < 100000 := by
  have r := (pre_ranges m h).1 x
  refine ⟨by rw [tbl0], Cert.PreRanges.user_lt _ r.1 r.2, r.1, r.2⟩

/-- An entry of the second table is the first item table's entry plus 100000, without wrapping; that entry is in
    [0, 50000) signed and unsigned. -/
theorem tbl1_val (x : S4096.Idx) :
    (tbl m 1 x : BitVec 32).toNat = (m (((0 : Dev nD) : Thread nD τ).loc main_arg6) x : BitVec 32).toNat + 100000
      ∧ (m (((0 : Dev nD) : Thread nD τ).loc main_arg6) x : BitVec 32).toNat < 50000
      ∧ 0 ≤ (m (((0 : Dev nD) : Thread nD τ).loc main_arg6) x : BitVec 32).toInt
      ∧ (m (((0 : Dev nD) : Thread nD τ).loc main_arg6) x : BitVec 32).toInt < 50000 := by
  have r := (pre_ranges m h).2.1 x
  have o := Cert.PreRanges.item_offset _ r.1 r.2
  refine ⟨?_, by omega, r.1, r.2⟩
  rw [tbl1]
  exact o.1

/-- An entry of the third table is the second item table's entry plus 100000, without wrapping; that entry is in
    [0, 50000) signed and unsigned. -/
theorem tbl2_val (x : S4096.Idx) :
    (tbl m 2 x : BitVec 32).toNat = (m (((0 : Dev nD) : Thread nD τ).loc main_arg7) x : BitVec 32).toNat + 100000
      ∧ (m (((0 : Dev nD) : Thread nD τ).loc main_arg7) x : BitVec 32).toNat < 50000
      ∧ 0 ≤ (m (((0 : Dev nD) : Thread nD τ).loc main_arg7) x : BitVec 32).toInt
      ∧ (m (((0 : Dev nD) : Thread nD τ).loc main_arg7) x : BitVec 32).toInt < 50000 := by
  have r := (pre_ranges m h).2.2 x
  have o := Cert.PreRanges.item_offset _ r.1 r.2
  refine ⟨?_, by omega, r.1, r.2⟩
  rw [tbl2]
  exact o.1

/-- Under the precondition every table entry is below 150000, so every table-indexed block lies inside its array:
    the second kernel's side condition holds. -/
theorem ok_of_pre : Ok m := by
  refine TableFacts.ok1_of_lt (tbl m) ?_ ?_ ?_
  · intro x
    have t := tbl0_lt m h x
    omega
  · intro x
    have t := tbl1_val m h x
    omega
  · intro x
    have t := tbl2_val m h x
    omega

end Pre

end Cert.KernelIdeal.Ends

end
-- ==== Proof.TableFactsK.lean ====
/-
  Three facts about the tables and the host stretches around the second kernel call:
  (1) table entries below 150000 put every block the index maps name inside the [150000, 1, 64] array;
  (2) what the stretch between the two kernel calls leaves in the buffers it writes (the two shifted tables, the
      reshaped accumulator) and that it keeps the first table;
  (3) what the last stretch leaves: the three [4096, 1, 64] results reshaped to [4096, 64].
-/
import proofs.«116102_j28415503630676_2_alg».proof.Proof.Gen.Kernel.Launch
import Idealize.ShloMosaic.Lib.StableHlo.Run

noncomputable section

namespace Cert.Kernel.TableFacts

open Idealize.ShloMosaic Idealize.ShloMosaic.TcCoe Idealize.SL.Sem
open Cert.Kernel Cert.Kernel.Gen

variable {F : FTy → Type} [FloatOps F]

/-! ## (1) The side condition on the tables -/

/-- A block index (v, 0, 0) of unit-row blocks [1, 1, 64] with v < 150000 lies inside [150000, 1, 64]. -/
theorem block_inside (v : BitVec 32) (hv : v.toNat < 150000) :
    ∀ a : Fin 3, ((![v.toNat, (0#32 : BitVec 32).toNat, (0#32 : BitVec 32).toNat] : Fin 3 → Nat) a + 1) * S1x1x64.size a ≤ S150000x1x64.size a := by
  intro a
  match a with
  | ⟨0, _⟩ => show (v.toNat + 1) * 1 ≤ 150000; omega
  | ⟨1, _⟩ => show (0 + 1) * 1 ≤ 1; decide
  | ⟨2, _⟩ => show (0 + 1) * 64 ≤ 64; decide

theorem ok1_of_lt (pf : pre1.Contents (Elt F))
    (h0 : ∀ x : S4096.Idx, (pf 0 x : BitVec 32).toNat < 150000)
    (h1 : ∀ x : S4096.Idx, (pf 1 x : BitVec 32).toNat < 150000)
    (h2 : ∀ x : S4096.Idx, (pf 2 x : BitVec 32).toNat < 150000) : ok1 (F := F) pf :=
  ⟨fun i => ⟨block_inside _ (h0 _), Or.inl rfl⟩,
   fun i => ⟨block_inside _ (h1 _), Or.inl rfl⟩,
   fun i => ⟨block_inside _ (h2 _), Or.inl rfl⟩⟩

/-! ## (2) The stretch between the two kernel calls -/

variable (W : Valuation τ sig (Elt F))

theorem v42_eq : StableHlo.after hostOps1 W (Proc.devRef .tc main_v42)
    = addi (W (Proc.devRef .tc main_arg6)) (broadcastInDim S4096 ![] bcast_S_S4096 (constantI S_ 32 100000#32)) := by
  after_results

theorem v44_eq : StableHlo.after hostOps1 W (Proc.devRef .tc main_v44)
    = addi (W (Proc.devRef .tc main_arg7)) (broadcastInDim S4096 ![] bcast_S_S4096 (constantI S_ 32 100000#32)) := by
  after_results

theorem v45_eq : StableHlo.after hostOps1 W (Proc.devRef .tc main_v45)
    = shapeCast S150000x1x64 (W (Proc.devRef .tc main_v40)) shapeCasts_S150000x64_S150000x1x64 := by
  after_results; rfl

theorem arg5_kept : StableHlo.after hostOps1 W (Proc.devRef .tc main_arg5) = W (Proc.devRef .tc main_arg5) := by
  after_results

/-! ## (3) The last stretch -/

theorem v47_eq : StableHlo.after hostOps2 W (Proc.devRef .tc main_v47)
    = shapeCast S4096x64 (W (Proc.devRef .tc main_v46_0)) shapeCasts_S4096x1x64_S4096x64 := by
  after_results; rfl

theorem v48_eq : StableHlo.after hostOps2 W (Proc.devRef .tc main_v48)
    = shapeCast S4096x64 (W (Proc.devRef .tc main_v46_1)) shapeCasts_S4096x1x64_S4096x64 := by
  after_results; rfl

theorem v49_eq : StableHlo.after hostOps2 W (Proc.devRef .tc main_v49)
    = shapeCast S4096x64 (W (Proc.devRef .tc main_v46_2)) shapeCasts_S4096x1x64_S4096x64 := by
  after_results; rfl

end Cert.Kernel.TableFacts

end
-- ==== Proof.EndsK.lean ====
/-
  The two ends of @main: what reaches the last boundary unchanged, what the three index tables hold when the second
  kernel is entered, and why the precondition admits those tables.

  No host stretch and no kernel writes an argument, so each argument's buffer holds its launch contents at the last
  boundary. The first table is the user table itself; the other two are the item tables moved past the 100000 user
  rows, `t + 100000` entry by entry. Under the precondition the user entries lie in [0, 100000) and the item entries
  in [0, 50000) as signed integers, so every table entry is below 150000 unsigned (the offset does not wrap) and
  every block the index maps name lies inside the [150000, 1, 64] array.
-/
import proofs.«116102_j28415503630676_2_alg».proof.Proof.SegmentsK
import proofs.«116102_j28415503630676_2_alg».proof.Proof.TableFactsK
import proofs.«116102_j28415503630676_2_alg».proof.Proof.PreRanges
import proofs.«116102_j28415503630676_2_alg».proof.Proof.Gen.Kernel.Regions
import proofs.«116102_j28415503630676_2_alg».proof.Proof.Gen.Pre_finite_inputs

noncomputable section

namespace Cert.Kernel.Ends

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Segs

variable {F : FTy → Type} [FloatOps F]

variable (m : (ℓ : Loc nD τ sig) → Buf (Elt F) ℓ)

/-! ## Nothing writes an argument -/

/-- A buffer that the first host stretch does not write and that is no array of the first kernel holds its launch
    contents when the first kernel is left. -/
theorem W2_launch (c : Dev nD) (b : Ref sig .tc) (ha : ∀ w, Pipeline.arrRef spec0 w ≠ b) (h0 : b ∉ hostOps0_W) :
    W2 m c b = m ((c : Thread nD τ).loc b) :=
  (W2_of_ne m c b ha).trans <| (StableHlo.after_of_writes_sub hostOps0 _ hostOps0_writes h0).trans rfl

/-- A buffer that no host stretch writes and that is no array either kernel writes back holds its launch contents
    at the last boundary. -/
theorem W5_launch (hO : Ok m) (c : Dev nD) (b : Ref sig .tc) (h2 : b ∉ hostOps2_W)
    (h46 : b ≠ main_v46_0 ∧ b ≠ main_v46_1 ∧ b ≠ main_v46_2) (h1 : b ∉ hostOps1_W)
    (ha : ∀ w, Pipeline.arrRef spec0 w ≠ b) (h0 : b ∉ hostOps0_W) :
    W5 m hO c b = m ((c : Thread nD τ).loc b) :=
  (StableHlo.after_of_writes_sub hostOps2 _ hostOps2_writes h2).trans <|
    (W4_of_ne m hO c b h46.1 h46.2.1 h46.2.2).trans <|
      (StableHlo.after_of_writes_sub hostOps1 _ hostOps1_writes h1).trans <| W2_launch m c b ha h0

theorem W5_main_arg0 (hO : Ok m) (c : Dev nD) : W5 m hO c main_arg0 = m ((c : Thread nD τ).loc main_arg0) :=
  W5_launch m hO c main_arg0 (by decide) ⟨by decide, by decide, by decide⟩ (by decide) (by decide) (by decide)
theorem W5_main_arg1 (hO : Ok m) (c : Dev nD) : W5 m hO c main_arg1 = m ((c : Thread nD τ).loc main_arg1) :=
  W5_launch m hO c main_arg1 (by decide) ⟨by decide, by decide, by decide⟩ (by decide) (by decide) (by decide)
theorem W5_main_arg2 (hO : Ok m) (c : Dev nD) : W5 m hO c main_arg2 = m ((c : Thread nD τ).loc main_arg2) :=
  W5_launch m hO c main_arg2 (by decide) ⟨by decide, by decide, by decide⟩ (by decide) (by decide) (by decide)
theorem W5_main_arg3 (hO : Ok m) (c : Dev nD) : W5 m hO c main_arg3 = m ((c : Thread nD τ).loc main_arg3) :=
  W5_launch m hO c main_arg3 (by decide) ⟨by decide, by decide, by decide⟩ (by decide) (by decide) (by decide)
theorem W5_main_arg4 (hO : Ok m) (c : Dev nD) : W5 m hO c main_arg4 = m ((c : Thread nD τ).loc main_arg4) :=
  W5_launch m hO c main_arg4 (by decide) ⟨by decide, by decide, by decide⟩ (by decide) (by decide) (by decide)
theorem W5_main_arg5 (hO : Ok m) (c : Dev nD) : W5 m hO c main_arg5 = m ((c : Thread nD τ).loc main_arg5) :=
  W5_launch m hO c main_arg5 (by decide) ⟨by decide, by decide, by decide⟩ (by decide) (by decide) (by decide)
theorem W5_main_arg6 (hO : Ok m) (c : Dev nD) : W5 m hO c main_arg6 = m ((c : Thread nD τ).loc main_arg6) :=
  W5_launch m hO c main_arg6 (by decide) ⟨by decide, by decide, by decide⟩ (by decide) (by decide) (by decide)
theorem W5_main_arg7 (hO : Ok m) (c : Dev nD) : W5 m hO c main_arg7 = m ((c : Thread nD τ).loc main_arg7) :=
  W5_launch m hO c main_arg7 (by decide) ⟨by decide, by decide, by decide⟩ (by decide) (by decide) (by decide)

/-! ## The tables' contents -/

/-- The first table is the user table as launched: the stretch between the kernels keeps it. -/
theorem tbl0 : tbl m 0 = m (((0 : Dev nD) : Thread nD τ).loc main_arg5) := by
  show StableHlo.after hostOps1 (W2 m 0) (Proc.devRef .tc main_arg5) = _
  rw [TableFacts.arg5_kept]
  exact W2_launch m 0 main_arg5 (by decide) (by decide)

/-- The second table is the first item table as launched, every entry moved past the 100000 user rows. -/
theorem tbl1 : tbl m 1 = addi (m (((0 : Dev nD) : Thread nD τ).loc main_arg6))
    (broadcastInDim S4096 ![] bcast_S_S4096 (constantI S_ 32 100000#32)) := by
  show StableHlo.after hostOps1 (W2 m 0) (Proc.devRef .tc main_v42) = _
  rw [TableFacts.v42_eq, W2_launch m 0 main_arg6 (by decide) (by decide)]

/-- The third table is the second item table as launched, every entry moved past the 100000 user rows. -/
theorem tbl2 : tbl m 2 = addi (m (((0 : Dev nD) : Thread nD τ).loc main_arg7))
    (broadcastInDim S4096 ![] bcast_S_S4096 (constantI S_ 32 100000#32)) := by
  show StableHlo.after hostOps1 (W2 m 0) (Proc.devRef .tc main_v44) = _
  rw [TableFacts.v44_eq, W2_launch m 0 main_arg7 (by decide) (by decide)]

/-! ## The precondition admits the tables -/

section Pre

variable (h : ∀ c : Dev nD, Cert.Pre_finite_inputs.fn (F := F)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) = fun _ => 1#1)

include h

/-- The precondition read back on the launch memory: user entries in [0, 100000), item entries in [0, 50000), as
    signed integers. -/
theorem pre_ranges :
    (∀ x : S4096.Idx, 0 ≤ (m (((0 : Dev nD) : Thread nD τ).loc main_arg5) x : BitVec 32).toInt
        ∧ (m (((0 : Dev nD) : Thread nD τ).loc main_arg5) x : BitVec 32).toInt < 100000) ∧
    (∀ x : S4096.Idx, 0 ≤ (m (((0 : Dev nD) : Thread nD τ).loc main_arg6) x : BitVec 32).toInt
        ∧ (m (((0 : Dev nD) : Thread nD τ).loc main_arg6) x : BitVec 32).toInt < 50000) ∧
    (∀ x : S4096.Idx, 0 ≤ (m (((0 : Dev nD) : Thread nD τ).loc main_arg7) x : BitVec 32).toInt
        ∧ (m (((0 : Dev nD) : Thread nD τ).loc main_arg7) x : BitVec 32).toInt < 50000) :=
  Cert.PreRanges.ranges _ _ _ _ _ _ _ _ (h 0)

/-- An entry of the first table is the user entry, below 100000 unsigned and in [0, 100000) signed. -/
theorem tbl0_lt (x : S4096.Idx) :
    (tbl m 0 x : BitVec 32).toNat = (m (((0 : Dev nD) : Thread nD τ).loc main_arg5) x : BitVec 32).toNat
      ∧ (m (((0 : Dev nD) : Thread nD τ).loc main_arg5) x : BitVec 32).toNat < 100000
      ∧ 0 ≤ (m (((0 : Dev nD) : Thread nD τ).loc main_arg5) x : BitVec 32).toInt
      ∧ (m (((0 : Dev nD) : Thread nD τ).loc main_arg5) x : BitVec 32).toInt < 100000 := by
  have r := (pre_ranges m h).1 x
  refine ⟨by rw [tbl0], Cert.PreRanges.user_lt _ r.1 r.2, r.1, r.2⟩

/-- An entry of the second table is the first item table's entry plus 100000, without wrapping; that entry is in
    [0, 50000) signed and unsigned. -/
theorem tbl1_val (x : S4096.Idx) :
    (tbl m 1 x : BitVec 32).toNat = (m (((0 : Dev nD) : Thread nD τ).loc main_arg6) x : BitVec 32).toNat + 100000
      ∧ (m (((0 : Dev nD) : Thread nD τ).loc main_arg6) x : BitVec 32).toNat < 50000
      ∧ 0 ≤ (m (((0 : Dev nD) : Thread nD τ).loc main_arg6) x : BitVec 32).toInt
      ∧ (m (((0 : Dev nD) : Thread nD τ).loc main_arg6) x : BitVec 32).toInt < 50000 := by
  have r := (pre_ranges m h).2.1 x
  have o := Cert.PreRanges.item_offset _ r.1 r.2
  refine ⟨?_, by omega, r.1, r.2⟩
  rw [tbl1]
  exact o.1

/-- An entry of the third table is the second item table's entry plus 100000, without wrapping; that entry is in
    [0, 50000) signed and unsigned. -/
theorem tbl2_val (x : S4096.Idx) :
    (tbl m 2 x : BitVec 32).toNat = (m (((0 : Dev nD) : Thread nD τ).loc main_arg7) x : BitVec 32).toNat + 100000
      ∧ (m (((0 : Dev nD) : Thread nD τ).loc main_arg7) x : BitVec 32).toNat < 50000
      ∧ 0 ≤ (m (((0 : Dev nD) : Thread nD τ).loc main_arg7) x : BitVec 32).toInt
      ∧ (m (((0 : Dev nD) : Thread nD τ).loc main_arg7) x : BitVec 32).toInt < 50000 := by
  have r := (pre_ranges m h).2.2 x
  have o := Cert.PreRanges.item_offset _ r.1 r.2
  refine ⟨?_, by omega, r.1, r.2⟩
  rw [tbl2]
  exact o.1

/-- Under the precondition every table entry is below 150000, so every table-indexed block lies inside its array:
    the second kernel's side condition holds. -/
theorem ok_of_pre : Ok m := by
  refine TableFacts.ok1_of_lt (tbl m) ?_ ?_ ?_
  · intro x
    have t := tbl0_lt m h x
    omega
  · intro x
    have t := tbl1_val m h x
    omega
  · intro x
    have t := tbl2_val m h x
    omega

end Pre

end Cert.Kernel.Ends

end
-- ==== Proof.PoolValue.lean ====
/-
  Pipeline 0, from blocks to the whole array: after the last write-back the output array is one pointwise function
  of the four input arrays, ((e0 + e1) + e2 + e3) times the constant 0x3E800000 (one quarter), index by index.
-/
import proofs.«116102_j28415503630676_2_alg».proof.Proof.PoolBody

noncomputable section

namespace Cert.KernelIdeal.PoolValue

open Cert.KernelIdeal Cert.KernelIdeal.Gen Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four-way average of whole arrays, with the operations of the body in the body's order. -/
def pooled (e0 e1 e2 e3 : FVec F S150000x64 .f32) : FVec F S150000x64 .f32 :=
  mulf (addf (addf (addf e0 e1) e2) e3) (broadcast S150000x64 (Scalar.ofBits .f32 0x3E800000#32))

/-- The body's stored value at one index of the block. -/
theorem pay_apply (x0 x1 x2 x3 : Vec F S10000x64 .f32) (y : S10000x64.Idx) :
    k0_pay1 x0 x1 x2 x3 y
      = FloatOps.mulf (FloatOps.addf (FloatOps.addf (FloatOps.addf (x0 y) (x1 y)) (x2 y)) (x3 y)) (Scalar.ofBits .f32 0x3E800000#32) := by
  unfold k0_pay1
  simp only [shapeCast_self]
  rfl

/-- If the four blocks at y are the four arrays at k, the stored value at y is the average at k. -/
theorem point_value (x0 x1 x2 x3 : Vec F S10000x64 .f32) (e0 e1 e2 e3 : FVec F S150000x64 .f32)
    (y : S10000x64.Idx) (k : S150000x64.Idx)
    (h0 : x0 y = e0 k) (h1 : x1 y = e1 k) (h2 : x2 y = e2 k) (h3 : x3 y = e3 k) :
    k0_pay1 x0 x1 x2 x3 y = pooled e0 e1 e2 e3 k := by
  rw [pay_apply, h0, h1, h2, h3]; rfl

/-- The index maps, decided over the 15 grid points: every window's block at point t is block (t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem flushed_eq (c : Dev nD) (t : Fin cfg0.N) :
    (dat0 V c).flushed 4 t = ((cfg0.win 4).blk t).view.read (Elt F) (pooled (V c main_v0) (V c main_v13) (V c main_v26) (V c main_v39)) := by
  show (cfg0.win 4).cut (grid0.coords t) ((dat0 V c).after 4 t) = _
  rw [after0_4, out0_4_eq]
  funext y
  obtain ⟨i0, i1, i2, i3, i4⟩ := idx_facts t
  have h0 : ((cfg0.win 0).blk t).view.emb y = ((cfg0.win 4).blk t).view.emb y := by
    funext a; apply Fin.ext
    match a with
    | ⟨0, _⟩ => show win0_0.index t (0 : Fin 2) * 10000 + 1 * (y 0).val = win0_4.index t (0 : Fin 2) * 10000 + 1 * (y 0).val; rw [i0.1, i4.1]
    | ⟨1, _⟩ => show win0_0.index t (1 : Fin 2) * 64 + 1 * (y 1).val = win0_4.index t (1 : Fin 2) * 64 + 1 * (y 1).val; rw [i0.2, i4.2]
  have h1 : ((cfg0.win 1).blk t).view.emb y = ((cfg0.win 4).blk t).view.emb y := by
    funext a; apply Fin.ext
    match a with
    | ⟨0, _⟩ => show win0_1.index t (0 : Fin 2) * 10000 + 1 * (y 0).val = win0_4.index t (0 : Fin 2) * 10000 + 1 * (y 0).val; rw [i1.1, i4.1]
    | ⟨1, _⟩ => show win0_1.index t (1 : Fin 2) * 64 + 1 * (y 1).val = win0_4.index t (1 : Fin 2) * 64 + 1 * (y 1).val; rw [i1.2, i4.2]
  have h2 : ((cfg0.win 2).blk t).view.emb y = ((cfg0.win 4).blk t).view.emb y := by
    funext a; apply Fin.ext
    match a with
    | ⟨0, _⟩ => show win0_2.index t (0 : Fin 2) * 10000 + 1 * (y 0).val = win0_4.index t (0 : Fin 2) * 10000 + 1 * (y 0).val; rw [i2.1, i4.1]
    | ⟨1, _⟩ => show win0_2.index t (1 : Fin 2) * 64 + 1 * (y 1).val = win0_4.index t (1 : Fin 2) * 64 + 1 * (y 1).val; rw [i2.2, i4.2]
  have h3 : ((cfg0.win 3).blk t).view.emb y = ((cfg0.win 4).blk t).view.emb y := by
    funext a; apply Fin.ext
    match a with
    | ⟨0, _⟩ => show win0_3.index t (0 : Fin 2) * 10000 + 1 * (y 0).val = win0_4.index t (0 : Fin 2) * 10000 + 1 * (y 0).val; rw [i3.1, i4.1]
    | ⟨1, _⟩ => show win0_3.index t (1 : Fin 2) * 64 + 1 * (y 1).val = win0_4.index t (1 : Fin 2) * 64 + 1 * (y 1).val; rw [i3.2, i4.2]
  show k0_pay1 (iblk0 V c 0 t) (iblk0 V c 1 t) (iblk0 V c 2 t) (iblk0 V c 3 t) y
    = pooled (V c main_v0) (V c main_v13) (V c main_v26) (V c main_v39) (((cfg0.win 4).blk t).view.emb y)
  refine point_value _ _ _ _ _ _ _ _ y _ ?_ ?_ ?_ ?_
  · show V c main_v0 (((cfg0.win 0).blk t).view.emb y) = V c main_v0 (((cfg0.win 4).blk t).view.emb y); rw [h0]
  · show V c main_v13 (((cfg0.win 1).blk t).view.emb y) = V c main_v13 (((cfg0.win 4).blk t).view.emb y); rw [h1]
  · show V c main_v26 (((cfg0.win 2).blk t).view.emb y) = V c main_v26 (((cfg0.win 4).blk t).view.emb y); rw [h2]
  · show V c main_v39 (((cfg0.win 3).blk t).view.emb y) = V c main_v39 (((cfg0.win 4).blk t).view.emb y); rw [h3]

/-- An index of the array is in point t's block iff each coordinate is in the block's range on its axis. -/
theorem mem_blk (t : Fin cfg0.N) (i : S150000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v40).slice (win0_4.rect t)).set ↔ _
  rw [View.set_slice_whole, Rect.mem_set_unit]
  exact Iff.rfl

/-- Row r of the array is in the block of point r / 10000: the fifteen blocks of 10000 rows tile the 150000 rows. -/
theorem cover (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have hN : cfg0.N = 15 := N_0
  refine ⟨⟨(i 0).val / 10000, by omega⟩, flush0_4 _, ?_⟩
  rw [mem_blk]
  obtain ⟨-, -, -, -, i4⟩ := idx_facts ⟨(i 0).val / 10000, by omega⟩
  intro a
  match a with
  | ⟨0, _⟩ =>
    show win0_4.index _ (0 : Fin 2) * 10000 ≤ (i 0).val ∧ (i 0).val < win0_4.index _ (0 : Fin 2) * 10000 + 10000
    rw [i4.1]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [i4.2]; omega

/-- THE ARRAY after the run of pipeline 0: the average of the four input arrays as the pipeline finds them. -/
theorem pool_final (c : Dev nD) :
    (dat0 V c).arrAt 4 cfg0.N = pooled (V c main_v0) (V c main_v13) (V c main_v26) (V c main_v39) :=
  (dat0 V c).arrAt_eq_of_cover 4 (pooled (V c main_v0) (V c main_v13) (V c main_v26) (V c main_v39))
    (fun t _ => flushed_eq V c t) cover

end Cert.KernelIdeal.PoolValue

end
-- ==== Proof.RowsValue.lean ====
/-
  Pipeline 1, from blocks to the whole arrays: after the last write-back each of the three outputs holds the rows of
  the shared input array its table picks: row i of output k is row table_k(i) of the input.
-/
import proofs.«116102_j28415503630676_2_alg».proof.Proof.Rows
import Idealize.ShloMosaic.Lib.Pipeline.Value
import Idealize.ShloMosaic.Lib.ValueIdx

set_option maxRecDepth 16384

noncomputable section

namespace Cert.KernelIdeal.RowsValue

open Cert.KernelIdeal Cert.KernelIdeal.Gen Cert.KernelIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The grid: 4096 points on one axis, point t at coordinate t -/

theorem hN : (cfg1 a).N = 4096 := N_1

theorem coords_val (t : Fin (cfg1 a).N) : (((cfg1 a).grid.coords t) (0 : Fin 1)).val = t.val := by
  have hs : grid1.stride (0 : Fin 1) = 1 := by decide
  have ht : t.val < 4096 := (hN a) ▸ t.isLt
  show t.val / grid1.stride (0 : Fin 1) % 4096 = t.val
  rw [hs, Nat.div_one]; exact Nat.mod_eq_of_lt ht

/-! ## The table word an index map reads -/

/-- The one index of the unit rectangle at offset n of a [4096] table is index n of the table. -/
theorem word_idx (n : Fin 4096) (off : Fin 1 → Nat) (hoff : off 0 = n.val) (inb : ∀ d, off d + S1.size d ≤ S4096.size d)
    (h1 : 0 < (Rect.unit (s := S4096) off S1.size inb).shape.numel) :
    (Rect.unit (s := S4096) off S1.size inb).emb (Shape.Idx.first h1) = ValueIdx.ix1 n := by
  funext d
  apply Fin.ext
  match d with
  | ⟨0, _⟩ =>
    show off 0 + 1 * (Shape.Idx.first h1 (0 : Fin 1)).val = n.val
    have hf : (Shape.Idx.first h1 (0 : Fin 1)).val = 0 := by
      have hlt : (Shape.Idx.first h1 (0 : Fin 1)).val < 1 := (Shape.Idx.first h1 (0 : Fin 1)).isLt
      omega
    rw [hf, hoff]; omega

/-- The offset the index maps compute from grid coordinate i is i. -/
theorem off_eq (i : grid1.Coords) : (![(Scalar.indexCast (BitVec.ofNat 32 (i 0).val)).toNat] : Fin 1 → Nat) 0 = (i 0).val := by
  show (BitVec.ofNat 32 (i 0).val).toNat = (i 0).val
  rw [BitVec.toNat_ofNat]
  have : (i 0).val < 4096 := (i 0).isLt
  exact Nat.mod_eq_of_lt (by omega)

/-! ## The index maps at a grid point -/

/-- The first coordinate of input window 0's block at point t is table 0's word at t. -/
theorem idx0_0 (t : Fin (cfg1 a).N) (n : Fin 4096) (hn : n.val = t.val) :
    ((cfg1 a).win 0).index t (0 : Fin 3) = (a.1 0 (ValueIdx.ix1 n) : BitVec 32).toNat := by
  show (a.1.at 0 (Rect.unit (s := S4096) ![(Scalar.indexCast (BitVec.ofNat 32 (((cfg1 a).grid.coords t) 0).val)).toNat] S1.size (k1_off1_inb _)) numel1_S1 : BitVec 32).toNat = _
  show (a.1 0 ((Rect.unit (s := S4096) ![(Scalar.indexCast (BitVec.ofNat 32 (((cfg1 a).grid.coords t) 0).val)).toNat] S1.size (k1_off1_inb _)).emb (Shape.Idx.first _)) : BitVec 32).toNat = _
  exact congrArg (fun x : S4096.Idx => (a.1 0 x : BitVec 32).toNat)
    (word_idx n _ ((off_eq _).trans ((coords_val a t).trans hn.symm)) _ _)

theorem idx0_1 (t : Fin (cfg1 a).N) : ((cfg1 a).win 0).index t (1 : Fin 3) = 0 := rfl
theorem idx0_2 (t : Fin (cfg1 a).N) : ((cfg1 a).win 0).index t (2 : Fin 3) = 0 := rfl

/-- Output window 3's block at point t is block (t, 0, 0). -/
theorem idx3_0 (t : Fin (cfg1 a).N) : ((cfg1 a).win 3).index t (0 : Fin 3) = t.val := by
  show (BitVec.ofNat 32 (((cfg1 a).grid.coords t) 0).val).toNat = t.val
  rw [BitVec.toNat_ofNat, coords_val a t]
  have ht : t.val < 4096 := (hN a) ▸ t.isLt
  exact Nat.mod_eq_of_lt (by omega)
theorem idx3_1 (t : Fin (cfg1 a).N) : ((cfg1 a).win 3).index t (1 : Fin 3) = 0 := rfl
theorem idx3_2 (t : Fin (cfg1 a).N) : ((cfg1 a).win 3).index t (2 : Fin 3) = 0 := rfl

/-- The first coordinate of input window 1's block at point t is table 1's word at t. -/
theorem idx1_0 (t : Fin (cfg1 a).N) (n : Fin 4096) (hn : n.val = t.val) :
    ((cfg1 a).win 1).index t (0 : Fin 3) = (a.1 1 (ValueIdx.ix1 n) : BitVec 32).toNat := by
  show (a.1.at 1 (Rect.unit (s := S4096) ![(Scalar.indexCast (BitVec.ofNat 32 (((cfg1 a).grid.coords t) 0).val)).toNat] S1.size (k1_off1_inb _)) numel1_S1 : BitVec 32).toNat = _
  show (a.1 1 ((Rect.unit (s := S4096) ![(Scalar.indexCast (BitVec.ofNat 32 (((cfg1 a).grid.coords t) 0).val)).toNat] S1.size (k1_off1_inb _)).emb (Shape.Idx.first _)) : BitVec 32).toNat = _
  exact congrArg (fun x : S4096.Idx => (a.1 1 x : BitVec 32).toNat)
    (word_idx n _ ((off_eq _).trans ((coords_val a t).trans hn.symm)) _ _)

theorem idx1_1 (t : Fin (cfg1 a).N) : ((cfg1 a).win 1).index t (1 : Fin 3) = 0 := rfl
theorem idx1_2 (t : Fin (cfg1 a).N) : ((cfg1 a).win 1).index t (2 : Fin 3) = 0 := rfl

/-- Output window 4's block at point t is block (t, 0, 0). -/
theorem idx4_0 (t : Fin (cfg1 a).N) : ((cfg1 a).win 4).index t (0 : Fin 3) = t.val := by
  show (BitVec.ofNat 32 (((cfg1 a).grid.coords t) 0).val).toNat = t.val
  rw [BitVec.toNat_ofNat, coords_val a t]
  have ht : t.val < 4096 := (hN a) ▸ t.isLt
  exact Nat.mod_eq_of_lt (by omega)
theorem idx4_1 (t : Fin (cfg1 a).N) : ((cfg1 a).win 4).index t (1 : Fin 3) = 0 := rfl
theorem idx4_2 (t : Fin (cfg1 a).N) : ((cfg1 a).win 4).index t (2 : Fin 3) = 0 := rfl

/-- The first coordinate of input window 2's block at point t is table 2's word at t. -/
theorem idx2_0 (t : Fin (cfg1 a).N) (n : Fin 4096) (hn : n.val = t.val) :
    ((cfg1 a).win 2).index t (0 : Fin 3) = (a.1 2 (ValueIdx.ix1 n) : BitVec 32).toNat := by
  show (a.1.at 2 (Rect.unit (s := S4096) ![(Scalar.indexCast (BitVec.ofNat 32 (((cfg1 a).grid.coords t) 0).val)).toNat] S1.size (k1_off1_inb _)) numel1_S1 : BitVec 32).toNat = _
  show (a.1 2 ((Rect.unit (s := S4096) ![(Scalar.indexCast (BitVec.ofNat 32 (((cfg1 a).grid.coords t) 0).val)).toNat] S1.size (k1_off1_inb _)).emb (Shape.Idx.first _)) : BitVec 32).toNat = _
  exact congrArg (fun x : S4096.Idx => (a.1 2 x : BitVec 32).toNat)
    (word_idx n _ ((off_eq _).trans ((coords_val a t).trans hn.symm)) _ _)

theorem idx2_1 (t : Fin (cfg1 a).N) : ((cfg1 a).win 2).index t (1 : Fin 3) = 0 := rfl
theorem idx2_2 (t : Fin (cfg1 a).N) : ((cfg1 a).win 2).index t (2 : Fin 3) = 0 := rfl

/-- Output window 5's block at point t is block (t, 0, 0). -/
theorem idx5_0 (t : Fin (cfg1 a).N) : ((cfg1 a).win 5).index t (0 : Fin 3) = t.val := by
  show (BitVec.ofNat 32 (((cfg1 a).grid.coords t) 0).val).toNat = t.val
  rw [BitVec.toNat_ofNat, coords_val a t]
  have ht : t.val < 4096 := (hN a) ▸ t.isLt
  exact Nat.mod_eq_of_lt (by omega)
theorem idx5_1 (t : Fin (cfg1 a).N) : ((cfg1 a).win 5).index t (1 : Fin 3) = 0 := rfl
theorem idx5_2 (t : Fin (cfg1 a).N) : ((cfg1 a).win 5).index t (2 : Fin 3) = 0 := rfl

/-! ## The rows the tables pick -/

/-- Table 0's word at i names a row of the input array: the side condition on the tables, at the point whose coordinate is i. -/
theorem row0_lt (i : Fin 4096) : (a.1 0 (ValueIdx.ix1 i) : BitVec 32).toNat < 150000 := by
  have hi : i.val < (cfg1 a).N := by rw [hN a]; exact i.isLt
  obtain ⟨h, -⟩ := a.2.1 ((cfg1 a).grid.coords ⟨i.val, hi⟩)
  have h0 : (((cfg1 a).win 0).index ⟨i.val, hi⟩ (0 : Fin 3) + 1) * 1 ≤ 150000 := h 0
  rw [idx0_0 a ⟨i.val, hi⟩ i rfl] at h0
  omega

/-- The row of the input array that table 0 picks for output row i. -/
def row0 (i : Fin 4096) : Fin 150000 := ⟨(a.1 0 (ValueIdx.ix1 i) : BitVec 32).toNat, row0_lt a i⟩

/-- Table 1's word at i names a row of the input array: the side condition on the tables, at the point whose coordinate is i. -/
theorem row1_lt (i : Fin 4096) : (a.1 1 (ValueIdx.ix1 i) : BitVec 32).toNat < 150000 := by
  have hi : i.val < (cfg1 a).N := by rw [hN a]; exact i.isLt
  obtain ⟨h, -⟩ := a.2.2.1 ((cfg1 a).grid.coords ⟨i.val, hi⟩)
  have h0 : (((cfg1 a).win 1).index ⟨i.val, hi⟩ (0 : Fin 3) + 1) * 1 ≤ 150000 := h 0
  rw [idx1_0 a ⟨i.val, hi⟩ i rfl] at h0
  omega

/-- The row of the input array that table 1 picks for output row i. -/
def row1 (i : Fin 4096) : Fin 150000 := ⟨(a.1 1 (ValueIdx.ix1 i) : BitVec 32).toNat, row1_lt a i⟩

/-- Table 2's word at i names a row of the input array: the side condition on the tables, at the point whose coordinate is i. -/
theorem row2_lt (i : Fin 4096) : (a.1 2 (ValueIdx.ix1 i) : BitVec 32).toNat < 150000 := by
  have hi : i.val < (cfg1 a).N := by rw [hN a]; exact i.isLt
  obtain ⟨h, -⟩ := a.2.2.2 ((cfg1 a).grid.coords ⟨i.val, hi⟩)
  have h0 : (((cfg1 a).win 2).index ⟨i.val, hi⟩ (0 : Fin 3) + 1) * 1 ≤ 150000 := h 0
  rw [idx2_0 a ⟨i.val, hi⟩ i rfl] at h0
  omega

/-- The row of the input array that table 2 picks for output row i. -/
def row2 (i : Fin 4096) : Fin 150000 := ⟨(a.1 2 (ValueIdx.ix1 i) : BitVec 32).toNat, row2_lt a i⟩

/-- The rows r picks out of a [150000, 1, 64] array, as a [4096, 1, 64] array. -/
def gathered (r : Fin 4096 → Fin 150000) (x : FVec F S150000x1x64 .f32) : FVec F S4096x1x64 .f32 :=
  fun y => x (ValueIdx.ix3 (r (y 0)) (y 1) (y 2))

/-- The gathered array at j is the input at any index with row r (j 0) and j's other coordinates. -/
theorem gathered_apply (r : Fin 4096 → Fin 150000) (x : FVec F S150000x1x64 .f32) (k : S150000x1x64.Idx) (j : S4096x1x64.Idx)
    (h0 : (k 0).val = (r (j 0)).val) (h1 : (k 1).val = (j 1).val) (h2 : (k 2).val = (j 2).val) :
    x k = gathered r x j := by
  unfold gathered
  refine congrArg x (funext fun d => Fin.ext ?_)
  match d with
  | ⟨0, _⟩ => exact h0
  | ⟨1, _⟩ => exact h1
  | ⟨2, _⟩ => exact h2

theorem origin3 : (![0, 0, 0] : Fin 3 → Nat) = fun _ => 0 := funext fun d => by fin_cases d <;> rfl

/-! ## Output window 3 -/

/-- The body's store into output 3 leaves the block it read. -/
theorem out1_3_eq (x0 : Vec F S1x1x64 .f32) : out1_3 x0 = x0 := by
  unfold out1_3
  rw [View.canon_unit_zero (S := S1x1x64) origin3 inb_S1x1x64_S1x1x64_0_0_0,
    View.ld_unit_zero (S := S1x1x64) origin3 inb_S1x1x64_S1x1x64_0_0_0 x0]
  unfold k1_pay1
  exact shapeCast_self _ _

/-- WHAT POINT t WRITES BACK to output 3 is block t of the rows table 0 picks. -/
theorem flushed3_eq (c : Dev nD) (t : Fin (cfg1 a).N) :
    (dat1 V a c).flushed 3 t = (((cfg1 a).win 3).blk t).view.read (Elt F) (gathered (row0 a) (V c main_v45)) := by
  show ((cfg1 a).win 3).cut ((cfg1 a).grid.coords t) ((dat1 V a c).after 3 t) = _
  rw [after1_3]
  refine funext fun (y : S1x1x64.Idx) => ?_
  show out1_3 (iblk1 V a c 0 t) y = gathered (row0 a) (V c main_v45) ((((cfg1 a).win 3).blk t).view.emb y)
  refine (congrFun (out1_3_eq (iblk1 V a c 0 t)) y).trans ?_
  show V c main_v45 ((((cfg1 a).win 0).blk t).view.emb y) = gathered (row0 a) (V c main_v45) ((((cfg1 a).win 3).blk t).view.emb y)
  have hy0 : (y (0 : Fin 3)).val = 0 := by have h : (y (0 : Fin 3)).val < 1 := (y (0 : Fin 3)).isLt; omega
  have ht : t.val < 4096 := (hN a) ▸ t.isLt
  refine gathered_apply _ _ _ _ ?_ rfl rfl
  have e3 : (((((cfg1 a).win 3).blk t).view.emb y : S4096x1x64.Idx) (0 : Fin 3)) = (⟨t.val, ht⟩ : Fin 4096) := by
    apply Fin.ext
    show ((cfg1 a).win 3).index t (0 : Fin 3) * 1 + 1 * (y (0 : Fin 3)).val = t.val
    rw [idx3_0, hy0]; omega
  rw [e3]
  show ((cfg1 a).win 0).index t (0 : Fin 3) * 1 + 1 * (y (0 : Fin 3)).val = (a.1 0 (ValueIdx.ix1 (⟨t.val, ht⟩ : Fin 4096)) : BitVec 32).toNat
  rw [idx0_0 a t ⟨t.val, ht⟩ rfl, hy0]; omega

/-- An index of output 3 is in point t's block iff each coordinate is in the block's range on its axis. -/
theorem mem_blk3 (t : Fin (cfg1 a).N) (i : S4096x1x64.Idx) :
    i ∈ (((cfg1 a).win 3).blk t).view.set ↔ ∀ d : Fin 3, ((cfg1 a).win 3).index t d * S1x1x64.size d ≤ (i d).val ∧ (i d).val < ((cfg1 a).win 3).index t d * S1x1x64.size d + S1x1x64.size d := by
  have e : (((cfg1 a).win 3).blk t).view.set = (((cfg1 a).win 3).rect t).set :=
    View.set_slice_whole main_v46_0 (((cfg1 a).win 3).rect t)
  exact (iff_of_eq (congrArg (fun S => i ∈ S) e)).trans Rect.mem_set_unit

/-- Output 3 is written back at every point: its block number moves with the point. -/
theorem flush3 (t : Fin (cfg1 a).N) : ((cfg1 a).win 3).flush t = true := by
  unfold Window.flush
  have hout : ((cfg1 a).win 3).isOut = true := rfl
  rw [hout, Bool.true_and, Bool.or_eq_true, decide_eq_true_eq, decide_eq_true_eq]
  by_cases h : t.val + 1 = (cfg1 a).grid.N
  · exact Or.inl h
  · have hlt : t.val + 1 < (cfg1 a).grid.N := by have h2 : t.val < (cfg1 a).grid.N := t.isLt; omega
    refine Or.inr ⟨hlt, fun e => ?_⟩
    have e0 := congrFun e (0 : Fin 3)
    rw [idx3_0 a ⟨t.val + 1, hlt⟩, idx3_0 a t] at e0
    exact absurd e0 (by show t.val + 1 ≠ t.val; omega)

/-- Row r of output 3 is in the block of the point r. -/
theorem cover3 (i : S4096x1x64.Idx) :
    ∃ t : Fin (cfg1 a).N, ((cfg1 a).win 3).flush t = true ∧ i ∈ (((cfg1 a).win 3).blk t).view.set := by
  have hi0 : (i (0 : Fin 3)).val < 4096 := (i (0 : Fin 3)).isLt
  have hi1 : (i (1 : Fin 3)).val < 1 := (i (1 : Fin 3)).isLt
  have hi2 : (i (2 : Fin 3)).val < 64 := (i (2 : Fin 3)).isLt
  have hN' : (cfg1 a).N = 4096 := hN a
  refine ⟨⟨(i (0 : Fin 3)).val, by omega⟩, flush3 a _, ?_⟩
  rw [mem_blk3]
  intro d
  match d with
  | ⟨0, _⟩ =>
    show ((cfg1 a).win 3).index _ (0 : Fin 3) * 1 ≤ (i (0 : Fin 3)).val ∧ (i (0 : Fin 3)).val < ((cfg1 a).win 3).index _ (0 : Fin 3) * 1 + 1
    rw [idx3_0]; show (i (0 : Fin 3)).val * 1 ≤ (i (0 : Fin 3)).val ∧ (i (0 : Fin 3)).val < (i (0 : Fin 3)).val * 1 + 1; omega
  | ⟨1, _⟩ =>
    show ((cfg1 a).win 3).index _ (1 : Fin 3) * 1 ≤ (i (1 : Fin 3)).val ∧ (i (1 : Fin 3)).val < ((cfg1 a).win 3).index _ (1 : Fin 3) * 1 + 1
    rw [idx3_1]; omega
  | ⟨2, _⟩ =>
    show ((cfg1 a).win 3).index _ (2 : Fin 3) * 64 ≤ (i (2 : Fin 3)).val ∧ (i (2 : Fin 3)).val < ((cfg1 a).win 3).index _ (2 : Fin 3) * 64 + 64
    rw [idx3_2]; omega

/-- OUTPUT 3 after the run of pipeline 1: the rows of the input array that table 0 picks. -/
theorem rows_final3 (c : Dev nD) : (dat1 V a c).arrAt 3 (cfg1 a).N = gathered (row0 a) (V c main_v45) :=
  (dat1 V a c).arrAt_eq_of_cover 3 (gathered (row0 a) (V c main_v45)) (fun t _ => flushed3_eq V a c t) (cover3 a)

/-! ## Output window 4 -/

/-- The body's store into output 4 leaves the block it read. -/
theorem out1_4_eq (x0 : Vec F S1x1x64 .f32) : out1_4 x0 = x0 := by
  unfold out1_4
  rw [View.canon_unit_zero (S := S1x1x64) origin3 inb_S1x1x64_S1x1x64_0_0_0,
    View.ld_unit_zero (S := S1x1x64) origin3 inb_S1x1x64_S1x1x64_0_0_0 x0]
  unfold k1_pay2
  exact shapeCast_self _ _

/-- WHAT POINT t WRITES BACK to output 4 is block t of the rows table 1 picks. -/
theorem flushed4_eq (c : Dev nD) (t : Fin (cfg1 a).N) :
    (dat1 V a c).flushed 4 t = (((cfg1 a).win 4).blk t).view.read (Elt F) (gathered (row1 a) (V c main_v45)) := by
  show ((cfg1 a).win 4).cut ((cfg1 a).grid.coords t) ((dat1 V a c).after 4 t) = _
  rw [after1_4]
  refine funext fun (y : S1x1x64.Idx) => ?_
  show out1_4 (iblk1 V a c 1 t) y = gathered (row1 a) (V c main_v45) ((((cfg1 a).win 4).blk t).view.emb y)
  refine (congrFun (out1_4_eq (iblk1 V a c 1 t)) y).trans ?_
  show V c main_v45 ((((cfg1 a).win 1).blk t).view.emb y) = gathered (row1 a) (V c main_v45) ((((cfg1 a).win 4).blk t).view.emb y)
  have hy0 : (y (0 : Fin 3)).val = 0 := by have h : (y (0 : Fin 3)).val < 1 := (y (0 : Fin 3)).isLt; omega
  have ht : t.val < 4096 := (hN a) ▸ t.isLt
  refine gathered_apply _ _ _ _ ?_ rfl rfl
  have e3 : (((((cfg1 a).win 4).blk t).view.emb y : S4096x1x64.Idx) (0 : Fin 3)) = (⟨t.val, ht⟩ : Fin 4096) := by
    apply Fin.ext
    show ((cfg1 a).win 4).index t (0 : Fin 3) * 1 + 1 * (y (0 : Fin 3)).val = t.val
    rw [idx4_0, hy0]; omega
  rw [e3]
  show ((cfg1 a).win 1).index t (0 : Fin 3) * 1 + 1 * (y (0 : Fin 3)).val = (a.1 1 (ValueIdx.ix1 (⟨t.val, ht⟩ : Fin 4096)) : BitVec 32).toNat
  rw [idx1_0 a t ⟨t.val, ht⟩ rfl, hy0]; omega

/-- An index of output 4 is in point t's block iff each coordinate is in the block's range on its axis. -/
theorem mem_blk4 (t : Fin (cfg1 a).N) (i : S4096x1x64.Idx) :
    i ∈ (((cfg1 a).win 4).blk t).view.set ↔ ∀ d : Fin 3, ((cfg1 a).win 4).index t d * S1x1x64.size d ≤ (i d).val ∧ (i d).val < ((cfg1 a).win 4).index t d * S1x1x64.size d + S1x1x64.size d := by
  have e : (((cfg1 a).win 4).blk t).view.set = (((cfg1 a).win 4).rect t).set :=
    View.set_slice_whole main_v46_1 (((cfg1 a).win 4).rect t)
  exact (iff_of_eq (congrArg (fun S => i ∈ S) e)).trans Rect.mem_set_unit

/-- Output 4 is written back at every point: its block number moves with the point. -/
theorem flush4 (t : Fin (cfg1 a).N) : ((cfg1 a).win 4).flush t = true := by
  unfold Window.flush
  have hout : ((cfg1 a).win 4).isOut = true := rfl
  rw [hout, Bool.true_and, Bool.or_eq_true, decide_eq_true_eq, decide_eq_true_eq]
  by_cases h : t.val + 1 = (cfg1 a).grid.N
  · exact Or.inl h
  · have hlt : t.val + 1 < (cfg1 a).grid.N := by have h2 : t.val < (cfg1 a).grid.N := t.isLt; omega
    refine Or.inr ⟨hlt, fun e => ?_⟩
    have e0 := congrFun e (0 : Fin 3)
    rw [idx4_0 a ⟨t.val + 1, hlt⟩, idx4_0 a t] at e0
    exact absurd e0 (by show t.val + 1 ≠ t.val; omega)

/-- Row r of output 4 is in the block of the point r. -/
theorem cover4 (i : S4096x1x64.Idx) :
    ∃ t : Fin (cfg1 a).N, ((cfg1 a).win 4).flush t = true ∧ i ∈ (((cfg1 a).win 4).blk t).view.set := by
  have hi0 : (i (0 : Fin 3)).val < 4096 := (i (0 : Fin 3)).isLt
  have hi1 : (i (1 : Fin 3)).val < 1 := (i (1 : Fin 3)).isLt
  have hi2 : (i (2 : Fin 3)).val < 64 := (i (2 : Fin 3)).isLt
  have hN' : (cfg1 a).N = 4096 := hN a
  refine ⟨⟨(i (0 : Fin 3)).val, by omega⟩, flush4 a _, ?_⟩
  rw [mem_blk4]
  intro d
  match d with
  | ⟨0, _⟩ =>
    show ((cfg1 a).win 4).index _ (0 : Fin 3) * 1 ≤ (i (0 : Fin 3)).val ∧ (i (0 : Fin 3)).val < ((cfg1 a).win 4).index _ (0 : Fin 3) * 1 + 1
    rw [idx4_0]; show (i (0 : Fin 3)).val * 1 ≤ (i (0 : Fin 3)).val ∧ (i (0 : Fin 3)).val < (i (0 : Fin 3)).val * 1 + 1; omega
  | ⟨1, _⟩ =>
    show ((cfg1 a).win 4).index _ (1 : Fin 3) * 1 ≤ (i (1 : Fin 3)).val ∧ (i (1 : Fin 3)).val < ((cfg1 a).win 4).index _ (1 : Fin 3) * 1 + 1
    rw [idx4_1]; omega
  | ⟨2, _⟩ =>
    show ((cfg1 a).win 4).index _ (2 : Fin 3) * 64 ≤ (i (2 : Fin 3)).val ∧ (i (2 : Fin 3)).val < ((cfg1 a).win 4).index _ (2 : Fin 3) * 64 + 64
    rw [idx4_2]; omega

/-- OUTPUT 4 after the run of pipeline 1: the rows of the input array that table 1 picks. -/
theorem rows_final4 (c : Dev nD) : (dat1 V a c).arrAt 4 (cfg1 a).N = gathered (row1 a) (V c main_v45) :=
  (dat1 V a c).arrAt_eq_of_cover 4 (gathered (row1 a) (V c main_v45)) (fun t _ => flushed4_eq V a c t) (cover4 a)

/-! ## Output window 5 -/

/-- The body's store into output 5 leaves the block it read. -/
theorem out1_5_eq (x0 : Vec F S1x1x64 .f32) : out1_5 x0 = x0 := by
  unfold out1_5
  rw [View.canon_unit_zero (S := S1x1x64) origin3 inb_S1x1x64_S1x1x64_0_0_0,
    View.ld_unit_zero (S := S1x1x64) origin3 inb_S1x1x64_S1x1x64_0_0_0 x0]
  unfold k1_pay3
  exact shapeCast_self _ _

/-- WHAT POINT t WRITES BACK to output 5 is block t of the rows table 2 picks. -/
theorem flushed5_eq (c : Dev nD) (t : Fin (cfg1 a).N) :
    (dat1 V a c).flushed 5 t = (((cfg1 a).win 5).blk t).view.read (Elt F) (gathered (row2 a) (V c main_v45)) := by
  show ((cfg1 a).win 5).cut ((cfg1 a).grid.coords t) ((dat1 V a c).after 5 t) = _
  rw [after1_5]
  refine funext fun (y : S1x1x64.Idx) => ?_
  show out1_5 (iblk1 V a c 2 t) y = gathered (row2 a) (V c main_v45) ((((cfg1 a).win 5).blk t).view.emb y)
  refine (congrFun (out1_5_eq (iblk1 V a c 2 t)) y).trans ?_
  show V c main_v45 ((((cfg1 a).win 2).blk t).view.emb y) = gathered (row2 a) (V c main_v45) ((((cfg1 a).win 5).blk t).view.emb y)
  have hy0 : (y (0 : Fin 3)).val = 0 := by have h : (y (0 : Fin 3)).val < 1 := (y (0 : Fin 3)).isLt; omega
  have ht : t.val < 4096 := (hN a) ▸ t.isLt
  refine gathered_apply _ _ _ _ ?_ rfl rfl
  have e3 : (((((cfg1 a).win 5).blk t).view.emb y : S4096x1x64.Idx) (0 : Fin 3)) = (⟨t.val, ht⟩ : Fin 4096) := by
    apply Fin.ext
    show ((cfg1 a).win 5).index t (0 : Fin 3) * 1 + 1 * (y (0 : Fin 3)).val = t.val
    rw [idx5_0, hy0]; omega
  rw [e3]
  show ((cfg1 a).win 2).index t (0 : Fin 3) * 1 + 1 * (y (0 : Fin 3)).val = (a.1 2 (ValueIdx.ix1 (⟨t.val, ht⟩ : Fin 4096)) : BitVec 32).toNat
  rw [idx2_0 a t ⟨t.val, ht⟩ rfl, hy0]; omega

/-- An index of output 5 is in point t's block iff each coordinate is in the block's range on its axis. -/
theorem mem_blk5 (t : Fin (cfg1 a).N) (i : S4096x1x64.Idx) :
    i ∈ (((cfg1 a).win 5).blk t).view.set ↔ ∀ d : Fin 3, ((cfg1 a).win 5).index t d * S1x1x64.size d ≤ (i d).val ∧ (i d).val < ((cfg1 a).win 5).index t d * S1x1x64.size d + S1x1x64.size d := by
  have e : (((cfg1 a).win 5).blk t).view.set = (((cfg1 a).win 5).rect t).set :=
    View.set_slice_whole main_v46_2 (((cfg1 a).win 5).rect t)
  exact (iff_of_eq (congrArg (fun S => i ∈ S) e)).trans Rect.mem_set_unit

/-- Output 5 is written back at every point: its block number moves with the point. -/
theorem flush5 (t : Fin (cfg1 a).N) : ((cfg1 a).win 5).flush t = true := by
  unfold Window.flush
  have hout : ((cfg1 a).win 5).isOut = true := rfl
  rw [hout, Bool.true_and, Bool.or_eq_true, decide_eq_true_eq, decide_eq_true_eq]
  by_cases h : t.val + 1 = (cfg1 a).grid.N
  · exact Or.inl h
  · have hlt : t.val + 1 < (cfg1 a).grid.N := by have h2 : t.val < (cfg1 a).grid.N := t.isLt; omega
    refine Or.inr ⟨hlt, fun e => ?_⟩
    have e0 := congrFun e (0 : Fin 3)
    rw [idx5_0 a ⟨t.val + 1, hlt⟩, idx5_0 a t] at e0
    exact absurd e0 (by show t.val + 1 ≠ t.val; omega)

/-- Row r of output 5 is in the block of the point r. -/
theorem cover5 (i : S4096x1x64.Idx) :
    ∃ t : Fin (cfg1 a).N, ((cfg1 a).win 5).flush t = true ∧ i ∈ (((cfg1 a).win 5).blk t).view.set := by
  have hi0 : (i (0 : Fin 3)).val < 4096 := (i (0 : Fin 3)).isLt
  have hi1 : (i (1 : Fin 3)).val < 1 := (i (1 : Fin 3)).isLt
  have hi2 : (i (2 : Fin 3)).val < 64 := (i (2 : Fin 3)).isLt
  have hN' : (cfg1 a).N = 4096 := hN a
  refine ⟨⟨(i (0 : Fin 3)).val, by omega⟩, flush5 a _, ?_⟩
  rw [mem_blk5]
  intro d
  match d with
  | ⟨0, _⟩ =>
    show ((cfg1 a).win 5).index _ (0 : Fin 3) * 1 ≤ (i (0 : Fin 3)).val ∧ (i (0 : Fin 3)).val < ((cfg1 a).win 5).index _ (0 : Fin 3) * 1 + 1
    rw [idx5_0]; show (i (0 : Fin 3)).val * 1 ≤ (i (0 : Fin 3)).val ∧ (i (0 : Fin 3)).val < (i (0 : Fin 3)).val * 1 + 1; omega
  | ⟨1, _⟩ =>
    show ((cfg1 a).win 5).index _ (1 : Fin 3) * 1 ≤ (i (1 : Fin 3)).val ∧ (i (1 : Fin 3)).val < ((cfg1 a).win 5).index _ (1 : Fin 3) * 1 + 1
    rw [idx5_1]; omega
  | ⟨2, _⟩ =>
    show ((cfg1 a).win 5).index _ (2 : Fin 3) * 64 ≤ (i (2 : Fin 3)).val ∧ (i (2 : Fin 3)).val < ((cfg1 a).win 5).index _ (2 : Fin 3) * 64 + 64
    rw [idx5_2]; omega

/-- OUTPUT 5 after the run of pipeline 1: the rows of the input array that table 2 picks. -/
theorem rows_final5 (c : Dev nD) : (dat1 V a c).arrAt 5 (cfg1 a).N = gathered (row2 a) (V c main_v45) :=
  (dat1 V a c).arrAt_eq_of_cover 5 (gathered (row2 a) (V c main_v45)) (fun t _ => flushed5_eq V a c t) (cover5 a)

end Cert.KernelIdeal.RowsValue

end
-- ==== Proof.LibUnitAxis.lean ====
/-
  A unit axis in the MIDDLE of a rank-3 shape, added or dropped by a shape cast, read at an index given by
  coordinates: an [a, b] array cast to [a, 1, b] reads, at (i, u, j), the operand at (i, j); an [a, 1, b] array
  cast to [a, b] reads, at (i, j), the operand at (i, 0, j). Both sides of each cast have the same row-major
  position (i · 1 + u) · b + j = i · b + j, since u < 1. Any extents a, b and any entry type.
-/
import Idealize.ShloMosaic.Lib.Pipeline.Value
import Idealize.ShloMosaic.Lib.ValueIdx

namespace Idealize.ShloMosaic.ValueIdx

open Idealize.ShloMosaic

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.ValueIdx
-- ==== Proof.KernelValue.lean ====
/-
  The three results of @main, read through the two kernels: output row i of result k is the pooled array's row
  table_k(i), where the pooled array is the four-way average of the four arrays the first kernel is handed.
-/
import proofs.«116102_j28415503630676_2_alg».proof.Proof.Segments
import proofs.«116102_j28415503630676_2_alg».proof.Proof.PoolValue
import proofs.«116102_j28415503630676_2_alg».proof.Proof.RowsValue
import proofs.«116102_j28415503630676_2_alg».proof.Proof.TableFacts
import proofs.«116102_j28415503630676_2_alg».proof.Proof.LibUnitAxis

set_option maxRecDepth 16384

noncomputable section

namespace Cert.KernelIdeal.Outs

open Cert.KernelIdeal Cert.KernelIdeal.Gen Cert.KernelIdeal.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The array the second kernel reads: the first kernel's pooled array, re-laid as [150000, 1, 64]. -/
theorem v45_is (c : Dev nD) :
    Segs.V3 m c main_v45 = shapeCast S150000x1x64 (PoolValue.pooled (Segs.V1 m c main_v0) (Segs.V1 m c main_v13) (Segs.V1 m c main_v26) (Segs.V1 m c main_v39)) shapeCasts_S150000x64_S150000x1x64 :=
  (TableFacts.v45_eq (Segs.W2 m c)).trans
    (congrArg (fun x : FVec F S150000x64 .f32 => shapeCast S150000x1x64 x shapeCasts_S150000x64_S150000x1x64)
      ((Segs.W2_arr m c 4).trans (PoolValue.pool_final (Segs.V1 m) c)))

/-! ## Each result as the rows its table picks, re-laid as [4096, 64] -/

theorem out47 (hO : Ok m) (c : Dev nD) :
    Segs.W5 m hO c main_v47 = shapeCast S4096x64 (RowsValue.gathered (RowsValue.row0 (adm1 m hO)) (Segs.V3 m c main_v45)) shapeCasts_S4096x1x64_S4096x64 :=
  (TableFacts.v47_eq (Segs.W4 m hO c)).trans
    (congrArg (fun x : FVec F S4096x1x64 .f32 => shapeCast S4096x64 x shapeCasts_S4096x1x64_S4096x64)
      ((Segs.W4_v46_0 m hO c).trans (RowsValue.rows_final3 (Segs.V3 m) (adm1 m hO) c)))

theorem out48 (hO : Ok m) (c : Dev nD) :
    Segs.W5 m hO c main_v48 = shapeCast S4096x64 (RowsValue.gathered (RowsValue.row1 (adm1 m hO)) (Segs.V3 m c main_v45)) shapeCasts_S4096x1x64_S4096x64 :=
  (TableFacts.v48_eq (Segs.W4 m hO c)).trans
    (congrArg (fun x : FVec F S4096x1x64 .f32 => shapeCast S4096x64 x shapeCasts_S4096x1x64_S4096x64)
      ((Segs.W4_v46_1 m hO c).trans (RowsValue.rows_final4 (Segs.V3 m) (adm1 m hO) c)))

theorem out49 (hO : Ok m) (c : Dev nD) :
    Segs.W5 m hO c main_v49 = shapeCast S4096x64 (RowsValue.gathered (RowsValue.row2 (adm1 m hO)) (Segs.V3 m c main_v45)) shapeCasts_S4096x1x64_S4096x64 :=
  (TableFacts.v49_eq (Segs.W4 m hO c)).trans
    (congrArg (fun x : FVec F S4096x1x64 .f32 => shapeCast S4096x64 x shapeCasts_S4096x1x64_S4096x64)
      ((Segs.W4_v46_2 m hO c).trans (RowsValue.rows_final5 (Segs.V3 m) (adm1 m hO) c)))

/-! ## Each result at an index: the pooled array at the picked row -/

theorem out47_apply (hO : Ok m) (c : Dev nD) (i : Fin 4096) (j : Fin 64) :
    Segs.W5 m hO c main_v47 (ValueIdx.ix2 i j)
      = PoolValue.pooled (Segs.V1 m c main_v0) (Segs.V1 m c main_v13) (Segs.V1 m c main_v26) (Segs.V1 m c main_v39) (ValueIdx.ix2 (RowsValue.row0 (adm1 m hO) i) j) := by
  refine (congrFun (out47 m hO c) (ValueIdx.ix2 i j)).trans ?_
  refine (ValueIdx.shapeCast_a1b_ab_apply _ _ i j).trans ?_
  show Segs.V3 m c main_v45 (ValueIdx.ix3 (RowsValue.row0 (adm1 m hO) i) (0 : Fin 1) j) = _
  refine (congrFun (v45_is m c) _).trans ?_
  exact ValueIdx.shapeCast_ab_a1b_apply _ _ _ _ _

theorem out48_apply (hO : Ok m) (c : Dev nD) (i : Fin 4096) (j : Fin 64) :
    Segs.W5 m hO c main_v48 (ValueIdx.ix2 i j)
      = PoolValue.pooled (Segs.V1 m c main_v0) (Segs.V1 m c main_v13) (Segs.V1 m c main_v26) (Segs.V1 m c main_v39) (ValueIdx.ix2 (RowsValue.row1 (adm1 m hO) i) j) := by
  refine (congrFun (out48 m hO c) (ValueIdx.ix2 i j)).trans ?_
  refine (ValueIdx.shapeCast_a1b_ab_apply _ _ i j).trans ?_
  show Segs.V3 m c main_v45 (ValueIdx.ix3 (RowsValue.row1 (adm1 m hO) i) (0 : Fin 1) j) = _
  refine (congrFun (v45_is m c) _).trans ?_
  exact ValueIdx.shapeCast_ab_a1b_apply _ _ _ _ _

theorem out49_apply (hO : Ok m) (c : Dev nD) (i : Fin 4096) (j : Fin 64) :
    Segs.W5 m hO c main_v49 (ValueIdx.ix2 i j)
      = PoolValue.pooled (Segs.V1 m c main_v0) (Segs.V1 m c main_v13) (Segs.V1 m c main_v26) (Segs.V1 m c main_v39) (ValueIdx.ix2 (RowsValue.row2 (adm1 m hO) i) j) := by
  refine (congrFun (out49 m hO c) (ValueIdx.ix2 i j)).trans ?_
  refine (ValueIdx.shapeCast_a1b_ab_apply _ _ i j).trans ?_
  show Segs.V3 m c main_v45 (ValueIdx.ix3 (RowsValue.row2 (adm1 m hO) i) (0 : Fin 1) j) = _
  refine (congrFun (v45_is m c) _).trans ?_
  exact ValueIdx.shapeCast_ab_a1b_apply _ _ _ _ _

end Cert.KernelIdeal.Outs

end
-- ==== Proof.RefSide.lean ====
/-
  What the idealized reference computes, read index by index at the ideal instance (a float an extended real).

  The reference averages four tables of shape [150000, 64]: the joined embedding table and three successive
  propagation rounds of it, `light = (((e0 + e1) + e2) + e3) / 4`. Its three results are row lookups: rows of the first
  100000 rows of `light` at the user table, and rows of the last 50000 rows at the two item tables. Each table entry
  `t` is first normalised as `if t < 0 then t + n else t` (`n` the number of rows looked into) and the lookup clamps it
  into range; for an entry already in `[0, n)` both steps are the identity, so result `(i, j)` is `light` at row
  `table i` (plus 100000 for the item tables) and column `j`. The propagation rounds stay closed: they enter only as
  the three partial sums' terms.
-/
import proofs.«116102_j28415503630676_2_alg».proof.Proof.Gen.ReferenceIdeal.Run
import proofs.«116102_j28415503630676_2_alg».proof.Proof.Gen.ReferenceIdeal.Read
import Idealize.ShloMosaic.Lib.ValueIdx
import Idealize.ShloMosaic.Lib.IdealHost

noncomputable section

namespace Cert.ReferenceIdeal.RefSide

open Cert.ReferenceIdeal Cert.ReferenceIdeal.Gen Idealize.ShloMosaic Idealize.ShloMosaic.ValueIdx

/-! ## A table entry that is not negative -/

/-- The normalisation `if t < 0 then t + n else t` leaves an entry that is not negative alone. -/
theorem entry_nonneg (t n : BitVec 32) (h0 : 0 ≤ t.toInt) :
    Scalar.select (IntOp.cmpi .slt t 0#32) (IntOp.addi t n) t = t := by
  have : t.slt 0#32 = false := by
    simp [BitVec.slt]; omega
  simp [IntOp.cmpi, this, Scalar.select]

/-- A word that is not negative as a signed integer is that integer as a natural number. -/
theorem toNat_of_nonneg (t : BitVec 32) (h0 : 0 ≤ t.toInt) : t.toInt.toNat = t.toNat := by
  rw [BitVec.toInt_eq_toNat_cond] at *
  split at h0 <;> omega

/-- A word in `[0, n)` as a signed integer is below `n` as a natural number. -/
theorem toNat_lt_of_range (t : BitVec 32) (n : ℕ) (h0 : 0 ≤ t.toInt) (h1 : t.toInt < n) : t.toNat < n := by
  have := toNat_of_nonneg t h0
  omega

/-! ## A row lookup read at an index -/

section Rows
variable {α : Type}

/-- The dimension numbers of a row lookup `x[t]` of a table `x : [N, C]` at a column of row numbers `t : [R, 1]`:
    result axis 1 is the offset axis, operand axis 0 is collapsed and is the one the start index addresses, the
    index vector lies along axis 1 of the start indices, and a slice is one whole row. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row lookup read at `(i, j)`: the table at row `t[i, 0]`, read signed and clamped into `[0, N − 1]`,
    and column `j`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (j : Fin C) :
    Host.gather (rowDims N R C wf) x idx (ix2 i j)
      = x (ix2 ⟨min (idx (ix2 i (0 : Fin 1))).toInt.toNat (N - 1), by omega⟩ j) := by
  unfold Host.gather
  congr 1
  funext a
  refine Fin.ext ?_
  match a with
  | ⟨0, _⟩ =>
    -- the row axis: the clamped start index, no batching coordinate, no offset (the axis is collapsed)
    show (rowDims N R C wf).start (ix2 i j) idx 0 + (rowDims N R C wf).batchCoord (ix2 i j) 0
      + (rowDims N R C wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 i j) ⟨List.idxOf (0 : Fin 2) (rowDims N R C wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis: no start index addresses it, so the start is 0 and the offset is the result's column
    show (rowDims N R C wf).start (ix2 i j) idx 1 + (rowDims N R C wf).batchCoord (ix2 i j) 1
      + (rowDims N R C wf).offCoord (ix2 i j) 1 = j.val
    rw [GatherDims.batchCoord_eq_zero _ _ _ List.not_mem_nil]
    have hs : (rowDims N R C wf).start (ix2 i j) idx 1 = 0 := by
      unfold GatherDims.start
      rw [dif_neg (show (1 : Fin 2) ∉ (rowDims N R C wf).startIndexMap from
        fun h => absurd (congrArg Fin.val (List.mem_singleton.mp h)) (show (1 : ℕ) ≠ 0 from Nat.one_ne_zero))]
    rw [hs]
    simp only [Nat.add_zero, Nat.zero_add]
    rfl

end Rows

/-! ## The averaged table -/

/-- The reference's averaged table `(((e0 + e1) + e2) + e3) / 4`, as the reference's own composed term of the five
    arguments it depends on: the two embedding tables, the edges' row and column numbers and the edges' weights. -/
def light (a0 : FVec Ideal S100000x64 .f32) (a1 : FVec Ideal S50000x64 .f32) (a2 a3 : IVec S3200000 32)
    (a4 : FVec Ideal S3200000 .f32) : FVec Ideal S150000x64 .f32 :=
  Read.val_main_v44 (F := Ideal) a0 a1 a2 a3 a4

/-! ## The normalised tables at an entry in range -/

/-- The user table, normalised and made a column, reads the table's entry where it is not negative. -/
theorem users_col (a5 : IVec S4096 32) (i : Fin 4096) (h0 : 0 ≤ (a5 (ix1 i)).toInt) :
    Read.val_main_v52 (F := Ideal) a5 (ix2 i (0 : Fin 1)) = a5 (ix1 i) := by
  rw [Read.val_main_v52_apply, Read.val_main_v51_apply, Read.val_main_v48_apply, Read.val_main_v50_apply,
    Read.val_main_v47_apply, Read.val_main_c_8_apply]
  have hk : Read.idx_main_v52 (ix2 i (0 : Fin 1)) = ix1 i := by
    funext a; match a with | ⟨0, _⟩ => rfl
  rw [hk]
  exact entry_nonneg _ _ h0

/-- The first item table, normalised and made a column, reads the table's entry where it is not negative. -/
theorem pos_col (a6 : IVec S4096 32) (i : Fin 4096) (h0 : 0 ≤ (a6 (ix1 i)).toInt) :
    Read.val_main_v59 (F := Ideal) a6 (ix2 i (0 : Fin 1)) = a6 (ix1 i) := by
  rw [Read.val_main_v59_apply, Read.val_main_v58_apply, Read.val_main_v55_apply, Read.val_main_v57_apply,
    Read.val_main_v54_apply, Read.val_main_c_10_apply]
  have hk : Read.idx_main_v59 (ix2 i (0 : Fin 1)) = ix1 i := by
    funext a; match a with | ⟨0, _⟩ => rfl
  rw [hk]
  exact entry_nonneg _ _ h0

/-- The second item table, normalised and made a column, reads the table's entry where it is not negative. -/
theorem neg_col (a7 : IVec S4096 32) (i : Fin 4096) (h0 : 0 ≤ (a7 (ix1 i)).toInt) :
    Read.val_main_v66 (F := Ideal) a7 (ix2 i (0 : Fin 1)) = a7 (ix1 i) := by
  rw [Read.val_main_v66_apply, Read.val_main_v65_apply, Read.val_main_v62_apply, Read.val_main_v64_apply,
    Read.val_main_v61_apply, Read.val_main_c_12_apply]
  have hk : Read.idx_main_v66 (ix2 i (0 : Fin 1)) = ix1 i := by
    funext a; match a with | ⟨0, _⟩ => rfl
  rw [hk]
  exact entry_nonneg _ _ h0

/-! ## The three results at an index -/

/-- With every user entry in `[0, 100000)`, the first result at `(i, j)` is the averaged table at row `users i`,
    column `j`. -/
theorem res_users (a0 : FVec Ideal S100000x64 .f32) (a1 : FVec Ideal S50000x64 .f32) (a2 a3 : IVec S3200000 32)
    (a4 : FVec Ideal S3200000 .f32) (a5 : IVec S4096 32)
    (h : ∀ i : Fin 4096, 0 ≤ (a5 (ix1 i)).toInt ∧ (a5 (ix1 i)).toInt < 100000) (i : Fin 4096) (j : Fin 64) :
    Read.val_main_v53 (F := Ideal) a0 a1 a2 a3 a4 a5 (ix2 i j)
      = light a0 a1 a2 a3 a4 (ix2 (⟨(a5 (ix1 i)).toNat,
          Nat.lt_trans (toNat_lt_of_range _ 100000 (h i).1 (h i).2) (by omega)⟩ : Fin 150000) j) := by
  have hlt := toNat_lt_of_range _ 100000 (h i).1 (h i).2
  unfold Read.val_main_v53
  refine (gather_rows_apply (N := 100000) (R := 4096) (C := 64) (by omega)
    gather_S100000x64_S4096x1_S4096x64_1_0_n_n_0_1_164_wf _ _ i j).trans ?_
  rw [Read.val_main_v45_apply]
  unfold light
  refine congrArg (Read.val_main_v44 (F := Ideal) a0 a1 a2 a3 a4) ?_
  funext a
  refine Fin.ext ?_
  match a with
  | ⟨0, _⟩ =>
    show min (Read.val_main_v52 (F := Ideal) a5 (ix2 i (0 : Fin 1))).toInt.toNat (100000 - 1) = (a5 (ix1 i)).toNat
    rw [users_col a5 i (h i).1, toNat_of_nonneg _ (h i).1]
    omega
  | ⟨1, _⟩ => rfl

/-- With every entry of the first item table in `[0, 50000)`, the second result at `(i, j)` is the averaged table at
    row `100000 + pos i`, column `j`. -/
theorem res_pos (a0 : FVec Ideal S100000x64 .f32) (a1 : FVec Ideal S50000x64 .f32) (a2 a3 : IVec S3200000 32)
    (a4 : FVec Ideal S3200000 .f32) (a6 : IVec S4096 32)
    (h : ∀ i : Fin 4096, 0 ≤ (a6 (ix1 i)).toInt ∧ (a6 (ix1 i)).toInt < 50000) (i : Fin 4096) (j : Fin 64) :
    Read.val_main_v60 (F := Ideal) a0 a1 a2 a3 a4 a6 (ix2 i j)
      = light a0 a1 a2 a3 a4 (ix2 (⟨100000 + (a6 (ix1 i)).toNat,
          by have := toNat_lt_of_range _ 50000 (h i).1 (h i).2; omega⟩ : Fin 150000) j) := by
  have hlt := toNat_lt_of_range _ 50000 (h i).1 (h i).2
  unfold Read.val_main_v60
  refine (gather_rows_apply (N := 50000) (R := 4096) (C := 64) (by omega)
    gather_S50000x64_S4096x1_S4096x64_1_0_n_n_0_1_164_wf _ _ i j).trans ?_
  rw [Read.val_main_v46_apply]
  unfold light
  refine congrArg (Read.val_main_v44 (F := Ideal) a0 a1 a2 a3 a4) ?_
  funext a
  refine Fin.ext ?_
  match a with
  | ⟨0, _⟩ =>
    show 100000 + min (Read.val_main_v59 (F := Ideal) a6 (ix2 i (0 : Fin 1))).toInt.toNat (50000 - 1)
      = 100000 + (a6 (ix1 i)).toNat
    rw [pos_col a6 i (h i).1, toNat_of_nonneg _ (h i).1]
    omega
  | ⟨1, _⟩ => rfl

/-- With every entry of the second item table in `[0, 50000)`, the third result at `(i, j)` is the averaged table at
    row `100000 + neg i`, column `j`. -/
theorem res_neg (a0 : FVec Ideal S100000x64 .f32) (a1 : FVec Ideal S50000x64 .f32) (a2 a3 : IVec S3200000 32)
    (a4 : FVec Ideal S3200000 .f32) (a7 : IVec S4096 32)
    (h : ∀ i : Fin 4096, 0 ≤ (a7 (ix1 i)).toInt ∧ (a7 (ix1 i)).toInt < 50000) (i : Fin 4096) (j : Fin 64) :
    Read.val_main_v67 (F := Ideal) a0 a1 a2 a3 a4 a7 (ix2 i j)
      = light a0 a1 a2 a3 a4 (ix2 (⟨100000 + (a7 (ix1 i)).toNat,
          by have := toNat_lt_of_range _ 50000 (h i).1 (h i).2; omega⟩ : Fin 150000) j) := by
  have hlt := toNat_lt_of_range _ 50000 (h i).1 (h i).2
  unfold Read.val_main_v67
  refine (gather_rows_apply (N := 50000) (R := 4096) (C := 64) (by omega)
    gather_S50000x64_S4096x1_S4096x64_1_0_n_n_0_1_164_wf _ _ i j).trans ?_
  rw [Read.val_main_v46_apply]
  unfold light
  refine congrArg (Read.val_main_v44 (F := Ideal) a0 a1 a2 a3 a4) ?_
  funext a
  refine Fin.ext ?_
  match a with
  | ⟨0, _⟩ =>
    show 100000 + min (Read.val_main_v66 (F := Ideal) a7 (ix2 i (0 : Fin 1))).toInt.toNat (50000 - 1)
      = 100000 + (a7 (ix1 i)).toNat
    rw [neg_col a7 i (h i).1, toNat_of_nonneg _ (h i).1]
    omega
  | ⟨1, _⟩ => rfl

/-! ## The averaged table at an index -/

/-- The joined embedding table `e0`: the first table's 100000 rows, then the second's 50000. -/
abbrev e0 (a0 : FVec Ideal S100000x64 .f32) (a1 : FVec Ideal S50000x64 .f32) : FVec Ideal S150000x64 .f32 :=
  Read.val_main_v0 (F := Ideal) a0 a1

/-- The first propagation round `e1`, closed: the reference's own term. -/
abbrev e1 (a0 : FVec Ideal S100000x64 .f32) (a1 : FVec Ideal S50000x64 .f32) (a2 a3 : IVec S3200000 32)
    (a4 : FVec Ideal S3200000 .f32) : FVec Ideal S150000x64 .f32 :=
  Read.val_main_v13 (F := Ideal) a0 a1 a2 a3 a4

/-- The second propagation round `e2`, closed: the reference's own term. -/
abbrev e2 (a0 : FVec Ideal S100000x64 .f32) (a1 : FVec Ideal S50000x64 .f32) (a2 a3 : IVec S3200000 32)
    (a4 : FVec Ideal S3200000 .f32) : FVec Ideal S150000x64 .f32 :=
  Read.val_main_v27 (F := Ideal) a0 a1 a2 a3 a4

/-- The third propagation round `e3`, closed: the reference's own term. -/
abbrev e3 (a0 : FVec Ideal S100000x64 .f32) (a1 : FVec Ideal S50000x64 .f32) (a2 a3 : IVec S3200000 32)
    (a4 : FVec Ideal S3200000 .f32) : FVec Ideal S150000x64 .f32 :=
  Read.val_main_v41 (F := Ideal) a0 a1 a2 a3 a4

/-- The averaged table at `(p, q)`: the four tables' elements summed from the left, divided by the extended real the
    word `0x40800000` encodes (four). -/
theorem light_apply (a0 : FVec Ideal S100000x64 .f32) (a1 : FVec Ideal S50000x64 .f32) (a2 a3 : IVec S3200000 32)
    (a4 : FVec Ideal S3200000 .f32) (p : Fin 150000) (q : Fin 64) :
    light a0 a1 a2 a3 a4 (ix2 p q)
      = Ideal.div (((e0 a0 a1 (ix2 p q) + e1 a0 a1 a2 a3 a4 (ix2 p q)) + e2 a0 a1 a2 a3 a4 (ix2 p q))
          + e3 a0 a1 a2 a3 a4 (ix2 p q)) (Ideal.ofBits .f32 0x40800000#32) := by
  unfold light
  rw [Read.val_main_v44_apply, Read.val_main_v42_apply, Read.val_main_v28_apply, Read.val_main_v14_apply,
    Read.val_main_v43_apply, Read.val_main_cst_7_apply]
  rfl

/-- The joined table at a row of the first table is the first table there. -/
theorem e0_apply_left (a0 : FVec Ideal S100000x64 .f32) (a1 : FVec Ideal S50000x64 .f32) (p : Fin 150000)
    (q : Fin 64) (hp : p.val < 100000) :
    e0 a0 a1 (ix2 p q) = a0 (ix2 (⟨p.val, hp⟩ : Fin 100000) q) := by
  unfold e0 Read.val_main_v0
  refine concatenate_pair_apply_left (0 : Fin 2) a0 a1 concatenates_S100000x64_S50000x64_S150000x64_d0 (ix2 p q) rfl
    (ix2 (⟨p.val, hp⟩ : Fin 100000) q) ?_
  intro b
  match b with
  | ⟨0, _⟩ => rfl
  | ⟨1, _⟩ => rfl

/-- The joined table at a row past the first table is the second table at that row less 100000. -/
theorem e0_apply_right (a0 : FVec Ideal S100000x64 .f32) (a1 : FVec Ideal S50000x64 .f32) (p : Fin 150000)
    (q : Fin 64) (hp : 100000 ≤ p.val) :
    e0 a0 a1 (ix2 p q) = a1 (ix2 (⟨p.val - 100000, by have := p.isLt; omega⟩ : Fin 50000) q) := by
  unfold e0 Read.val_main_v0
  refine concatenate_pair_apply_right (0 : Fin 2) a0 a1 concatenates_S100000x64_S50000x64_S150000x64_d0 (ix2 p q) rfl rfl
    (ix2 (⟨p.val - 100000, by have := p.isLt; omega⟩ : Fin 50000) q) ?_ ?_
  · intro b hb
    match b with
    | ⟨0, _⟩ => exact absurd rfl hb
    | ⟨1, _⟩ => rfl
  · show p.val - 100000 + 100000 = p.val
    omega

end Cert.ReferenceIdeal.RefSide

end
-- ==== Proof.Bridge.lean ====
/-
  The bridge between the two idealized programs at the ideal instance (a float an extended real).

  The kernel program begins with the same host operations as the reference: the joined embedding table and three
  propagation rounds over it, so after that stretch the four tables it hands to its first kernel call are the
  reference's `e0`, `e1`, `e2`, `e3`. The kernel then pools them as `(((x0 + x1) + x2) + x3) · ¼` where the reference
  divides the same sum by `4`; on extended reals the product with a quarter IS the division by four, at the
  infinities and the junk value too, so the pooled array is the reference's averaged table.
-/
import proofs.«116102_j28415503630676_2_alg».proof.Proof.RefSide
import proofs.«116102_j28415503630676_2_alg».proof.Proof.Gen.KernelIdeal.Launch
import Idealize.ShloMosaic.Lib.StableHlo.Run

noncomputable section

namespace Cert.Bridge

open Idealize.ShloMosaic Idealize.ShloMosaic.TcCoe Idealize.SL.Sem Idealize.ShloMosaic.ValueIdx
open Cert.KernelIdeal Cert.KernelIdeal.Gen

/-! ## The kernel program's first host stretch leaves the reference's four tables -/

section Stretch
variable (W : Valuation τ sig (Elt Ideal))

/-- After the stretch the joined table's buffer holds the reference's `e0` of the two embedding tables. -/
theorem v0_eq : StableHlo.after (hostOps0 (F := Ideal)) W (Proc.devRef .tc main_v0)
    = Cert.ReferenceIdeal.RefSide.e0 (W (Proc.devRef .tc main_arg0)) (W (Proc.devRef .tc main_arg1)) := by
  show StableHlo.after hostOps0 W (Proc.devRef .tc main_v0) = _
  after_results_simp; rfl

/-- After the stretch the first round's buffer holds the reference's `e1` of the five arguments. -/
theorem v13_eq : StableHlo.after (hostOps0 (F := Ideal)) W (Proc.devRef .tc main_v13)
    = Cert.ReferenceIdeal.RefSide.e1 (W (Proc.devRef .tc main_arg0)) (W (Proc.devRef .tc main_arg1))
        (W (Proc.devRef .tc main_arg2)) (W (Proc.devRef .tc main_arg3)) (W (Proc.devRef .tc main_arg4)) := by
  show StableHlo.after hostOps0 W (Proc.devRef .tc main_v13) = _
  after_results_simp; rfl

/-- After the stretch the second round's buffer holds the reference's `e2` of the five arguments. -/
theorem v26_eq : StableHlo.after (hostOps0 (F := Ideal)) W (Proc.devRef .tc main_v26)
    = Cert.ReferenceIdeal.RefSide.e2 (W (Proc.devRef .tc main_arg0)) (W (Proc.devRef .tc main_arg1))
        (W (Proc.devRef .tc main_arg2)) (W (Proc.devRef .tc main_arg3)) (W (Proc.devRef .tc main_arg4)) := by
  show StableHlo.after hostOps0 W (Proc.devRef .tc main_v26) = _
  after_results_simp; rfl

/-- After the stretch the third round's buffer holds the reference's `e3` of the five arguments. -/
theorem v39_eq : StableHlo.after (hostOps0 (F := Ideal)) W (Proc.devRef .tc main_v39)
    = Cert.ReferenceIdeal.RefSide.e3 (W (Proc.devRef .tc main_arg0)) (W (Proc.devRef .tc main_arg1))
        (W (Proc.devRef .tc main_arg2)) (W (Proc.devRef .tc main_arg3)) (W (Proc.devRef .tc main_arg4)) := by
  show StableHlo.after hostOps0 W (Proc.devRef .tc main_v39) = _
  after_results_simp; rfl

end Stretch

/-! ## A quarter and four -/

/-- The word `0x3E800000` encodes the real one quarter. -/
theorem ofBits_quarter : Ideal.ofBits .f32 0x3E800000#32 = (((1 : ℝ) / 4 : ℝ) : EReal) := by
  simp [Ideal.ofBits, Ideal.ieee, -EReal.coe_mul]; norm_num

/-- The word `0x40800000` encodes the real four. -/
theorem ofBits_four : Ideal.ofBits .f32 0x40800000#32 = ((4 : ℝ) : EReal) := by
  simp [Ideal.ofBits, Ideal.ieee, -EReal.coe_mul]; norm_num

/-- On every extended real, the product with a quarter is the division by four: four is a real that is not zero, so
    dividing by it is multiplying by its reciprocal, at the infinities and the junk value as well. -/
theorem quarter (x : EReal) :
    x * Ideal.ofBits .f32 0x3E800000#32 = Ideal.div x (Ideal.ofBits .f32 0x40800000#32) := by
  rw [ofBits_quarter, ofBits_four, Ideal.div_coe (by norm_num : (4 : ℝ) ≠ 0)]

/-! ## The pooled array is the averaged table -/

/-- The kernel's pooled array — the four tables summed from the left, times the splat of a quarter — is the
    reference's averaged table: at each index the left side is the sum of the four elements times a quarter and the
    right side the same sum divided by four. -/
theorem pooled_eq_light (a0 : FVec Ideal Cert.ReferenceIdeal.S100000x64 .f32)
    (a1 : FVec Ideal Cert.ReferenceIdeal.S50000x64 .f32) (a2 a3 : IVec Cert.ReferenceIdeal.S3200000 32)
    (a4 : FVec Ideal Cert.ReferenceIdeal.S3200000 .f32) :
    mulf (addf (addf (addf (Cert.ReferenceIdeal.RefSide.e0 a0 a1) (Cert.ReferenceIdeal.RefSide.e1 a0 a1 a2 a3 a4))
        (Cert.ReferenceIdeal.RefSide.e2 a0 a1 a2 a3 a4)) (Cert.ReferenceIdeal.RefSide.e3 a0 a1 a2 a3 a4))
      (broadcast Cert.KernelIdeal.S150000x64 (Scalar.ofBits (F := Ideal) .f32 0x3E800000#32))
      = Cert.ReferenceIdeal.RefSide.light a0 a1 a2 a3 a4 := by
  funext k
  obtain ⟨p, q, rfl⟩ : ∃ (p : Fin 150000) (q : Fin 64), k = ix2 p q := ⟨k 0, k 1, eq_ix2 k⟩
  rw [Cert.ReferenceIdeal.RefSide.light_apply]
  exact quarter _

end Cert.Bridge

end
-- ==== Proof.Final.lean ====
/-
  The two sides joined, at the ideal instance (a float an extended real).

  The kernel program's three results are rows of its pooled array, the rows the three tables name; the pooled array
  is the reference's averaged table; and under the precondition the reference's three results are rows of that same
  table, at the same row numbers: the user table's entries, and the item tables' entries moved past the 100000 user
  rows. So each result of the reference is, index by index, what the kernel program leaves in the matching result
  buffer.
-/
import proofs.«116102_j28415503630676_2_alg».proof.Proof.KernelValue
import proofs.«116102_j28415503630676_2_alg».proof.Proof.Bridge
import proofs.«116102_j28415503630676_2_alg».proof.Proof.Ends

noncomputable section

namespace Cert.Final

open Cert.KernelIdeal
open Idealize.ShloMosaic Idealize.ShloMosaic.TcCoe Idealize.SL.Sem Idealize.ShloMosaic.ValueIdx
open Cert.KernelIdeal.Segs

variable (m : (ℓ : Loc nD τ sig) → Buf (Elt Ideal) ℓ)

/-! ## The pooled array is the averaged table -/

/-- What the first kernel averages — the four tables the first host stretch leaves — pooled, is the reference's
    averaged table of the launch arguments. -/
theorem pooled_is_light (c : Dev nD) :
    PoolValue.pooled (F := Ideal) (V1 m c main_v0) (V1 m c main_v13) (V1 m c main_v26) (V1 m c main_v39)
      = Cert.ReferenceIdeal.RefSide.light (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have e0 : V1 m c main_v0 = _ := Cert.Bridge.v0_eq (W0 m c)
  have e1 : V1 m c main_v13 = _ := Cert.Bridge.v13_eq (W0 m c)
  have e2 : V1 m c main_v26 = _ := Cert.Bridge.v26_eq (W0 m c)
  have e3 : V1 m c main_v39 = _ := Cert.Bridge.v39_eq (W0 m c)
  rw [e0, e1, e2, e3]
  exact Cert.Bridge.pooled_eq_light _ _ _ _ _

/-! ## The three results -/

section Results

variable (h : ∀ c : Dev nD, Cert.Pre_finite_inputs.fn (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) = fun _ => 1#1)

-- the buffers' types are looked up in the signature's table many times over: more than the default budget
set_option maxHeartbeats 1000000 in
/-- The reference's first result is what the kernel program leaves in its first result buffer: both are the averaged
    table at the rows the user table names. -/
theorem result0 (c : Dev nD) :
    Cert.ReferenceIdeal.Read.val_main_v53 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))
      = W5 m (Cert.KernelIdeal.Ends.ok_of_pre m h) c main_v47 := by
  obtain rfl : c = 0 := Subsingleton.elim _ _
  funext k
  obtain ⟨i, j, rfl⟩ : ∃ (i : Fin 4096) (j : Fin 64), k = ix2 i j := ⟨k 0, k 1, eq_ix2 k⟩
  have r := Cert.KernelIdeal.Ends.pre_ranges m h
  rw [Cert.KernelIdeal.Outs.out47_apply m _ 0 i j, pooled_is_light m 0,
    Cert.ReferenceIdeal.RefSide.res_users _ _ _ _ _ _ (fun i => r.1 (ix1 i)) i j]
  refine congrArg (fun q => Cert.ReferenceIdeal.RefSide.light _ _ _ _ _ (ix2 q j)) (Fin.ext ?_)
  exact ((Cert.KernelIdeal.Ends.tbl0_lt m h (ix1 i)).1).symm

set_option maxHeartbeats 1000000 in
/-- The reference's second result is what the kernel program leaves in its second result buffer: both are the
    averaged table at the rows the first item table names, past the 100000 user rows. -/
theorem result1 (c : Dev nD) :
    Cert.ReferenceIdeal.Read.val_main_v60 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg6))
      = W5 m (Cert.KernelIdeal.Ends.ok_of_pre m h) c main_v48 := by
  obtain rfl : c = 0 := Subsingleton.elim _ _
  funext k
  obtain ⟨i, j, rfl⟩ : ∃ (i : Fin 4096) (j : Fin 64), k = ix2 i j := ⟨k 0, k 1, eq_ix2 k⟩
  have r := Cert.KernelIdeal.Ends.pre_ranges m h
  rw [Cert.KernelIdeal.Outs.out48_apply m _ 0 i j, pooled_is_light m 0,
    Cert.ReferenceIdeal.RefSide.res_pos _ _ _ _ _ _ (fun i => r.2.1 (ix1 i)) i j]
  refine congrArg (fun q => Cert.ReferenceIdeal.RefSide.light _ _ _ _ _ (ix2 q j)) (Fin.ext ?_)
  exact (Nat.add_comm _ _).trans ((Cert.KernelIdeal.Ends.tbl1_val m h (ix1 i)).1).symm

set_option maxHeartbeats 1000000 in
/-- The reference's third result is what the kernel program leaves in its third result buffer: both are the averaged
    table at the rows the second item table names, past the 100000 user rows. -/
theorem result2 (c : Dev nD) :
    Cert.ReferenceIdeal.Read.val_main_v67 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg7))
      = W5 m (Cert.KernelIdeal.Ends.ok_of_pre m h) c main_v49 := by
  obtain rfl : c = 0 := Subsingleton.elim _ _
  funext k
  obtain ⟨i, j, rfl⟩ : ∃ (i : Fin 4096) (j : Fin 64), k = ix2 i j := ⟨k 0, k 1, eq_ix2 k⟩
  have r := Cert.KernelIdeal.Ends.pre_ranges m h
  rw [Cert.KernelIdeal.Outs.out49_apply m _ 0 i j, pooled_is_light m 0,
    Cert.ReferenceIdeal.RefSide.res_neg _ _ _ _ _ _ (fun i => r.2.2 (ix1 i)) i j]
  refine congrArg (fun q => Cert.ReferenceIdeal.RefSide.light _ _ _ _ _ (ix2 q j)) (Fin.ext ?_)
  exact (Nat.add_comm _ _).trans ((Cert.KernelIdeal.Ends.tbl2_val m h (ix1 i)).1).symm

end Results

end Cert.Final

end
-- ==== Proof.lean ====
/-
  The certificate of a three-layer graph propagation with mean pooling and row lookup.

  Both programs build e0 = the two embedding tables stacked [150000, 64], then e1, e2, e3 by three rounds of
  "gather the rows named by col, scale by vals, add into the rows named by row"; these host rounds are the same
  operations in both, so they are never opened. The kernel then pools in blocks of 10000 rows,
  ((e0 + e1) + e2 + e3) · 1/4, and copies out, for each of three tables of 4096 row numbers (users; the item
  tables offset by 100000), the row the table names. The reference divides the same sum by 4, cuts the result at
  row 100000 and looks the rows up in the two pieces. On the extended reals x · 1/4 = x / 4 for every x, so
  nothing needs finiteness; what is needed is that the tables name rows that exist: entries of users in
  [0, 100000), of the two item tables in [0, 50000) — outside it the kernel's block would lie outside its array
  and the reference's lookup outside its piece.

  Frames: each kernel program is five items (host operations, the pooling kernel, host operations, the row-copy
  kernel, host operations); the run of the five leaves every unscoped buffer at a named content, and no item
  writes an argument. The reference is host operations only.
-/
import proofs.«116102_j28415503630676_2_alg».proof.Defs
import proofs.«116102_j28415503630676_2_alg».proof.Proof.Gen.Kernel
import proofs.«116102_j28415503630676_2_alg».proof.Proof.Gen.Kernel.Skeleton
import proofs.«116102_j28415503630676_2_alg».proof.Proof.Gen.Kernel.Launch
import proofs.«116102_j28415503630676_2_alg».proof.Proof.Gen.Kernel.Regions
import proofs.«116102_j28415503630676_2_alg».proof.Proof.Gen.Kernel.Points
import proofs.«116102_j28415503630676_2_alg».proof.Proof.Gen.KernelIdeal
import proofs.«116102_j28415503630676_2_alg».proof.Proof.Gen.KernelIdeal.Skeleton
import proofs.«116102_j28415503630676_2_alg».proof.Proof.Gen.KernelIdeal.Launch
import proofs.«116102_j28415503630676_2_alg».proof.Proof.Gen.KernelIdeal.Regions
import proofs.«116102_j28415503630676_2_alg».proof.Proof.Gen.KernelIdeal.Points
import proofs.«116102_j28415503630676_2_alg».proof.Proof.Gen.ReferenceIdeal
import proofs.«116102_j28415503630676_2_alg».proof.Proof.Gen.ReferenceIdeal.Run
import proofs.«116102_j28415503630676_2_alg».proof.Proof.Gen.ReferenceIdeal.Read
import proofs.«116102_j28415503630676_2_alg».proof.Proof.Gen.Pre_finite_inputs
import proofs.«116102_j28415503630676_2_alg».proof.Proof.Chain
import proofs.«116102_j28415503630676_2_alg».proof.Proof.ChainK
import proofs.«116102_j28415503630676_2_alg».proof.Proof.Ends
import proofs.«116102_j28415503630676_2_alg».proof.Proof.EndsK
import proofs.«116102_j28415503630676_2_alg».proof.Proof.Final
import Idealize.ShloMosaic.Adequacy
import Idealize.ShloMosaic.Init

noncomputable section

namespace Cert.Proof

open Idealize.ShloMosaic Idealize.SL.Sem

/-- The word-level kernel program runs and leaves its arguments: the run of its five items, read at the eight
    argument buffers. -/
theorem frame_k : Cert.frame_Kernel (hKernel := Cert.Kernel.Gen.facts) (hPre_finite_inputs := Cert.Pre_finite_inputs.Gen.facts) := fun m ρ hpre =>
  have hO := Cert.Kernel.Ends.ok_of_pre m hpre
  (θ_run Cert.Kernel.defs _ _).mono (fun r h c =>
    ⟨(h c _ (Cert.Kernel.Segs.mem_uc Cert.Kernel.main_arg0 (by decide))).trans (Cert.Kernel.Ends.W5_main_arg0 m hO c),
     (h c _ (Cert.Kernel.Segs.mem_uc Cert.Kernel.main_arg1 (by decide))).trans (Cert.Kernel.Ends.W5_main_arg1 m hO c),
     (h c _ (Cert.Kernel.Segs.mem_uc Cert.Kernel.main_arg2 (by decide))).trans (Cert.Kernel.Ends.W5_main_arg2 m hO c),
     (h c _ (Cert.Kernel.Segs.mem_uc Cert.Kernel.main_arg3 (by decide))).trans (Cert.Kernel.Ends.W5_main_arg3 m hO c),
     (h c _ (Cert.Kernel.Segs.mem_uc Cert.Kernel.main_arg4 (by decide))).trans (Cert.Kernel.Ends.W5_main_arg4 m hO c),
     (h c _ (Cert.Kernel.Segs.mem_uc Cert.Kernel.main_arg5 (by decide))).trans (Cert.Kernel.Ends.W5_main_arg5 m hO c),
     (h c _ (Cert.Kernel.Segs.mem_uc Cert.Kernel.main_arg6 (by decide))).trans (Cert.Kernel.Ends.W5_main_arg6 m hO c),
     (h c _ (Cert.Kernel.Segs.mem_uc Cert.Kernel.main_arg7 (by decide))).trans (Cert.Kernel.Ends.W5_main_arg7 m hO c)⟩)
    (Cert.Kernel.Chain.main_run (F := Bits) m ρ hO)

/-- The same for the idealized kernel program. -/
theorem frame_ki : Cert.frame_KernelIdeal (hKernelIdeal := Cert.KernelIdeal.Gen.facts) (hPre_finite_inputs := Cert.Pre_finite_inputs.Gen.facts) := fun m ρ hpre =>
  have hO := Cert.KernelIdeal.Ends.ok_of_pre m hpre
  (θ_run Cert.KernelIdeal.defs _ _).mono (fun r h c =>
    ⟨(h c _ (Cert.KernelIdeal.Segs.mem_uc Cert.KernelIdeal.main_arg0 (by decide))).trans (Cert.KernelIdeal.Ends.W5_main_arg0 m hO c),
     (h c _ (Cert.KernelIdeal.Segs.mem_uc Cert.KernelIdeal.main_arg1 (by decide))).trans (Cert.KernelIdeal.Ends.W5_main_arg1 m hO c),
     (h c _ (Cert.KernelIdeal.Segs.mem_uc Cert.KernelIdeal.main_arg2 (by decide))).trans (Cert.KernelIdeal.Ends.W5_main_arg2 m hO c),
     (h c _ (Cert.KernelIdeal.Segs.mem_uc Cert.KernelIdeal.main_arg3 (by decide))).trans (Cert.KernelIdeal.Ends.W5_main_arg3 m hO c),
     (h c _ (Cert.KernelIdeal.Segs.mem_uc Cert.KernelIdeal.main_arg4 (by decide))).trans (Cert.KernelIdeal.Ends.W5_main_arg4 m hO c),
     (h c _ (Cert.KernelIdeal.Segs.mem_uc Cert.KernelIdeal.main_arg5 (by decide))).trans (Cert.KernelIdeal.Ends.W5_main_arg5 m hO c),
     (h c _ (Cert.KernelIdeal.Segs.mem_uc Cert.KernelIdeal.main_arg6 (by decide))).trans (Cert.KernelIdeal.Ends.W5_main_arg6 m hO c),
     (h c _ (Cert.KernelIdeal.Segs.mem_uc Cert.KernelIdeal.main_arg7 (by decide))).trans (Cert.KernelIdeal.Ends.W5_main_arg7 m hO c)⟩)
    (Cert.KernelIdeal.Chain.main_run (F := Ideal) m ρ hO)

/-- The reference is host operations only: its run, with the results dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2.2) (Cert.ReferenceIdeal.Value.run (F := Ideal) m ρ)

set_option maxHeartbeats 4000000 in
/-- On the extended reals the kernel's three results — the pooled array's rows named by the three tables — are
    the reference's: the run of the kernel's five items on one side, the reference's run on the other, from
    memories that agree on the arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  have hO := Cert.KernelIdeal.Ends.ok_of_pre m hpre
  refine ⟨fun c => Cert.KernelIdeal.Segs.W5 m hO c (Proc.devRef .tc Cert.KernelIdeal.main_v47), fun c => Cert.KernelIdeal.Segs.W5 m hO c (Proc.devRef .tc Cert.KernelIdeal.main_v48),
    fun c => Cert.KernelIdeal.Segs.W5 m hO c (Proc.devRef .tc Cert.KernelIdeal.main_v49), ?_, ?_⟩
  · exact (θ_run Cert.KernelIdeal.defs _ _).mono (fun r h c =>
      ⟨h c _ (Cert.KernelIdeal.Segs.mem_uc Cert.KernelIdeal.main_v47 (by decide)),
       h c _ (Cert.KernelIdeal.Segs.mem_uc Cert.KernelIdeal.main_v48 (by decide)),
       h c _ (Cert.KernelIdeal.Segs.mem_uc Cert.KernelIdeal.main_v49 (by decide)),
       (h c _ (Cert.KernelIdeal.Segs.mem_uc Cert.KernelIdeal.main_arg0 (by decide))).trans (Cert.KernelIdeal.Ends.W5_main_arg0 m hO c),
       (h c _ (Cert.KernelIdeal.Segs.mem_uc Cert.KernelIdeal.main_arg1 (by decide))).trans (Cert.KernelIdeal.Ends.W5_main_arg1 m hO c),
       (h c _ (Cert.KernelIdeal.Segs.mem_uc Cert.KernelIdeal.main_arg2 (by decide))).trans (Cert.KernelIdeal.Ends.W5_main_arg2 m hO c),
       (h c _ (Cert.KernelIdeal.Segs.mem_uc Cert.KernelIdeal.main_arg3 (by decide))).trans (Cert.KernelIdeal.Ends.W5_main_arg3 m hO c),
       (h c _ (Cert.KernelIdeal.Segs.mem_uc Cert.KernelIdeal.main_arg4 (by decide))).trans (Cert.KernelIdeal.Ends.W5_main_arg4 m hO c),
       (h c _ (Cert.KernelIdeal.Segs.mem_uc Cert.KernelIdeal.main_arg5 (by decide))).trans (Cert.KernelIdeal.Ends.W5_main_arg5 m hO c),
       (h c _ (Cert.KernelIdeal.Segs.mem_uc Cert.KernelIdeal.main_arg6 (by decide))).trans (Cert.KernelIdeal.Ends.W5_main_arg6 m hO c),
       (h c _ (Cert.KernelIdeal.Segs.mem_uc Cert.KernelIdeal.main_arg7 (by decide))).trans (Cert.KernelIdeal.Ends.W5_main_arg7 m hO c)⟩)
      (Cert.KernelIdeal.Chain.main_run (F := Ideal) m ρ hO)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v53_eq, (hagree c).1, (hagree c).2.1, (hagree c).2.2.1, (hagree c).2.2.2.1, (hagree c).2.2.2.2.1,
        (hagree c).2.2.2.2.2.1]
      exact Cert.Final.result0 m hpre c
    · rw [Cert.ReferenceIdeal.Read.val_main_v60_eq, (hagree c).1, (hagree c).2.1, (hagree c).2.2.1, (hagree c).2.2.2.1, (hagree c).2.2.2.2.1,
        (hagree c).2.2.2.2.2.2.1]
      exact Cert.Final.result1 m hpre c
    · rw [Cert.ReferenceIdeal.Read.val_main_v67_eq, (hagree c).1, (hagree c).2.1, (hagree c).2.2.1, (hagree c).2.2.2.1, (hagree c).2.2.2.2.1,
        (hagree c).2.2.2.2.2.2.2]
      exact Cert.Final.result2 m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
